-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x100000 : Shape := ⟨2, ![2, 100000]⟩
abbrev S100000x512 : Shape := ⟨2, ![100000, 512]⟩
abbrev S50000x2 : Shape := ⟨2, ![50000, 2]⟩
abbrev S1x512 : Shape := ⟨2, ![1, 512]⟩
abbrev S2068x512 : Shape := ⟨2, ![2068, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S50000x2 : S_.BroadcastsInDim S50000x2 (![] : Fin 0 → Fin S50000x2.rank)
  reducesTo_S50000x2_S_d0_1 : S50000x2.ReducesTo [0, 1] S_
  bcast_S_S1x512 : S_.BroadcastsInDim S1x512 (![] : Fin 0 → Fin S1x512.rank)
  reducesTo_S1x512_S_d0_1 : S1x512.ReducesTo [0, 1] S_
  bcast_S_S2068x512 : S_.BroadcastsInDim S2068x512 (![] : Fin 0 → Fin S2068x512.rank)
  reducesTo_S2068x512_S_d0_1 : S2068x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S512x1 .f32) (main_arg9 : FVec F S1 .f32) (main_v33 : IVec S_ 1) : IVec S_ 1 :=
  let main_v34 : FVec F S512x1 .f32 := Host.absf main_arg8
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S1x512 .f32) (main_arg6 : FVec F S2068x512 .f32) (main_arg7 : FVec F S512 .f32) (main_arg8 : FVec F S512x1 .f32) (main_arg9 : FVec F S1 .f32) (main_v13 : IVec S_ 1) (main_v16 : IVec S100000x512 1) : IVec S_ 1 :=
  let main_c_5 : IVec S_ 1 := constantI S_ 1 1#1
  let main_v17 : IVec S_ 1 := (fun x v => Host.reduce IntOp.andi x v reducesTo_S100000x512_S_d0_1 h_S_) main_v16 main_c_5
  let main_v18 : IVec S_ 1 := andi main_v13 main_v17
  let main_v19 : FVec F S1x512 .f32 := Host.absf main_arg5
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S2068x512 .f32 := Host.absf main_arg6
  let main_cst_8 : FVec F S_ .f32 := constant S_ .f32 0x7F800000#32
  let main_v25 : FVec F S2068x512 .f32 := broadcastInDim S2068x512 ![] bcast_S_S2068x512 main_cst_8
  let main_v26 : IVec S2068x512 1 := cmpf .olt main_v24 main_v25
  let main_c_9 : IVec S_ 1 := constantI S_ 1 1#1
  let main_v27 : IVec S_ 1 := (fun x v => Host.reduce IntOp.andi x v reducesTo_S2068x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x100000 32) (main_arg2 : FVec F S100000x512 .f32) (main_arg3 : FVec F S50000x2 .f32) (main_arg4 : FVec F S100000x512 .f32) (main_arg5 : FVec F S1x512 .f32) (main_arg6 : FVec F S2068x512 .f32) (main_arg7 : FVec F S512 .f32) (main_arg8 : FVec F S512x1 .f32) (main_arg9 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S50000x2 .f32 := Host.absf main_arg3
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  let main_v14 : FVec F S100000x512 .f32 := Host.absf main_arg4
  let main_cst_4 : FVec F S_ .f32 := constant S_ .f32 0x7F800000#32
  let main_v15 : FVec F S100000x512 .f32 := broadcastInDim S100000x512 ![] bcast_S_S100000x512 main_cst_4
  let main_v16 : IVec S100000x512 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x100000 : Shape := ⟨2, ![2, 100000]⟩
abbrev S100000x512 : Shape := ⟨2, ![100000, 512]⟩
abbrev S50000x2 : Shape := ⟨2, ![50000, 2]⟩
abbrev S1x512 : Shape := ⟨2, ![1, 512]⟩
abbrev S2068x512 : Shape := ⟨2, ![2068, 512]⟩
abbrev S512 : Shape := ⟨1, ![512]⟩
abbrev S512x1 : Shape := ⟨2, ![512, 1]⟩
abbrev S1 : Shape := ⟨1, ![1]⟩
abbrev S1x100000 : Shape := ⟨2, ![1, 100000]⟩
abbrev S100000 : Shape := ⟨1, ![100000]⟩
abbrev S_ : Shape := ⟨0, ![]⟩
abbrev S50000 : Shape := ⟨1, ![50000]⟩
abbrev S50000x1 : Shape := ⟨2, ![50000, 1]⟩
abbrev S100000x1 : Shape := ⟨2, ![100000, 1]⟩
abbrev S100000x2 : Shape := ⟨2, ![100000, 2]⟩
abbrev S50000x522 : Shape := ⟨2, ![50000, 522]⟩
abbrev S512x512 : Shape := ⟨2, ![512, 512]⟩
abbrev S522x512 : Shape := ⟨2, ![522, 512]⟩
abbrev S2000x522 : Shape := ⟨2, ![2000, 522]⟩
abbrev S2000x512 : Shape := ⟨2, ![2000, 512]⟩
abbrev S2000x1 : Shape := ⟨2, ![2000, 1]⟩
abbrev S2000 : Shape := ⟨1, ![2000]⟩
abbrev S1x1 : Shape := ⟨2, ![1, 1]⟩

abbrev nBuf : Space → Nat
  | .hbm => 132
  | .vmem => 23
  | .smem => 0
  | _ => 0

abbrev hbmTy0_0 (i : Nat) : BufTy := match i % 128 with
  | 0 => ⟨S50000x512, .f32⟩
  | 1 => ⟨S2x100000, .i32⟩
  | 2 => ⟨S100000x512, .f32⟩
  | 3 => ⟨S50000x2, .f32⟩
  | 4 => ⟨S100000x512, .f32⟩
  | 5 => ⟨S1x512, .f32⟩
  | 6 => ⟨S2068x512, .f32⟩
  | 7 => ⟨S512, .f32⟩
  | 8 => ⟨S512x1, .f32⟩
  | 9 => ⟨S1, .f32⟩
  | 10 => ⟨S1x100000, .i32⟩
  | 11 => ⟨S100000, .i32⟩
  | 12 => ⟨S1x100000, .i32⟩
  | 13 => ⟨S100000, .i32⟩
  | 14 => ⟨S_, .f32⟩
  | 15 => ⟨S50000x512, .f32⟩
  | 16 => ⟨S50000x512, .i1⟩
  | 17 => ⟨S_, .i1⟩
  | 18 => ⟨S50000, .i1⟩
  | 19 => ⟨S50000x1, .i1⟩
  | 20 => ⟨S50000x512, .i1⟩
  | 21 => ⟨S50000x512, .f32⟩
  | 22 => ⟨S50000x512, .f32⟩
  | 23 => ⟨S_, .f32⟩
  | 24 => ⟨S100000x1, .f32⟩
  | 25 => ⟨S_, .f32⟩
  | 26 => ⟨S50000x1, .f32⟩
  | 27 => ⟨S100000x1, .i32⟩
  | 28 => ⟨S50000x1, .f32⟩
  | 29 => ⟨S_, .f32⟩
  | 30 => ⟨S50000x1, .f32⟩
  | 31 => ⟨S50000x1, .f32⟩
  | 32 => ⟨S_, .f32⟩
  | 33 => ⟨S50000x1, .f32⟩
  | 34 => ⟨S100000x1, .i32⟩
  | 35 => ⟨S50000x1, .f32⟩
  | 36 => ⟨S_, .f32⟩
  | 37 => ⟨S50000x1, .f32⟩
  | 38 => ⟨S50000x1, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x2, .f32⟩
  | 48 => ⟨S_, .f32⟩
  | 49 => ⟨S50000x2, .f32⟩
  | 50 => ⟨S100000x1, .i32⟩
  | 51 => ⟨S50000x2, .f32⟩
  | 52 => ⟨S50000x2, .f32⟩
  | 53 => ⟨S50000x2, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x2, .f32⟩
  | 63 => ⟨S_, .f32⟩
  | 64 => ⟨S50000x2, .f32⟩
  | 65 => ⟨S100000x1, .i32⟩
  | 66 => ⟨S50000x2, .f32⟩
  | 67 => ⟨S50000x2, .f32⟩
  | 68 => ⟨S50000x2, .f32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S100000x2, .f32⟩
  | 78 => ⟨S_, .f32⟩
  | 79 => ⟨S50000x2, .f32⟩
  | 80 => ⟨S100000x1, .i32⟩
  | 81 => ⟨S50000x2, .f32⟩
  | 82 => ⟨S50000x2, .f32⟩
  | 83 => ⟨S50000x2, .f32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S100000x2, .f32⟩
  | 93 => ⟨S_, .f32⟩
  | 94 => ⟨S50000x2, .f32⟩
  | 95 => ⟨S100000x1, .i32⟩
  | 96 => ⟨S50000x2, .f32⟩
  | 97 => ⟨S50000x2, .f32⟩
  | 98 => ⟨S50000x2, .f32⟩
  | 99 => ⟨S50000x522, .f32⟩
  | 100 => ⟨S512x512, .f32⟩
  | 101 => ⟨S512x512, .bf16⟩
  | 102 => ⟨S522x512, .f32⟩
  | 103 => ⟨S522x512, .bf16⟩
  | 104 => ⟨S512x512, .f32⟩
  | 105 => ⟨S512x512, .bf16⟩
  | 106 => ⟨S522x512, .f32⟩
  | 107 => ⟨S522x512, .bf16⟩
  | 108 => ⟨S1x512, .f32⟩
  | 109 => ⟨S1x512, .bf16⟩
  | 110 => ⟨S50000x512, .bf16⟩
  | 111 => ⟨S50000x512, .bf16⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x512, .bf16⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S50000x512, .f32⟩

abbrev hbmTy0_1 (i : Nat) : BufTy := match i % 128 with
  | 0 => ⟨S100000x1, .i32⟩
  | 1 => ⟨S100000x512, .bf16⟩
  | 2 => ⟨S100000x1, .f32⟩
  | 3 => ⟨S100000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x522, .f32⟩
  | .local _ .vmem, ⟨1, _⟩ => ⟨S2000x522, .f32⟩
  | .local _ .vmem, ⟨2, _⟩ => ⟨S522x512, .bf16⟩
  | .local _ .vmem, ⟨3, _⟩ => ⟨S522x512, .bf16⟩
  | .local _ .vmem, ⟨4, _⟩ => ⟨S2000x512, .bf16⟩
  | .local _ .vmem, ⟨5, _⟩ => ⟨S2000x512, .bf16⟩
  | .local _ .vmem, ⟨6, _⟩ => ⟨S2000x512, .bf16⟩
  | .local _ .vmem, ⟨7, _⟩ => ⟨S2000x512, .bf16⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S2000x512, .bf16⟩
  | .local _ .vmem, ⟨13, _⟩ => ⟨S2000x512, .bf16⟩
  | .local _ .vmem, ⟨14, _⟩ => ⟨S2000x512, .bf16⟩
  | .local _ .vmem, ⟨15, _⟩ => ⟨S2000x512, .bf16⟩
  | .local _ .vmem, ⟨16, _⟩ => ⟨S512x512, .bf16⟩
  | .local _ .vmem, ⟨17, _⟩ => ⟨S512x512, .bf16⟩
  | .local _ .vmem, ⟨18, _⟩ => ⟨S512, .f32⟩
  | .local _ .vmem, ⟨19, _⟩ => ⟨S1x512, .bf16⟩
  | .local _ .vmem, ⟨20, _⟩ => ⟨S1, .f32⟩
  | .local _ .vmem, ⟨21, _⟩ => ⟨S2000x1, .f32⟩
  | .local _ .vmem, ⟨22, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_14 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79_0 : Ref sig .tc := ⟨.hbm, 110, rfl⟩
abbrev main_v79_1 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_19 : Ref sig .tc := ⟨.hbm, 121, rfl⟩
abbrev main_v87 : Ref sig .tc := ⟨.hbm, 122, rfl⟩
abbrev main_v88 : Ref sig .tc := ⟨.hbm, 123, rfl⟩
abbrev main_c_20 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x522 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S522x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S522x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S50000x512 : S_.BroadcastsInDim S50000x512 (![] : Fin 0 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  bcast_S_S100000x1 : S_.BroadcastsInDim S100000x1 (![] : Fin 0 → Fin S100000x1.rank)
  bcast_S_S50000x1 : S_.BroadcastsInDim S50000x1 (![] : Fin 0 → Fin S50000x1.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  concatenates_S50000x512_S50000x2_S50000x2_S50000x2_S50000x2_S50000x2_S50000x522_d1 : Shape.Concatenates [S50000x512, S50000x2, S50000x2, S50000x2, S50000x2, S50000x2] S50000x522 1
  slices_S2068x512_S512x512_0_0 : S2068x512.Slices ![0, 0] S512x512
  bitsLt_bf16_f32 : FTy.bits .bf16 < FTy.bits .f32
  slices_S2068x512_S522x512_512_0 : S2068x512.Slices ![512, 0] S522x512
  slices_S2068x512_S512x512_1034_0 : S2068x512.Slices ![1034, 0] S512x512
  slices_S2068x512_S522x512_1546_0 : S2068x512.Slices ![1546, 0] S522x512
  transposes_S512x1_S1x512_1_0 : S512x1.Transposes [1, 0] S1x512
  inb_S2000x522_S2000x522_0_0 : ∀ a, (![0, 0] : Fin 2 → Nat) a + S2000x522.size a ≤ S2000x522.size a
  h_S2000x522 : 0 < S2000x522.numel
  shapeCasts_S2000x522_S2000x522 : S2000x522.ShapeCasts S2000x522
  inb_S522x512_S522x512_0_0 : ∀ a, (![0, 0] : Fin 2 → Nat) a + S522x512.size a ≤ S522x512.size a
  h_S522x512 : 0 < S522x512.numel
  shapeCasts_S522x512_S522x512 : S522x512.ShapeCasts S522x512
  inb_S2000x512_S2000x512_0_0 : ∀ a, (![0, 0] : Fin 2 → Nat) a + S2000x512.size a ≤ S2000x512.size a
  h_S2000x512 : 0 < S2000x512.numel
  packedbf16_S2000x512_S2000x512_0_0 : (Rect.unit (s := S2000x512) ![0, 0] S2000x512.size inb_S2000x512_S2000x512_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2000x512_S2000x512 : S2000x512.ShapeCasts S2000x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2000x512_S2000 : S2000x512.Reduces [1] S2000
  shapeCasts_S2000_S2000x1 : S2000.ShapeCasts S2000x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S50000x1_S100000x1_S100000x1_1_0_0_1_wf : ScatterDims.WF S50000x1 S100000x1 S100000x1 [1] [0] [0] 1
  gather_S50000x2_S100000x1_S100000x2_1_0_n_n_0_1_12_wf : GatherDims.WF S50000x2 S100000x1 S100000x2 [1] [0] [] [0] [] 1 ![1, 2]
  scatter_S50000x2_S100000x1_S100000x2_1_0_0_1_wf : ScatterDims.WF S50000x2 S100000x1 S100000x2 [1] [0] [0] 1
  dot_S2000x522_S522x512_S2000x512_1_0_0_1_n_n_wf : DotDims.WF S2000x522 S522x512 S2000x512 [1] [0] [0] [1] [] []
  gather_S50000x512_S100000x1_S100000x512_1_0_n_n_0_1_1512_wf : GatherDims.WF S50000x512 S100000x1 S100000x512 [1] [0] [] [0] [] 1 ![1, 512]
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x522.size a ≤ S50000x522.size a
  hwx0_0 : ∀ i : grid0.Coords, EltTy.bits .f32 = 32 ∨ (Rect.block (s := S50000x522) S2000x522.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S522x512.size a ≤ S522x512.size a
  hwx0_1 : ∀ i : grid0.Coords, EltTy.bits .bf16 = 32 ∨ (Rect.block (s := S522x512) S522x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S522x512.size a ≤ S522x512.size a
  hwx0_2 : ∀ i : grid0.Coords, EltTy.bits .bf16 = 32 ∨ (Rect.block (s := S522x512) S522x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .bf16 = 32 ∨ (Rect.block (s := S50000x512) S2000x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .bf16 = 32 ∨ (Rect.block (s := S50000x512) S2000x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S100000x512.size a
  hwx1_1 : ∀ i : grid1.Coords, EltTy.bits .f32 = 32 ∨ (Rect.block (s := S100000x512) S2000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S100000x512.size a
  hwx1_2 : ∀ i : grid1.Coords, EltTy.bits .bf16 = 32 ∨ (Rect.block (s := S100000x512) S2000x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S100000x512.size a
  hwx1_3 : ∀ i : grid1.Coords, EltTy.bits .bf16 = 32 ∨ (Rect.block (s := S100000x512) S2000x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .bf16 = 32 ∨ (Rect.block (s := S1x512) S1x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S100000x1.size a
  hwx1_9 : ∀ i : grid1.Coords, EltTy.bits .f32 = 32 ∨ (Rect.block (s := S100000x1) S2000x1.size (cc1_transform_9 i) (hinb1_9 i)).WholeWords (EltTy.packing .f32)

variable [Facts₀]

def scatter_S50000x1_S100000x1_S100000x1_1_0_0_1 : ScatterDims S50000x1 S100000x1 S100000x1 where
  updateWindowDims := [1]
  insertedWindowDims := [0]
  scatterDimsToOperandDims := [0]
  indexVectorDim := 1
  wf := scatter_S50000x1_S100000x1_S100000x1_1_0_0_1_wf
def gather_S50000x2_S100000x1_S100000x2_1_0_n_n_0_1_12 : GatherDims S50000x2 S100000x1 S100000x2 where
  offsetDims := [1]
  collapsedSliceDims := [0]
  operandBatchingDims := []
  startIndicesBatchingDims := []
  startIndexMap := [0]
  indexVectorDim := 1
  sliceSizes := ![1, 2]
  wf := gather_S50000x2_S100000x1_S100000x2_1_0_n_n_0_1_12_wf
def scatter_S50000x2_S100000x1_S100000x2_1_0_0_1 : ScatterDims S50000x2 S100000x1 S100000x2 where
  updateWindowDims := [1]
  insertedWindowDims := [0]
  scatterDimsToOperandDims := [0]
  indexVectorDim := 1
  wf := scatter_S50000x2_S100000x1_S100000x2_1_0_0_1_wf
def dot_S2000x522_S522x512_S2000x512_1_0_0_1_n_n : DotDims S2000x522 S522x512 S2000x512 where
  lhsContracting := [1]
  rhsContracting := [0]
  lhsNonContracting := [0]
  rhsNonContracting := [1]
  lhsBatch := []
  rhsBatch := []
  wf := dot_S2000x522_S522x512_S2000x512_1_0_0_1_n_n_wf
def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v68) S2000x522.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S522x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v76) S522x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v79_0) S2000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v79_1) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg4) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v86) S2000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v93) S2000x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v70) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v74) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v78) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v94) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x100000 : Shape := ⟨2, ![2, 100000]⟩
abbrev S100000x512 : Shape := ⟨2, ![100000, 512]⟩
abbrev S50000x2 : Shape := ⟨2, ![50000, 2]⟩
abbrev S1x512 : Shape := ⟨2, ![1, 512]⟩
abbrev S2068x512 : Shape := ⟨2, ![2068, 512]⟩
abbrev S512 : Shape := ⟨1, ![512]⟩
abbrev S512x1 : Shape := ⟨2, ![512, 1]⟩
abbrev S1 : Shape := ⟨1, ![1]⟩
abbrev S1x100000 : Shape := ⟨2, ![1, 100000]⟩
abbrev S100000 : Shape := ⟨1, ![100000]⟩
abbrev S_ : Shape := ⟨0, ![]⟩
abbrev S50000 : Shape := ⟨1, ![50000]⟩
abbrev S50000x1 : Shape := ⟨2, ![50000, 1]⟩
abbrev S100000x1 : Shape := ⟨2, ![100000, 1]⟩
abbrev S100000x2 : Shape := ⟨2, ![100000, 2]⟩
abbrev S50000x522 : Shape := ⟨2, ![50000, 522]⟩
abbrev S100000x522 : Shape := ⟨2, ![100000, 522]⟩
abbrev S100000x2068 : Shape := ⟨2, ![100000, 2068]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S50000x512, .f32⟩
  | 1 => ⟨S2x100000, .i32⟩
  | 2 => ⟨S100000x512, .f32⟩
  | 3 => ⟨S50000x2, .f32⟩
  | 4 => ⟨S100000x512, .f32⟩
  | 5 => ⟨S1x512, .f32⟩
  | 6 => ⟨S2068x512, .f32⟩
  | 7 => ⟨S512, .f32⟩
  | 8 => ⟨S512x1, .f32⟩
  | 9 => ⟨S1, .f32⟩
  | 10 => ⟨S1x100000, .i32⟩
  | 11 => ⟨S100000, .i32⟩
  | 12 => ⟨S1x100000, .i32⟩
  | 13 => ⟨S100000, .i32⟩
  | 14 => ⟨S_, .f32⟩
  | 15 => ⟨S50000x512, .f32⟩
  | 16 => ⟨S50000x512, .i1⟩
  | 17 => ⟨S_, .i1⟩
  | 18 => ⟨S50000, .i1⟩
  | 19 => ⟨S50000x1, .i1⟩
  | 20 => ⟨S50000x512, .i1⟩
  | 21 => ⟨S50000x512, .f32⟩
  | 22 => ⟨S50000x512, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x2, .f32⟩
  | 32 => ⟨S_, .f32⟩
  | 33 => ⟨S50000x2, .f32⟩
  | 34 => ⟨S100000x1, .i32⟩
  | 35 => ⟨S50000x2, .f32⟩
  | 36 => ⟨S_, .f32⟩
  | 37 => ⟨S100000x1, .f32⟩
  | 38 => ⟨S_, .f32⟩
  | 39 => ⟨S50000x1, .f32⟩
  | 40 => ⟨S100000x1, .i32⟩
  | 41 => ⟨S50000x1, .f32⟩
  | 42 => ⟨S_, .f32⟩
  | 43 => ⟨S50000x1, .f32⟩
  | 44 => ⟨S50000x1, .f32⟩
  | 45 => ⟨S50000x2, .f32⟩
  | 46 => ⟨S50000x2, .f32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x2, .f32⟩
  | 56 => ⟨S_, .f32⟩
  | 57 => ⟨S50000x2, .f32⟩
  | 58 => ⟨S100000x1, .i32⟩
  | 59 => ⟨S50000x2, .f32⟩
  | 60 => ⟨S_, .f32⟩
  | 61 => ⟨S100000x1, .f32⟩
  | 62 => ⟨S_, .f32⟩
  | 63 => ⟨S50000x1, .f32⟩
  | 64 => ⟨S100000x1, .i32⟩
  | 65 => ⟨S50000x1, .f32⟩
  | 66 => ⟨S_, .f32⟩
  | 67 => ⟨S50000x1, .f32⟩
  | 68 => ⟨S50000x1, .f32⟩
  | 69 => ⟨S50000x2, .f32⟩
  | 70 => ⟨S50000x2, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x2, .f32⟩
  | 80 => ⟨S_, .f32⟩
  | 81 => ⟨S50000x2, .f32⟩
  | 82 => ⟨S100000x1, .i32⟩
  | 83 => ⟨S50000x2, .f32⟩
  | 84 => ⟨S_, .f32⟩
  | 85 => ⟨S100000x1, .f32⟩
  | 86 => ⟨S_, .f32⟩
  | 87 => ⟨S50000x1, .f32⟩
  | 88 => ⟨S100000x1, .i32⟩
  | 89 => ⟨S50000x1, .f32⟩
  | 90 => ⟨S_, .f32⟩
  | 91 => ⟨S50000x1, .f32⟩
  | 92 => ⟨S50000x1, .f32⟩
  | 93 => ⟨S50000x2, .f32⟩
  | 94 => ⟨S50000x2, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x2, .f32⟩
  | 104 => ⟨S_, .f32⟩
  | 105 => ⟨S50000x2, .f32⟩
  | 106 => ⟨S100000x1, .i32⟩
  | 107 => ⟨S50000x2, .f32⟩
  | 108 => ⟨S_, .f32⟩
  | 109 => ⟨S100000x1, .f32⟩
  | 110 => ⟨S_, .f32⟩
  | 111 => ⟨S50000x1, .f32⟩
  | 112 => ⟨S100000x1, .i32⟩
  | 113 => ⟨S50000x1, .f32⟩
  | 114 => ⟨S_, .f32⟩
  | 115 => ⟨S50000x1, .f32⟩
  | 116 => ⟨S50000x1, .f32⟩
  | 117 => ⟨S50000x2, .f32⟩
  | 118 => ⟨S50000x2, .f32⟩
  | 119 => ⟨S50000x522, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S50000x512, .f32⟩

abbrev hbmTy0_1 (i : Nat) : BufTy := match i % 128 with
  | 0 => ⟨S100000x522, .f32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x522, .f32⟩
  | 10 => ⟨S100000x2068, .f32⟩
  | 11 => ⟨S100000x512, .f32⟩
  | 12 => ⟨S1x512, .f32⟩
  | 13 => ⟨S100000x512, .f32⟩
  | 14 => ⟨S100000x512, .f32⟩
  | 15 => ⟨S_, .f32⟩
  | 16 => ⟨S100000x512, .f32⟩
  | 17 => ⟨S100000x512, .f32⟩
  | 18 => ⟨S100000x1, .f32⟩
  | 19 => ⟨S1x1, .f32⟩
  | 20 => ⟨S100000x1, .f32⟩
  | 21 => ⟨S100000x1, .f32⟩
  | 22 => ⟨S100000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_11 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_cst_16 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_18 : Ref sig .tc := ⟨.hbm, 95, rfl⟩
abbrev main_v63 : Ref sig .tc := ⟨.hbm, 96, rfl⟩
abbrev main_v64 : Ref sig .tc := ⟨.hbm, 97, rfl⟩
abbrev main_c_19 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_20 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_21 : Ref sig .tc := ⟨.hbm, 108, rfl⟩
abbrev main_v73 : Ref sig .tc := ⟨.hbm, 109, rfl⟩
abbrev main_cst_22 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_23 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_24 : Ref sig .tc := ⟨.hbm, 120, rfl⟩
abbrev main_v82 : Ref sig .tc := ⟨.hbm, 121, rfl⟩
abbrev main_v83 : Ref sig .tc := ⟨.hbm, 122, rfl⟩
abbrev main_c_25 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_26 : Ref sig .tc := ⟨.hbm, 129, rfl⟩
abbrev main_v89 : Ref sig .tc := ⟨.hbm, 130, rfl⟩
abbrev main_v90 : Ref sig .tc := ⟨.hbm, 131, rfl⟩
abbrev main_c_27 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S50000x512 : S_.BroadcastsInDim S50000x512 (![] : Fin 0 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S50000x2 : S_.BroadcastsInDim S50000x2 (![] : Fin 0 → Fin S50000x2.rank)
  bcast_S_S100000x1 : S_.BroadcastsInDim S100000x1 (![] : Fin 0 → Fin S100000x1.rank)
  bcast_S_S50000x1 : S_.BroadcastsInDim S50000x1 (![] : Fin 0 → Fin S50000x1.rank)
  bcast_S50000x1_S50000x2_0_1 : S50000x1.BroadcastsInDim S50000x2 (![0, 1] : Fin 2 → Fin S50000x2.rank)
  concatenates_S50000x512_S50000x2_S50000x2_S50000x2_S50000x2_S50000x2_S50000x522_d1 : Shape.Concatenates [S50000x512, S50000x2, S50000x2, S50000x2, S50000x2, S50000x2] S50000x522 1
  concatenates_S100000x512_S100000x522_S100000x512_S100000x522_S100000x2068_d1 : Shape.Concatenates [S100000x512, S100000x522, S100000x512, S100000x522] S100000x2068 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S50000x2_S100000x1_S100000x2_1_0_n_n_0_1_12_wf : GatherDims.WF S50000x2 S100000x1 S100000x2 [1] [0] [] [0] [] 1 ![1, 2]
  scatter_S50000x2_S100000x1_S100000x2_1_0_0_1_wf : ScatterDims.WF S50000x2 S100000x1 S100000x2 [1] [0] [0] 1
  scatter_S50000x1_S100000x1_S100000x1_1_0_0_1_wf : ScatterDims.WF S50000x1 S100000x1 S100000x1 [1] [0] [0] 1
  gather_S50000x522_S100000x1_S100000x522_1_0_n_n_0_1_1522_wf : GatherDims.WF S50000x522 S100000x1 S100000x522 [1] [0] [] [0] [] 1 ![1, 522]
  dot_S100000x2068_S2068x512_S100000x512_1_0_0_1_n_n_wf : DotDims.WF S100000x2068 S2068x512 S100000x512 [1] [0] [0] [1] [] []
  dot_S100000x512_S512x1_S100000x1_1_0_0_1_n_n_wf : DotDims.WF S100000x512 S512x1 S100000x1 [1] [0] [0] [1] [] []

variable [Facts₀]

def gather_S50000x2_S100000x1_S100000x2_1_0_n_n_0_1_12 : GatherDims S50000x2 S100000x1 S100000x2 where
  offsetDims := [1]
  collapsedSliceDims := [0]
  operandBatchingDims := []
  startIndicesBatchingDims := []
  startIndexMap := [0]
  indexVectorDim := 1
  sliceSizes := ![1, 2]
  wf := gather_S50000x2_S100000x1_S100000x2_1_0_n_n_0_1_12_wf
def scatter_S50000x2_S100000x1_S100000x2_1_0_0_1 : ScatterDims S50000x2 S100000x1 S100000x2 where
  updateWindowDims := [1]
  insertedWindowDims := [0]
  scatterDimsToOperandDims := [0]
  indexVectorDim := 1
  wf := scatter_S50000x2_S100000x1_S100000x2_1_0_0_1_wf
def scatter_S50000x1_S100000x1_S100000x1_1_0_0_1 : ScatterDims S50000x1 S100000x1 S100000x1 where
  updateWindowDims := [1]
  insertedWindowDims := [0]
  scatterDimsToOperandDims := [0]
  indexVectorDim := 1
  wf := scatter_S50000x1_S100000x1_S100000x1_1_0_0_1_wf
def gather_S50000x522_S100000x1_S100000x522_1_0_n_n_0_1_1522 : GatherDims S50000x522 S100000x1 S100000x522 where
  offsetDims := [1]
  collapsedSliceDims := [0]
  operandBatchingDims := []
  startIndicesBatchingDims := []
  startIndexMap := [0]
  indexVectorDim := 1
  sliceSizes := ![1, 522]
  wf := gather_S50000x522_S100000x1_S100000x522_1_0_n_n_0_1_1522_wf
def dot_S100000x2068_S2068x512_S100000x512_1_0_0_1_n_n : DotDims S100000x2068 S2068x512 S100000x512 where
  lhsContracting := [1]
  rhsContracting := [0]
  lhsNonContracting := [0]
  rhsNonContracting := [1]
  lhsBatch := []
  rhsBatch := []
  wf := dot_S100000x2068_S2068x512_S100000x512_1_0_0_1_n_n_wf
def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf

class Facts : Prop extends Facts₀ where

variable [Facts]
-- ==== Proof.KbData.lean ====
/-
  The two regions' windows read as blocks of their arrays, what each body leaves in its output windows, and the
  proof data of each pipeline, all at a PARAMETER `V`: the TensorCore's buffer contents when the region is entered.

  Region 0 runs over 25 points; point `t` reads rows `2000·t … 2000·t + 1999` of the node table (window 0) and the two
  whole weight bands (windows 1 and 2), and leaves in windows 3 and 4 the two products of that band of rows.
  Region 1 runs over 50 points; point `t` reads rows `2000·t …` of the four edge arrays (windows 0–3), the whole of the
  two weight bands, the bias, the output row and the output bias (windows 4–8), and leaves in window 9 the 2000 scores.
  Every store covers its window's whole block, so after the body an output window holds one payload of the blocks read.
-/
import proofs.«123470_j91130616087124_2_alg».proof.Proof.Gen.Kernel.Launch
import proofs.«123470_j91130616087124_2_alg».proof.Proof.Gen.Kernel.Skeleton
import proofs.«123470_j91130616087124_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 3's staging buffer after the body, from the input windows' blocks: its one store, over the whole block. -/
def out0_3 (x0 : Vec F S2000x522 .f32) (x1 : Vec F S522x512 .bf16) : Vec F S2000x512 .bf16 :=
  View.canon [⟨(Rect.unit (s := S2000x512) ![0, 0] S2000x512.size inb_S2000x512_S2000x512_0_0), k0_pay2 (View.ld x0 (Rect.unit (s := S2000x522) ![0, 0] S2000x522.size inb_S2000x522_S2000x522_0_0)) (View.ld x1 (Rect.unit (s := S522x512) ![0, 0] S522x512.size inb_S522x512_S522x512_0_0))⟩]

/-- Window 4's staging buffer after the body, from the input windows' blocks: its one store, over the whole block. -/
def out0_4 (x0 : Vec F S2000x522 .f32) (x2 : Vec F S522x512 .bf16) : Vec F S2000x512 .bf16 :=
  View.canon [⟨(Rect.unit (s := S2000x512) ![0, 0] S2000x512.size inb_S2000x512_S2000x512_0_0), k0_pay3 (View.ld x0 (Rect.unit (s := S2000x522) ![0, 0] S2000x522.size inb_S2000x522_S2000x522_0_0)) (View.ld x2 (Rect.unit (s := S522x512) ![0, 0] S522x512.size inb_S522x512_S522x512_0_0))⟩]

/-- The proof data of pipeline 0 on core `c`: the arrays as the region finds them; after the body at point `t` each
    input's buffer at its block and each output's at its payload of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 9's staging buffer after the body, from the input windows' blocks: its one store, over the whole block. -/
def out1_9 (x0 : Vec F S2000x512 .f32) (x1 : Vec F S2000x512 .f32) (x4 : Vec F S512x512 .bf16) (x5 : Vec F S512x512 .bf16) (x2 : Vec F S2000x512 .bf16) (x3 : Vec F S2000x512 .bf16) (x6 : Vec F S512 .f32) (x7 : Vec F S1x512 .bf16) (x8 : Vec F S1 .f32) : Vec F S2000x1 .f32 :=
  View.canon [⟨(Rect.unit (s := S2000x1) ![0, 0] S2000x1.size inb_S2000x1_S2000x1_0_0), k1_pay1 (View.ld x0 (Rect.unit (s := S2000x512) ![0, 0] S2000x512.size inb_S2000x512_S2000x512_0_0)) (View.ld x1 (Rect.unit (s := S2000x512) ![0, 0] S2000x512.size inb_S2000x512_S2000x512_0_0)) (View.ld x4 (Rect.unit (s := S512x512) ![0, 0] S512x512.size inb_S512x512_S512x512_0_0)) (View.ld x5 (Rect.unit (s := S512x512) ![0, 0] S512x512.size inb_S512x512_S512x512_0_0)) (View.ld x2 (Rect.unit (s := S2000x512) ![0, 0] S2000x512.size inb_S2000x512_S2000x512_0_0)) (View.ld x3 (Rect.unit (s := S2000x512) ![0, 0] S2000x512.size inb_S2000x512_S2000x512_0_0)) (View.ld x6 (Rect.unit (s := S512) ![0] S512.size inb_S512_S512_0)) (View.ld x7 (Rect.unit (s := S1x512) ![0, 0] S1x512.size inb_S1x512_S1x512_0_0)) (View.ld x8 (Rect.unit (s := S1) ![0] S1.size inb_S1_S1_0))⟩]

/-- The proof data of pipeline 1 on core `c`: the arrays as the region finds them; after the body at point `t` each
    input's buffer at its block and each output's at its payload of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 4 t) (iblk1 V c 5 t) (iblk1 V c 2 t) (iblk1 V c 3 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 4 t) (iblk1 V c 5 t) (iblk1 V c 2 t) (iblk1 V c 3 t) (iblk1 V c 6 t) (iblk1 V c 7 t) (iblk1 V c 8 t) := by dsimp only [dat1]

end Cert.Kernel.Fr

end
-- ==== Proof.KbBody0.lean ====
/-
  Region 0's body, run on whole staging buffers: with each input window's buffer at the block the point reads and
  each output window's at anything, the body terminates holding the inputs as they were and each output at its
  payload of the inputs; and this is what the pipeline asks of the body at every grid point.
-/
import proofs.«123470_j91130616087124_2_alg».proof.Proof.KbData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The stores cover their windows -/

theorem cover0_3 (p0 : Vec F S2000x512 .bf16) (y : S2000x512.Idx) :
    ∃ pc ∈ ([⟨(Rect.unit (s := S2000x512) ![0, 0] S2000x512.size inb_S2000x512_S2000x512_0_0), p0⟩] : List (View.Piece (Elt F) S2000x512 .bf16)), y ∈ pc.1.set :=
  View.cover_of_tiled [⟨(Rect.unit (s := S2000x512) ![0, 0] S2000x512.size inb_S2000x512_S2000x512_0_0), p0⟩] S2000x512.size (by rfl) y

theorem cover0_4 (p0 : Vec F S2000x512 .bf16) (y : S2000x512.Idx) :
    ∃ pc ∈ ([⟨(Rect.unit (s := S2000x512) ![0, 0] S2000x512.size inb_S2000x512_S2000x512_0_0), p0⟩] : List (View.Piece (Elt F) S2000x512 .bf16)), y ∈ pc.1.set :=
  View.cover_of_tiled [⟨(Rect.unit (s := S2000x512) ![0, 0] S2000x512.size inb_S2000x512_S2000x512_0_0), p0⟩] S2000x512.size (by rfl) y

/-! ## The body's triple -/

set_option maxHeartbeats 4000000 in
theorem sound_kernel0 (c : Dev nD) (E : Set ℕ) (i : grid0.Coords) (arg1 : Memref sig .tc .vmem S2000x522 .f32) (harg1 : arg1.IsWhole) (arg2 : Memref sig .tc .vmem S522x512 .bf16) (harg2 : arg2.IsWhole) (arg3 : Memref sig .tc .vmem S522x512 .bf16) (harg3 : arg3.IsWhole) (arg4 : Memref sig .tc .vmem S2000x512 .bf16) (harg4 : arg4.IsWhole) (arg5 : Memref sig .tc .vmem S2000x512 .bf16) (harg5 : arg5.IsWhole)
    (x0 : Vec F S2000x522 .f32) (x1 : Vec F S522x512 .bf16) (x2 : Vec F S522x512 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__premul_kernel i arg1 harg1 arg2 harg2 arg3 harg3 arg4 harg4 arg5 harg5) K := by
  simp only [cc0__premul_kernel_eq_skeleton]; unfold cc0__premul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KbBody1.lean ====
/-
  Region 1's body, run on whole staging buffers: with each input window's buffer at the block the point reads and
  each output window's at anything, the body terminates holding the inputs as they were and each output at its
  payload of the inputs; and this is what the pipeline asks of the body at every grid point.
-/
import proofs.«123470_j91130616087124_2_alg».proof.Proof.KbData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)

/-! ## The stores cover their windows -/

theorem cover1_9 (p0 : Vec F S2000x1 .f32) (y : S2000x1.Idx) :
    ∃ pc ∈ ([⟨(Rect.unit (s := S2000x1) ![0, 0] S2000x1.size inb_S2000x1_S2000x1_0_0), p0⟩] : List (View.Piece (Elt F) S2000x1 .f32)), y ∈ pc.1.set :=
  View.cover_of_tiled [⟨(Rect.unit (s := S2000x1) ![0, 0] S2000x1.size inb_S2000x1_S2000x1_0_0), p0⟩] S2000x1.size (by rfl) y

/-! ## The body's triple -/

set_option maxHeartbeats 4000000 in
theorem sound_kernel1 (c : Dev nD) (E : Set ℕ) (i : grid1.Coords) (arg1 : Memref sig .tc .vmem S2000x512 .f32) (harg1 : arg1.IsWhole) (arg2 : Memref sig .tc .vmem S2000x512 .f32) (harg2 : arg2.IsWhole) (arg3 : Memref sig .tc .vmem S2000x512 .bf16) (harg3 : arg3.IsWhole) (arg4 : Memref sig .tc .vmem S2000x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S1x512 .bf16) (harg8 : arg8.IsWhole) (arg9 : Memref sig .tc .vmem S1 .f32) (harg9 : arg9.IsWhole) (arg10 : Memref sig .tc .vmem S2000x1 .f32) (harg10 : arg10.IsWhole)
    (x0 : Vec F S2000x512 .f32) (x1 : Vec F S2000x512 .f32) (x2 : Vec F S2000x512 .bf16) (x3 : Vec F S2000x512 .bf16) (x4 : Vec F S512x512 .bf16) (x5 : Vec F S512x512 .bf16) (x6 : Vec F S512 .f32) (x7 : Vec F S1x512 .bf16) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x4 x5 x2 x3 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KbRun.lean ====
/-
  The run of the whole program: seven segments — three stretches of host operations that build the node table and cut
  the weights, region 0 (the node table times two bands of the first weight matrix), the stretch that gathers
  those products' rows by each edge's end points, region 1 (the scorer), and the closing reshape — chained from the
  launch to the return. The buffer contents at each boundary are a fold from the launch memory; no stretch and no
  region writes an argument, so every argument reads back to its launch contents, and the result's buffer ends at
  the fold's last value.
-/
import proofs.«123470_j91130616087124_2_alg».proof.Proof.KbBody0
import proofs.«123470_j91130616087124_2_alg».proof.Proof.KbBody1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- After the three opening stretches: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the gather stretch: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the closing reshape: what the launch reads at the end. -/
abbrev W7 : Dev nD → Valuation τ sig (Elt F) := fun c => StableHlo.after hostOps2 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg2) := (W6_arr m ρ c 1).trans (((dat1 (V5 m ρ) c).arrAt_in 1 rfl _).trans (A_eq1 (V5 m ρ) c 1))
    _ = W4 m ρ c (Proc.devRef .tc main_arg2) := StableHlo.after_of_forall_not_mem (b := Proc.devRef .tc main_arg2) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg4) := (W6_arr m ρ c 0).trans (((dat1 (V5 m ρ) c).arrAt_in 0 rfl _).trans (A_eq1 (V5 m ρ) c 0))
    _ = W4 m ρ c (Proc.devRef .tc main_arg4) := StableHlo.after_of_forall_not_mem (b := Proc.devRef .tc main_arg4) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg7) := (W6_arr m ρ c 6).trans (((dat1 (V5 m ρ) c).arrAt_in 6 rfl _).trans (A_eq1 (V5 m ρ) c 6))
    _ = W4 m ρ c (Proc.devRef .tc main_arg7) := StableHlo.after_of_forall_not_mem (b := Proc.devRef .tc main_arg7) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg9) := (W6_arr m ρ c 8).trans (((dat1 (V5 m ρ) c).arrAt_in 8 rfl _).trans (A_eq1 (V5 m ρ) c 8))
    _ = W4 m ρ c (Proc.devRef .tc main_arg9) := StableHlo.after_of_forall_not_mem (b := Proc.devRef .tc main_arg9) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents — a literal match on the pipeline's number. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W3`, left at `W4`. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- Every weakly fair execution of the program terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: the program runs, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c)⟩)
    (run_all m ρ)

end Cert.Kernel.Fr

end
-- ==== Proof.KiData.lean ====
/-
  The two regions' windows read as blocks of their arrays, what each body leaves in its output windows, and the
  proof data of each pipeline, all at a PARAMETER `V`: the TensorCore's buffer contents when the region is entered.

  Region 0 runs over 25 points; point `t` reads rows `2000·t … 2000·t + 1999` of the node table (window 0) and the two
  whole weight bands (windows 1 and 2), and leaves in windows 3 and 4 the two products of that band of rows.
  Region 1 runs over 50 points; point `t` reads rows `2000·t …` of the four edge arrays (windows 0–3), the whole of the
  two weight bands, the bias, the output row and the output bias (windows 4–8), and leaves in window 9 the 2000 scores.
  Every store covers its window's whole block, so after the body an output window holds one payload of the blocks read.
-/
import proofs.«123470_j91130616087124_2_alg».proof.Proof.Gen.KernelIdeal.Launch
import proofs.«123470_j91130616087124_2_alg».proof.Proof.Gen.KernelIdeal.Skeleton
import proofs.«123470_j91130616087124_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 3's staging buffer after the body, from the input windows' blocks: its one store, over the whole block. -/
def out0_3 (x0 : Vec F S2000x522 .f32) (x1 : Vec F S522x512 .bf16) : Vec F S2000x512 .bf16 :=
  View.canon [⟨(Rect.unit (s := S2000x512) ![0, 0] S2000x512.size inb_S2000x512_S2000x512_0_0), k0_pay2 (View.ld x0 (Rect.unit (s := S2000x522) ![0, 0] S2000x522.size inb_S2000x522_S2000x522_0_0)) (View.ld x1 (Rect.unit (s := S522x512) ![0, 0] S522x512.size inb_S522x512_S522x512_0_0))⟩]

/-- Window 4's staging buffer after the body, from the input windows' blocks: its one store, over the whole block. -/
def out0_4 (x0 : Vec F S2000x522 .f32) (x2 : Vec F S522x512 .bf16) : Vec F S2000x512 .bf16 :=
  View.canon [⟨(Rect.unit (s := S2000x512) ![0, 0] S2000x512.size inb_S2000x512_S2000x512_0_0), k0_pay3 (View.ld x0 (Rect.unit (s := S2000x522) ![0, 0] S2000x522.size inb_S2000x522_S2000x522_0_0)) (View.ld x2 (Rect.unit (s := S522x512) ![0, 0] S522x512.size inb_S522x512_S522x512_0_0))⟩]

/-- The proof data of pipeline 0 on core `c`: the arrays as the region finds them; after the body at point `t` each
    input's buffer at its block and each output's at its payload of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 9's staging buffer after the body, from the input windows' blocks: its one store, over the whole block. -/
def out1_9 (x0 : Vec F S2000x512 .f32) (x1 : Vec F S2000x512 .f32) (x4 : Vec F S512x512 .bf16) (x5 : Vec F S512x512 .bf16) (x2 : Vec F S2000x512 .bf16) (x3 : Vec F S2000x512 .bf16) (x6 : Vec F S512 .f32) (x7 : Vec F S1x512 .bf16) (x8 : Vec F S1 .f32) : Vec F S2000x1 .f32 :=
  View.canon [⟨(Rect.unit (s := S2000x1) ![0, 0] S2000x1.size inb_S2000x1_S2000x1_0_0), k1_pay1 (View.ld x0 (Rect.unit (s := S2000x512) ![0, 0] S2000x512.size inb_S2000x512_S2000x512_0_0)) (View.ld x1 (Rect.unit (s := S2000x512) ![0, 0] S2000x512.size inb_S2000x512_S2000x512_0_0)) (View.ld x4 (Rect.unit (s := S512x512) ![0, 0] S512x512.size inb_S512x512_S512x512_0_0)) (View.ld x5 (Rect.unit (s := S512x512) ![0, 0] S512x512.size inb_S512x512_S512x512_0_0)) (View.ld x2 (Rect.unit (s := S2000x512) ![0, 0] S2000x512.size inb_S2000x512_S2000x512_0_0)) (View.ld x3 (Rect.unit (s := S2000x512) ![0, 0] S2000x512.size inb_S2000x512_S2000x512_0_0)) (View.ld x6 (Rect.unit (s := S512) ![0] S512.size inb_S512_S512_0)) (View.ld x7 (Rect.unit (s := S1x512) ![0, 0] S1x512.size inb_S1x512_S1x512_0_0)) (View.ld x8 (Rect.unit (s := S1) ![0] S1.size inb_S1_S1_0))⟩]

/-- The proof data of pipeline 1 on core `c`: the arrays as the region finds them; after the body at point `t` each
    input's buffer at its block and each output's at its payload of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 4 t) (iblk1 V c 5 t) (iblk1 V c 2 t) (iblk1 V c 3 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 4 t) (iblk1 V c 5 t) (iblk1 V c 2 t) (iblk1 V c 3 t) (iblk1 V c 6 t) (iblk1 V c 7 t) (iblk1 V c 8 t) := by dsimp only [dat1]

end Cert.KernelIdeal.Fr

end
-- ==== Proof.KiBody0.lean ====
/-
  Region 0's body, run on whole staging buffers: with each input window's buffer at the block the point reads and
  each output window's at anything, the body terminates holding the inputs as they were and each output at its
  payload of the inputs; and this is what the pipeline asks of the body at every grid point.
-/
import proofs.«123470_j91130616087124_2_alg».proof.Proof.KiData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The stores cover their windows -/

theorem cover0_3 (p0 : Vec F S2000x512 .bf16) (y : S2000x512.Idx) :
    ∃ pc ∈ ([⟨(Rect.unit (s := S2000x512) ![0, 0] S2000x512.size inb_S2000x512_S2000x512_0_0), p0⟩] : List (View.Piece (Elt F) S2000x512 .bf16)), y ∈ pc.1.set :=
  View.cover_of_tiled [⟨(Rect.unit (s := S2000x512) ![0, 0] S2000x512.size inb_S2000x512_S2000x512_0_0), p0⟩] S2000x512.size (by rfl) y

theorem cover0_4 (p0 : Vec F S2000x512 .bf16) (y : S2000x512.Idx) :
    ∃ pc ∈ ([⟨(Rect.unit (s := S2000x512) ![0, 0] S2000x512.size inb_S2000x512_S2000x512_0_0), p0⟩] : List (View.Piece (Elt F) S2000x512 .bf16)), y ∈ pc.1.set :=
  View.cover_of_tiled [⟨(Rect.unit (s := S2000x512) ![0, 0] S2000x512.size inb_S2000x512_S2000x512_0_0), p0⟩] S2000x512.size (by rfl) y

/-! ## The body's triple -/

set_option maxHeartbeats 4000000 in
theorem sound_kernel0 (c : Dev nD) (E : Set ℕ) (i : grid0.Coords) (arg1 : Memref sig .tc .vmem S2000x522 .f32) (harg1 : arg1.IsWhole) (arg2 : Memref sig .tc .vmem S522x512 .bf16) (harg2 : arg2.IsWhole) (arg3 : Memref sig .tc .vmem S522x512 .bf16) (harg3 : arg3.IsWhole) (arg4 : Memref sig .tc .vmem S2000x512 .bf16) (harg4 : arg4.IsWhole) (arg5 : Memref sig .tc .vmem S2000x512 .bf16) (harg5 : arg5.IsWhole)
    (x0 : Vec F S2000x522 .f32) (x1 : Vec F S522x512 .bf16) (x2 : Vec F S522x512 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__premul_kernel i arg1 harg1 arg2 harg2 arg3 harg3 arg4 harg4 arg5 harg5) K := by
  simp only [cc0__premul_kernel_eq_skeleton]; unfold cc0__premul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiBody1.lean ====
/-
  Region 1's body, run on whole staging buffers: with each input window's buffer at the block the point reads and
  each output window's at anything, the body terminates holding the inputs as they were and each output at its
  payload of the inputs; and this is what the pipeline asks of the body at every grid point.
-/
import proofs.«123470_j91130616087124_2_alg».proof.Proof.KiData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)

/-! ## The stores cover their windows -/

theorem cover1_9 (p0 : Vec F S2000x1 .f32) (y : S2000x1.Idx) :
    ∃ pc ∈ ([⟨(Rect.unit (s := S2000x1) ![0, 0] S2000x1.size inb_S2000x1_S2000x1_0_0), p0⟩] : List (View.Piece (Elt F) S2000x1 .f32)), y ∈ pc.1.set :=
  View.cover_of_tiled [⟨(Rect.unit (s := S2000x1) ![0, 0] S2000x1.size inb_S2000x1_S2000x1_0_0), p0⟩] S2000x1.size (by rfl) y

/-! ## The body's triple -/

set_option maxHeartbeats 4000000 in
theorem sound_kernel1 (c : Dev nD) (E : Set ℕ) (i : grid1.Coords) (arg1 : Memref sig .tc .vmem S2000x512 .f32) (harg1 : arg1.IsWhole) (arg2 : Memref sig .tc .vmem S2000x512 .f32) (harg2 : arg2.IsWhole) (arg3 : Memref sig .tc .vmem S2000x512 .bf16) (harg3 : arg3.IsWhole) (arg4 : Memref sig .tc .vmem S2000x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S1x512 .bf16) (harg8 : arg8.IsWhole) (arg9 : Memref sig .tc .vmem S1 .f32) (harg9 : arg9.IsWhole) (arg10 : Memref sig .tc .vmem S2000x1 .f32) (harg10 : arg10.IsWhole)
    (x0 : Vec F S2000x512 .f32) (x1 : Vec F S2000x512 .f32) (x2 : Vec F S2000x512 .bf16) (x3 : Vec F S2000x512 .bf16) (x4 : Vec F S512x512 .bf16) (x5 : Vec F S512x512 .bf16) (x6 : Vec F S512 .f32) (x7 : Vec F S1x512 .bf16) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x4 x5 x2 x3 x6 x7 x8)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KiRun.lean ====
/-
  The run of the whole program: seven segments — three stretches of host operations that build the node table and cut
  the weights, region 0 (the node table times two bands of the first weight matrix), the stretch that gathers
  those products' rows by each edge's end points, region 1 (the scorer), and the closing reshape — chained from the
  launch to the return. The buffer contents at each boundary are a fold from the launch memory; no stretch and no
  region writes an argument, so every argument reads back to its launch contents, and the result's buffer ends at
  the fold's last value.
-/
import proofs.«123470_j91130616087124_2_alg».proof.Proof.KiBody0
import proofs.«123470_j91130616087124_2_alg».proof.Proof.KiBody1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- After the three opening stretches: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the gather stretch: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the closing reshape: what the launch reads at the end. -/
abbrev W7 : Dev nD → Valuation τ sig (Elt F) := fun c => StableHlo.after hostOps2 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg2) := (W6_arr m ρ c 1).trans (((dat1 (V5 m ρ) c).arrAt_in 1 rfl _).trans (A_eq1 (V5 m ρ) c 1))
    _ = W4 m ρ c (Proc.devRef .tc main_arg2) := StableHlo.after_of_forall_not_mem (b := Proc.devRef .tc main_arg2) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg4) := (W6_arr m ρ c 0).trans (((dat1 (V5 m ρ) c).arrAt_in 0 rfl _).trans (A_eq1 (V5 m ρ) c 0))
    _ = W4 m ρ c (Proc.devRef .tc main_arg4) := StableHlo.after_of_forall_not_mem (b := Proc.devRef .tc main_arg4) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg7) := (W6_arr m ρ c 6).trans (((dat1 (V5 m ρ) c).arrAt_in 6 rfl _).trans (A_eq1 (V5 m ρ) c 6))
    _ = W4 m ρ c (Proc.devRef .tc main_arg7) := StableHlo.after_of_forall_not_mem (b := Proc.devRef .tc main_arg7) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg9) := (W6_arr m ρ c 8).trans (((dat1 (V5 m ρ) c).arrAt_in 8 rfl _).trans (A_eq1 (V5 m ρ) c 8))
    _ = W4 m ρ c (Proc.devRef .tc main_arg9) := StableHlo.after_of_forall_not_mem (b := Proc.devRef .tc main_arg9) _ _ (List.forall_iff_forall_mem.mp (by
          simp only [hostOps1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, StableHlo.TRef.unary, StableHlo.TRef.ternary, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
/-- Every pipeline's proof data, each at its region's entry contents — a literal match on the pipeline's number. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W3`, left at `W4`. Its arrays are
    split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- Every weakly fair execution of the program terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: the program runs, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c)⟩)
    (run_all m ρ)

end Cert.KernelIdeal.Fr

end
-- ==== Proof.Spec.lean ====
/-
  The mathematics of the triple scorer, stated once over plain coordinate functions.

  An edge `e` is scored from four rows laid end to end — its query row, the node-table row of its source, its
  attribute row and the node-table row of its target — by a two-layer perceptron:
  `score e = Σ_j max (Σ_k cat e k · W1 k j + b1 j, 0) · w2 j + b2`.
  The same number is obtained by cutting `W1` into the four bands of rows that meet the four pieces, multiplying the
  node table by its two bands ONCE per node, and adding the products' rows of the edge's two end points to the two
  products computed per edge: a sum over consecutive index ranges is the sum of the ranges' sums, and a row of a
  matrix product is the product of that row. Both facts hold in every additive commutative monoid, so on the
  extended reals no finiteness is used.
-/
import Idealize.ShloMosaic.PureOps.Ideal
import Idealize.ShloMosaic.Lib.ValueIdx

noncomputable section

namespace Score

open Idealize.ShloMosaic Idealize.ShloMosaic.ValueIdx

/-- Entry `(p, j)` of the product of `x : [n, k]` with `w : [k, m]`. -/
def mm {n k m : Nat} (x : Fin n → Fin k → EReal) (w : Fin k → Fin m → EReal) (p : Fin n) (j : Fin m) : EReal :=
  ∑ t : Fin k, x p t * w t j

/-- The hidden layer before its clamp, in the split arrangement: the two per-edge products, then the two rows that
    arrive already multiplied, then the bias — added in this order. -/
def hid {n : Nat} (q ea : Fin n → Fin 512 → EReal) (ms md : Fin n → Fin 512 → EReal)
    (wq we : Fin 512 → Fin 512 → EReal) (b1 : Fin 512 → EReal) (e : Fin n) (j : Fin 512) : EReal :=
  (((mm q wq e j + mm ea we e j) + ms e j) + md e j) + b1 j

/-- The output layer on a hidden layer `h`: clamp at zero, weigh by `w2`, sum the lanes, add `b2`. -/
def out {n : Nat} (h : Fin n → Fin 512 → EReal) (w2 : Fin 512 → EReal) (b2 : EReal) (e : Fin n) : EReal :=
  (∑ j : Fin 512, max (h e j) 0 * w2 j) + b2

/-- The four pieces of an edge's feature row laid end to end: 512 + 522 + 512 + 522 = 2068 columns. -/
def cat {n : Nat} (q : Fin n → Fin 512 → EReal) (hs : Fin n → Fin 522 → EReal) (ea : Fin n → Fin 512 → EReal)
    (hd : Fin n → Fin 522 → EReal) (e : Fin n) (k : Fin 2068) : EReal :=
  if h0 : k.val < 512 then q e ⟨k.val, h0⟩
  else if h1 : k.val < 1034 then hs e ⟨k.val - 512, by omega⟩
  else if h2 : k.val < 1546 then ea e ⟨k.val - 1034, by omega⟩
  else hd e ⟨k.val - 1546, by omega⟩

/-- A band of `r` rows of `W1` starting at row `o`. -/
def band (W1 : Fin 2068 → Fin 512 → EReal) (o r : Nat) (h : o + r ≤ 2068) (k : Fin r) (j : Fin 512) : EReal :=
  W1 ⟨o + k.val, by omega⟩ j

/-- The hidden layer in the joined arrangement: one product of the joined row with all of `W1`, then the bias. -/
def hidJoined {n : Nat} (c : Fin n → Fin 2068 → EReal) (W1 : Fin 2068 → Fin 512 → EReal) (b1 : Fin 512 → EReal)
    (e : Fin n) (j : Fin 512) : EReal :=
  mm c W1 e j + b1 j

/-- The row a row-gather reads for position `e`: the index word read as a signed integer, clamped into `[0, 49999]`. -/
def rowAt (idx : IVec ⟨2, ![100000, 1]⟩ 32) (e : Fin 100000) : Fin 50000 :=
  ⟨min (idx (ix2 e (0 : Fin 1))).toInt.toNat (50000 - 1), by omega⟩

/-- A rank-2 array read at its two coordinates. -/
abbrev rd2 {a b : Nat} (x : (⟨2, ![a, b]⟩ : Shape).Idx → EReal) (p : Fin a) (q : Fin b) : EReal := x (ix2 p q)
/-- A rank-1 array read at its coordinate. -/
abbrev rd1 {a : Nat} (x : (⟨1, ![a]⟩ : Shape).Idx → EReal) (p : Fin a) : EReal := x (ix1 p)

end Score

end
-- ==== Proof.LibGatherRows.lean ====
/-
  A gather of whole rows of a rank-2 array, read at coordinates.

  What `x[idx]` of an array `x : [N, C]` at a vector of row numbers lowers to: a gather whose start indices are a
  column `[L, 1]`, whose one start component names axis 0, which collapses axis 0 and keeps axis 1 whole (slice
  sizes `[1, C]`).  Result element `(l, q)` is `x` at row `idx[l, 0]`, read as a signed integer and clamped into
  `[0, N − 1]`, and column `q`.  In particular the row read depends on `l` only: a gather of rows commutes with
  any operation that acts on each row by itself.
-/
import Idealize.ShloMosaic.Lib.ValueIdx

noncomputable section

namespace GatherRows

open Idealize.ShloMosaic Idealize.ShloMosaic.ValueIdx

variable {α : Type}

/-- The dimension numbers of a gather of whole rows: operand `[N, C]`, start indices `[L, 1]`, result `[L, C]`. -/
abbrev rowsDims (N C L : Nat)
    (wf : GatherDims.WF ⟨2, ![N, C]⟩ ⟨2, ![L, 1]⟩ ⟨2, ![L, C]⟩ [1] [0] [] [0] [] 1 ![1, C]) :
    GatherDims ⟨2, ![N, C]⟩ ⟨2, ![L, 1]⟩ ⟨2, ![L, C]⟩ where
  offsetDims := [1]
  collapsedSliceDims := [0]
  operandBatchingDims := []
  startIndicesBatchingDims := []
  startIndexMap := [0]
  indexVectorDim := 1
  sliceSizes := ![1, C]
  wf := wf

/-- The gather read at `(l, q)`: row `idx[l, 0]` clamped into `[0, N − 1]`, column `q`. -/
theorem gather_rows_apply {N C L w : Nat} (hN : 0 < N)
    (wf : GatherDims.WF ⟨2, ![N, C]⟩ ⟨2, ![L, 1]⟩ ⟨2, ![L, C]⟩ [1] [0] [] [0] [] 1 ![1, C])
    (x : (⟨2, ![N, C]⟩ : Shape).Idx → α) (idx : IVec ⟨2, ![L, 1]⟩ w) (l : Fin L) (q : Fin C) :
    Host.gather (rowsDims N C L wf) x idx (ix2 l q)
      = x (ix2 ⟨min (idx (ix2 l (0 : Fin 1))).toInt.toNat (N - 1), by omega⟩ q) := by
  unfold Host.gather
  congr 1
  funext a
  refine Fin.ext ?_
  have key0 : (rowsDims N C L wf).start (ix2 l q) idx (0 : Fin 2) + (rowsDims N C L wf).batchCoord (ix2 l q) (0 : Fin 2)
      + (rowsDims N C L wf).offCoord (ix2 l q) (0 : Fin 2) = min (idx (ix2 l (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (rowsDims N C L wf).siIdx (ix2 l q) ⟨List.idxOf (0 : Fin 2) (rowsDims N C L wf).startIndexMap,
        List.idxOf_lt_length_iff.2 (List.mem_singleton.mpr rfl)⟩ = ix2 l (0 : Fin 1) := by
      funext b; refine Fin.ext ?_
      match b with
      | ⟨0, _⟩ => rfl
      | ⟨1, _⟩ => rfl
    rw [hsi]
    rfl
  have key1 : (rowsDims N C L wf).start (ix2 l q) idx (1 : Fin 2) + (rowsDims N C L wf).batchCoord (ix2 l q) (1 : Fin 2)
      + (rowsDims N C L wf).offCoord (ix2 l q) (1 : Fin 2) = q.val := by
    rw [GatherDims.batchCoord_eq_zero _ _ _ List.not_mem_nil]
    unfold GatherDims.start
    rw [dif_neg (show ¬ (1 : Fin 2) ∈ [(0 : Fin 2)] by decide)]
    simp only [Nat.add_zero, Nat.zero_add]
    rfl
  match a with
  | ⟨0, _⟩ => exact key0
  | ⟨1, _⟩ => exact key1

end GatherRows

end
-- ==== Proof.KiHost.lean ====
/-
  What the kernel program's host operations compute, at the ideal semantics, read off their lists.

  Before the first region the host cuts the two index rows out of the edge list, builds the node table, cuts `W1`
  into its four bands of rows and turns the column `W2` into a row; between the regions it gathers the rows of the two
  per-node products at the edges' end points; after the second region it drops the unit axis of the scores.  Each
  buffer's contents after a stretch of operations is the composition of the operations that lead to it, applied to
  the contents before the stretch; a buffer no operation writes keeps its contents.  The index rows and the gathered
  rows are identified with the reference's stages of the same name: they are the same operations on the same
  arguments.
-/
import proofs.«123470_j91130616087124_2_alg».proof.Proof.Gen.KernelIdeal.Launch
import proofs.«123470_j91130616087124_2_alg».proof.Proof.Spec
import proofs.«123470_j91130616087124_2_alg».proof.Proof.LibGatherRows
import Idealize.ShloMosaic.Lib.StableHlo.Run
import Idealize.ShloMosaic.Lib.ValueLayout
import proofs.«123470_j91130616087124_2_alg».proof.Proof.RefStages

noncomputable section

namespace Cert.KernelIdeal.HostVal

open Cert.KernelIdeal Cert.KernelIdeal.Gen Idealize.ShloMosaic Idealize.ShloMosaic.ValueIdx

/-- A TensorCore reference as a device buffer. -/
abbrev dr (b : Ref sig .tc) : DevRef τ sig := Proc.devRef .tc b

/-- The contents after the three host stretches that precede the first region. -/
abbrev pre (Wa : Valuation τ sig (Elt Ideal)) : Valuation τ sig (Elt Ideal) :=
  StableHlo.after hostOps0_2 (StableHlo.after hostOps0_1 (StableHlo.after hostOps0 Wa))

/-- The six-piece join that builds the node table, read at its result buffer: the join of the six operands' contents,
    each read at its own reference. -/
theorem join_result (F : Valuation τ sig (Elt Ideal)) (hxs hy) :
    (StableHlo.nary (τ := τ) ![main_v8, main_arg3, main_v31, main_v43, main_v55, main_v67] main_v68
        (fun u => concatenate S50000x522 1 [⟨S50000x512, u 0⟩, ⟨S50000x2, u 1⟩, ⟨S50000x2, u 2⟩, ⟨S50000x2, u 3⟩, ⟨S50000x2, u 4⟩, ⟨S50000x2, u 5⟩]
          concatenates_S50000x512_S50000x2_S50000x2_S50000x2_S50000x2_S50000x2_S50000x522_d1) hxs hy).result F
        (no_index (Proc.devRef .tc main_v68))
      = concatenate S50000x522 1 [⟨S50000x512, F (dr main_v8)⟩, ⟨S50000x2, F (dr main_arg3)⟩, ⟨S50000x2, F (dr main_v31)⟩,
          ⟨S50000x2, F (dr main_v43)⟩, ⟨S50000x2, F (dr main_v55)⟩, ⟨S50000x2, F (dr main_v67)⟩]
          concatenates_S50000x512_S50000x2_S50000x2_S50000x2_S50000x2_S50000x2_S50000x522_d1 := by
  rw [StableHlo.nary_result]
  rfl

/-- Two joins of six pieces along one axis are equal when the pieces are, piece by piece. -/
theorem join6_congr {α : Type} {t : Shape} {a : Fin t.rank} {s0 s1 s2 s3 s4 s5 : Shape}
    {a0 b0 : s0.Idx → α} {a1 b1 : s1.Idx → α} {a2 b2 : s2.Idx → α} {a3 b3 : s3.Idx → α} {a4 b4 : s4.Idx → α}
    {a5 b5 : s5.Idx → α}
    (e0 : a0 = b0) (e1 : a1 = b1) (e2 : a2 = b2) (e3 : a3 = b3) (e4 : a4 = b4) (e5 : a5 = b5)
    (h : Shape.Concatenates (([⟨s0, a0⟩, ⟨s1, a1⟩, ⟨s2, a2⟩, ⟨s3, a3⟩, ⟨s4, a4⟩, ⟨s5, a5⟩] :
      List ((s : Shape) × (s.Idx → α))).map (·.1)) t a)
    (h' : Shape.Concatenates (([⟨s0, b0⟩, ⟨s1, b1⟩, ⟨s2, b2⟩, ⟨s3, b3⟩, ⟨s4, b4⟩, ⟨s5, b5⟩] :
      List ((s : Shape) × (s.Idx → α))).map (·.1)) t a) :
    concatenate t a [⟨s0, a0⟩, ⟨s1, a1⟩, ⟨s2, a2⟩, ⟨s3, a3⟩, ⟨s4, a4⟩, ⟨s5, a5⟩] h
      = concatenate t a [⟨s0, b0⟩, ⟨s1, b1⟩, ⟨s2, b2⟩, ⟨s3, b3⟩, ⟨s4, b4⟩, ⟨s5, b5⟩] h' := by
  subst e0 e1 e2 e3 e4 e5
  rfl

open StableHlo in
/-- The results of a line of host operations in one pass: each operation's result at its own buffer is its function's
    value, at any other buffer what was there. -/
macro "host_results" : tactic =>
  `(tactic| (simp (disch := decide) only [after_cons, after_nil,
      nullary_result', unary_result', binary_result', ternary_result', quaternary_result', reshape_result', join_result,
      nullary_result_ne', unary_result_ne', binary_result_ne', ternary_result_ne', quaternary_result_ne', reshape_result_ne',
      nary_result_ne']))

set_option maxRecDepth 8192 in
set_option maxHeartbeats 4000000 in
/-- The band of `W1` from row 512, as the host cuts it and narrows it: a slice, then a conversion. -/
theorem pre_v72_eq (Wa : Valuation τ sig (Elt Ideal)) :
    @Eq (FVec Ideal S522x512 .bf16) (pre Wa (dr main_v72))
      (truncf (F := Ideal) .bf16 (extractStridedSlice S522x512 ![512, 0] (Wa (dr main_arg6) : FVec Ideal S2068x512 .f32)
          slices_S2068x512_S522x512_512_0) bitsLt_bf16_f32) := by
  dsimp only [pre, hostOps0, hostOps0_1, hostOps0_2]
  host_results <;> rfl

/-- At the ideal semantics the conversion is the identity, so the buffer holds the band itself. -/
theorem pre_v72 (Wa : Valuation τ sig (Elt Ideal)) (k : Fin 522) (j : Fin 512) :
    (pre Wa (dr main_v72) : S522x512.Idx → EReal) (ix2 k j)
      = Score.band (Score.rd2 (Wa (dr main_arg6) : S2068x512.Idx → EReal)) 512 522 (by omega) k j := by
  rw [pre_v72_eq, truncf_apply, slice2_axis0_eq]
  rfl

set_option maxRecDepth 8192 in
set_option maxHeartbeats 4000000 in
/-- The band of `W1` from row 1546, as the host cuts it and narrows it: a slice, then a conversion. -/
theorem pre_v76_eq (Wa : Valuation τ sig (Elt Ideal)) :
    @Eq (FVec Ideal S522x512 .bf16) (pre Wa (dr main_v76))
      (truncf (F := Ideal) .bf16 (extractStridedSlice S522x512 ![1546, 0] (Wa (dr main_arg6) : FVec Ideal S2068x512 .f32)
          slices_S2068x512_S522x512_1546_0) bitsLt_bf16_f32) := by
  dsimp only [pre, hostOps0, hostOps0_1, hostOps0_2]
  host_results <;> rfl

/-- At the ideal semantics the conversion is the identity, so the buffer holds the band itself. -/
theorem pre_v76 (Wa : Valuation τ sig (Elt Ideal)) (k : Fin 522) (j : Fin 512) :
    (pre Wa (dr main_v76) : S522x512.Idx → EReal) (ix2 k j)
      = Score.band (Score.rd2 (Wa (dr main_arg6) : S2068x512.Idx → EReal)) 1546 522 (by omega) k j := by
  rw [pre_v76_eq, truncf_apply, slice2_axis0_eq]
  rfl

set_option maxRecDepth 8192 in
set_option maxHeartbeats 4000000 in
/-- The band of `W1` from row 0, as the host cuts it and narrows it: a slice, then a conversion. -/
theorem pre_v70_eq (Wa : Valuation τ sig (Elt Ideal)) :
    @Eq (FVec Ideal S512x512 .bf16) (pre Wa (dr main_v70))
      (truncf (F := Ideal) .bf16 (extractStridedSlice S512x512 ![0, 0] (Wa (dr main_arg6) : FVec Ideal S2068x512 .f32)
          slices_S2068x512_S512x512_0_0) bitsLt_bf16_f32) := by
  dsimp only [pre, hostOps0, hostOps0_1, hostOps0_2]
  host_results <;> rfl

/-- At the ideal semantics the conversion is the identity, so the buffer holds the band itself. -/
theorem pre_v70 (Wa : Valuation τ sig (Elt Ideal)) (k : Fin 512) (j : Fin 512) :
    (pre Wa (dr main_v70) : S512x512.Idx → EReal) (ix2 k j)
      = Score.band (Score.rd2 (Wa (dr main_arg6) : S2068x512.Idx → EReal)) 0 512 (by omega) k j := by
  rw [pre_v70_eq, truncf_apply, slice2_axis0_eq]
  rfl

set_option maxRecDepth 8192 in
set_option maxHeartbeats 4000000 in
/-- The band of `W1` from row 1034, as the host cuts it and narrows it: a slice, then a conversion. -/
theorem pre_v74_eq (Wa : Valuation τ sig (Elt Ideal)) :
    @Eq (FVec Ideal S512x512 .bf16) (pre Wa (dr main_v74))
      (truncf (F := Ideal) .bf16 (extractStridedSlice S512x512 ![1034, 0] (Wa (dr main_arg6) : FVec Ideal S2068x512 .f32)
          slices_S2068x512_S512x512_1034_0) bitsLt_bf16_f32) := by
  dsimp only [pre, hostOps0, hostOps0_1, hostOps0_2]
  host_results <;> rfl

/-- At the ideal semantics the conversion is the identity, so the buffer holds the band itself. -/
theorem pre_v74 (Wa : Valuation τ sig (Elt Ideal)) (k : Fin 512) (j : Fin 512) :
    (pre Wa (dr main_v74) : S512x512.Idx → EReal) (ix2 k j)
      = Score.band (Score.rd2 (Wa (dr main_arg6) : S2068x512.Idx → EReal)) 1034 512 (by omega) k j := by
  rw [pre_v74_eq, truncf_apply, slice2_axis0_eq]
  rfl

set_option maxRecDepth 8192 in
set_option maxHeartbeats 4000000 in
/-- The output layer's weights as a row: the column `W2` transposed, then converted. -/
theorem pre_v78_eq (Wa : Valuation τ sig (Elt Ideal)) :
    @Eq (FVec Ideal S1x512 .bf16) (pre Wa (dr main_v78))
      (truncf (F := Ideal) .bf16 (transpose S1x512 [1, 0] (Wa (dr main_arg8) : FVec Ideal S512x1 .f32)
          transposes_S512x1_S1x512_1_0) bitsLt_bf16_f32) := by
  dsimp only [pre, hostOps0, hostOps0_1, hostOps0_2]
  host_results <;> rfl

theorem pre_v78 (Wa : Valuation τ sig (Elt Ideal)) (j : Fin 512) :
    (pre Wa (dr main_v78) : S1x512.Idx → EReal) (ix2 (0 : Fin 1) j)
      = (Wa (dr main_arg8) : S512x1.Idx → EReal) (ix2 j (0 : Fin 1)) := by
  rw [pre_v78_eq, truncf_apply, transpose_ix2_apply]

set_option maxRecDepth 8192 in
set_option maxHeartbeats 4000000 in
/-- No host operation before the first region writes argument 2. -/
theorem pre_keep_arg2 (Wa : Valuation τ sig (Elt Ideal)) : pre Wa (dr main_arg2) = Wa (dr main_arg2) := by
  dsimp only [pre, hostOps0, hostOps0_1, hostOps0_2]
  host_results <;> rfl

set_option maxRecDepth 8192 in
set_option maxHeartbeats 4000000 in
/-- No host operation before the first region writes argument 4. -/
theorem pre_keep_arg4 (Wa : Valuation τ sig (Elt Ideal)) : pre Wa (dr main_arg4) = Wa (dr main_arg4) := by
  dsimp only [pre, hostOps0, hostOps0_1, hostOps0_2]
  host_results <;> rfl

set_option maxRecDepth 8192 in
set_option maxHeartbeats 4000000 in
/-- No host operation before the first region writes argument 7. -/
theorem pre_keep_arg7 (Wa : Valuation τ sig (Elt Ideal)) : pre Wa (dr main_arg7) = Wa (dr main_arg7) := by
  dsimp only [pre, hostOps0, hostOps0_1, hostOps0_2]
  host_results <;> rfl

set_option maxRecDepth 8192 in
set_option maxHeartbeats 4000000 in
/-- No host operation before the first region writes argument 9. -/
theorem pre_keep_arg9 (Wa : Valuation τ sig (Elt Ideal)) : pre Wa (dr main_arg9) = Wa (dr main_arg9) := by
  dsimp only [pre, hostOps0, hostOps0_1, hostOps0_2]
  host_results <;> rfl

/-- The two row gathers leave `main_arg4` as it was. -/
theorem mid_keep_arg4 (Wb : Valuation τ sig (Elt Ideal)) :
    StableHlo.after hostOps1 Wb (dr main_arg4) = Wb (dr main_arg4) := by
  dsimp only [hostOps1]
  host_results <;> rfl

/-- The two row gathers leave `main_arg2` as it was. -/
theorem mid_keep_arg2 (Wb : Valuation τ sig (Elt Ideal)) :
    StableHlo.after hostOps1 Wb (dr main_arg2) = Wb (dr main_arg2) := by
  dsimp only [hostOps1]
  host_results <;> rfl

/-- The two row gathers leave `main_v70` as it was. -/
theorem mid_keep_v70 (Wb : Valuation τ sig (Elt Ideal)) :
    StableHlo.after hostOps1 Wb (dr main_v70) = Wb (dr main_v70) := by
  dsimp only [hostOps1]
  host_results <;> rfl

/-- The two row gathers leave `main_v74` as it was. -/
theorem mid_keep_v74 (Wb : Valuation τ sig (Elt Ideal)) :
    StableHlo.after hostOps1 Wb (dr main_v74) = Wb (dr main_v74) := by
  dsimp only [hostOps1]
  host_results <;> rfl

/-- The two row gathers leave `main_arg7` as it was. -/
theorem mid_keep_arg7 (Wb : Valuation τ sig (Elt Ideal)) :
    StableHlo.after hostOps1 Wb (dr main_arg7) = Wb (dr main_arg7) := by
  dsimp only [hostOps1]
  host_results <;> rfl

/-- The two row gathers leave `main_v78` as it was. -/
theorem mid_keep_v78 (Wb : Valuation τ sig (Elt Ideal)) :
    StableHlo.after hostOps1 Wb (dr main_v78) = Wb (dr main_v78) := by
  dsimp only [hostOps1]
  host_results <;> rfl

/-- The two row gathers leave `main_arg9` as it was. -/
theorem mid_keep_arg9 (Wb : Valuation τ sig (Elt Ideal)) :
    StableHlo.after hostOps1 Wb (dr main_arg9) = Wb (dr main_arg9) := by
  dsimp only [hostOps1]
  host_results <;> rfl

/-- The last host operation drops the unit axis of the scores: entry `e` of the result is entry `(e, 0)` of the
    column the second region wrote. -/
theorem tail_v95 (Wc : Valuation τ sig (Elt Ideal)) (e : Fin 100000) :
    (StableHlo.after hostOps2 Wc (dr main_v95) : S100000.Idx → EReal) (ix1 e)
      = (Wc (dr main_v94) : S100000x1.Idx → EReal) (ix2 e (0 : Fin 1)) := by
  dsimp only [hostOps2]
  after_results
  refine shapeCast_apply _ shapeCasts_S100000x1_S100000 _ _ ?_
  rw [Shape.rowMajor_val_two, Shape.rowMajor_val_one]
  show e.val * 1 + 0 = e.val
  omega

/-! ## The host operations identified with the reference's stages -/

set_option maxRecDepth 8192 in
set_option maxHeartbeats 4000000 in
/-- The source ends of the edges: row 0 of the edge list, as the reference cuts it. -/
theorem pre_v1 (Wa : Valuation τ sig (Elt Ideal)) :
    @Eq (IVec S100000 32) (pre Wa (dr main_v1)) (Cert.ReferenceIdeal.Read.val_main_v1 (F := Ideal) (Wa (dr main_arg1))) := by
  dsimp only [pre, hostOps0, hostOps0_1, hostOps0_2]
  host_results <;> rfl

set_option maxRecDepth 8192 in
set_option maxHeartbeats 4000000 in
/-- The target ends of the edges: row 1 of the edge list. -/
theorem pre_v3 (Wa : Valuation τ sig (Elt Ideal)) :
    @Eq (IVec S100000 32) (pre Wa (dr main_v3)) (Cert.ReferenceIdeal.Read.val_main_v3 (F := Ideal) (Wa (dr main_arg1))) := by
  dsimp only [pre, hostOps0, hostOps0_1, hostOps0_2]
  host_results <;> rfl

/-- An index vector as a row gather's lowering prepares it: a negative entry has the table's height added, then a
    unit axis is appended. -/
def wrapIdx (v : IVec S100000 32) : IVec S100000x1 32 :=
  broadcastInDim S100000x1 ![0] bcast_S100000_S100000x1_0
    (select (cmpi .slt v (broadcastInDim S100000 ![] bcast_S_S100000 (constantI S_ 32 0#32)))
      (addi v (broadcastInDim S100000 ![] bcast_S_S100000 (constantI S_ 32 50000#32))) v)

/-- The first row gather: the first product's rows at the prepared source indices. -/
theorem mid_v86_eq (Wb : Valuation τ sig (Elt Ideal)) :
    @Eq (FVec Ideal S100000x512 .bf16) (StableHlo.after hostOps1 Wb (dr main_v86))
      (Host.gather gather_S50000x512_S100000x1_S100000x512_1_0_n_n_0_1_1512
        (Wb (dr main_v79_0) : FVec Ideal S50000x512 .bf16) (wrapIdx (Wb (dr main_v1)))) := by
  dsimp only [hostOps1]
  host_results <;> rfl

/-- The second row gather: the second product's rows at the prepared target indices. -/
theorem mid_v93_eq (Wb : Valuation τ sig (Elt Ideal)) :
    @Eq (FVec Ideal S100000x512 .bf16) (StableHlo.after hostOps1 Wb (dr main_v93))
      (Host.gather gather_S50000x512_S100000x1_S100000x512_1_0_n_n_0_1_1512
        (Wb (dr main_v79_1) : FVec Ideal S50000x512 .bf16) (wrapIdx (Wb (dr main_v3)))) := by
  dsimp only [hostOps1]
  host_results <;> rfl

/-- Entry `(e, j)` of the first gathered array is the first product at the row the reference's source index names. -/
theorem mid_v86 (Wb : Valuation τ sig (Elt Ideal)) (x1 : IVec S2x100000 32)
    (h1 : @Eq (IVec S100000 32) (Wb (dr main_v1)) (Cert.ReferenceIdeal.Read.val_main_v1 (F := Ideal) x1))
    (e : Fin 100000) (j : Fin 512) :
    (StableHlo.after hostOps1 Wb (dr main_v86) : S100000x512.Idx → EReal) (ix2 e j)
      = (Wb (dr main_v79_0) : S50000x512.Idx → EReal)
          (ix2 (Score.rowAt (Cert.ReferenceIdeal.Read.val_main_v87 (F := Ideal) x1) e) j) := by
  rw [mid_v86_eq, h1]
  exact GatherRows.gather_rows_apply (N := 50000) (C := 512) (L := 100000) (by omega)
    gather_S50000x512_S100000x1_S100000x512_1_0_n_n_0_1_1512_wf _
    (wrapIdx (Cert.ReferenceIdeal.Read.val_main_v1 (F := Ideal) x1)) e j

/-- Entry `(e, j)` of the second gathered array is the second product at the row the reference's target index names. -/
theorem mid_v93 (Wb : Valuation τ sig (Elt Ideal)) (x1 : IVec S2x100000 32)
    (h3 : @Eq (IVec S100000 32) (Wb (dr main_v3)) (Cert.ReferenceIdeal.Read.val_main_v3 (F := Ideal) x1))
    (e : Fin 100000) (j : Fin 512) :
    (StableHlo.after hostOps1 Wb (dr main_v93) : S100000x512.Idx → EReal) (ix2 e j)
      = (Wb (dr main_v79_1) : S50000x512.Idx → EReal)
          (ix2 (Score.rowAt (Cert.ReferenceIdeal.Read.val_main_v94 (F := Ideal) x1) e) j) := by
  rw [mid_v93_eq, h3]
  exact GatherRows.gather_rows_apply (N := 50000) (C := 512) (L := 100000) (by omega)
    gather_S50000x512_S100000x1_S100000x512_1_0_n_n_0_1_1512_wf _
    (wrapIdx (Cert.ReferenceIdeal.Read.val_main_v3 (F := Ideal) x1)) e j

end Cert.KernelIdeal.HostVal

end
-- ==== Proof.KiWhere.lean ====
/-
  The node table's first piece: the features, with every all-zero row replaced by the fill row.

  The select that does this sits in a called function; its three operations carry their contents along the
  equation between a buffer's type and its value's type, which at a literal reference is the identity.  With that
  removed the three operations are the reference's stages of the same name.
-/
import proofs.«123470_j91130616087124_2_alg».proof.Proof.KiHost

noncomputable section

namespace Cert.KernelIdeal.HostVal

open Cert.KernelIdeal Cert.KernelIdeal.Gen Idealize.ShloMosaic Idealize.ShloMosaic.ValueIdx

/-- The mask of all-zero rows, as a column: the reference's stage of the same number. -/
theorem pre0_v7 (Wa : Valuation τ sig (Elt Ideal)) :
    @Eq (IVec S50000x1 1) (StableHlo.after hostOps0 Wa (dr main_v7))
      (Cert.ReferenceIdeal.Read.val_main_v7 (F := Ideal) (Wa (dr main_arg0))) := by
  dsimp only [hostOps0]
  host_results <;> rfl

/-- The first ten operations write neither the features nor the fill row. -/
theorem pre0_keep_arg0 (Wa : Valuation τ sig (Elt Ideal)) :
    StableHlo.after hostOps0 Wa (dr main_arg0) = Wa (dr main_arg0) := by
  dsimp only [hostOps0]
  host_results <;> rfl
theorem pre0_keep_arg5 (Wa : Valuation τ sig (Elt Ideal)) :
    StableHlo.after hostOps0 Wa (dr main_arg5) = Wa (dr main_arg5) := by
  dsimp only [hostOps0]
  host_results <;> rfl

/-- The called select from any contents: the mask spread over the columns chooses, entry by entry, between the fill
    row spread over the rows and the features. -/
theorem where_v8 (W : Valuation τ sig (Elt Ideal)) :
    @Eq (FVec Ideal S50000x512 .f32) (StableHlo.after hostOps0_1 W (dr main_v8))
      (select (broadcastInDim S50000x512 ![0, 1] bcast_S50000x1_S50000x512_0_1 (W (dr main_v7) : IVec S50000x1 1))
        (broadcastInDim S50000x512 ![0, 1] bcast_S1x512_S50000x512_0_1 (W (dr main_arg5) : FVec Ideal S1x512 .f32))
        (W (dr main_arg0) : FVec Ideal S50000x512 .f32)) := by
  dsimp only [hostOps0_1]
  host_results
  rfl

/-- The first piece of the node table, before the long stretch: the reference's stage 8. -/
theorem pre2_v8 (Wa : Valuation τ sig (Elt Ideal)) :
    @Eq (FVec Ideal S50000x512 .f32) (StableHlo.after hostOps0_1 (StableHlo.after hostOps0 Wa) (dr main_v8))
      (Cert.ReferenceIdeal.Read.val_main_v8 (F := Ideal) (Wa (dr main_arg0)) (Wa (dr main_arg5))) := by
  rw [where_v8, pre0_v7, pre0_keep_arg0, pre0_keep_arg5]
  rfl

end Cert.KernelIdeal.HostVal

end
-- ==== Proof.KiTable.lean ====
/-
  The node table the kernel program's host operations build is the reference's.

  The 87 operations before the first region are cut where their mathematics cuts: the in-degree of every node (the
  number of edges that end there, at least one), the out-degree, four rounds of mean aggregation — gather the
  previous columns at one end of every edge, add them up at the other end, divide by that end's degree — two along
  the edges and two against them, the join of the replaced rows, the topic columns and the four rounds' columns into
  one table, and the cuts of the weights. Each piece, from ANY contents that hold what the piece reads, leaves the
  reference's stage of the same name: the reference computes each round by the same operations on the same inputs, and
  recomputes the degree inside every round where this program computes it once per direction.
-/
import proofs.«123470_j91130616087124_2_alg».proof.Proof.KiHost
import proofs.«123470_j91130616087124_2_alg».proof.Proof.KiWhere

noncomputable section

namespace Cert.KernelIdeal.HostVal

open Cert.KernelIdeal Cert.KernelIdeal.Gen Idealize.ShloMosaic Idealize.ShloMosaic.ValueIdx

/-- The fold through two lists of operations laid end to end. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-! ## The stretch cut into its pieces -/

abbrev segDegF : List (HloOp τ sig (Elt Ideal)) := ((hostOps0_2 (F := Ideal)).drop 0).take 9
abbrev segDegR : List (HloOp τ sig (Elt Ideal)) := ((hostOps0_2 (F := Ideal)).drop 9).take 7
abbrev segR1 : List (HloOp τ sig (Elt Ideal)) := ((hostOps0_2 (F := Ideal)).drop 16).take 15
abbrev segR2 : List (HloOp τ sig (Elt Ideal)) := ((hostOps0_2 (F := Ideal)).drop 31).take 15
abbrev segR3 : List (HloOp τ sig (Elt Ideal)) := ((hostOps0_2 (F := Ideal)).drop 46).take 15
abbrev segR4 : List (HloOp τ sig (Elt Ideal)) := ((hostOps0_2 (F := Ideal)).drop 61).take 15
abbrev segJoin : List (HloOp τ sig (Elt Ideal)) := ((hostOps0_2 (F := Ideal)).drop 76).take 1
abbrev segCuts : List (HloOp τ sig (Elt Ideal)) := ((hostOps0_2 (F := Ideal)).drop 77).take 10

set_option maxRecDepth 8192 in
set_option maxHeartbeats 4000000 in
theorem hostOps0_2_cut : (hostOps0_2 (F := Ideal)) = segDegF ++ (segDegR ++ (segR1 ++ (segR2 ++ (segR3 ++ (segR4 ++ (segJoin ++ segCuts)))))) := by
  simp only [segDegF, segDegR, segR1, segR2, segR3, segR4, segJoin, segCuts, hostOps0_2, List.drop_succ_cons, List.drop_zero, List.take_succ_cons, List.take_zero,
    List.cons_append, List.nil_append]

/-! ## The reference recomputes each direction's degree: its two copies are one function -/

theorem deg_fwd_again (x1 : IVec S2x100000 32) : Cert.ReferenceIdeal.Read.val_main_v42 (F := Ideal) x1 = Cert.ReferenceIdeal.Read.val_main_v24 (F := Ideal) x1 := by
  unfold Cert.ReferenceIdeal.Read.val_main_v42 Cert.ReferenceIdeal.Read.val_main_v41 Cert.ReferenceIdeal.Read.val_main_cst_11 Cert.ReferenceIdeal.Read.val_main_v40 Cert.ReferenceIdeal.Read.val_main_v39 Cert.ReferenceIdeal.Read.val_main_v38 Cert.ReferenceIdeal.Read.val_main_cst_10 Cert.ReferenceIdeal.Read.val_main_v37 Cert.ReferenceIdeal.Read.val_main_cst_9 Cert.ReferenceIdeal.Read.val_main_v24 Cert.ReferenceIdeal.Read.val_main_v23 Cert.ReferenceIdeal.Read.val_main_cst_5 Cert.ReferenceIdeal.Read.val_main_v22 Cert.ReferenceIdeal.Read.val_main_v21 Cert.ReferenceIdeal.Read.val_main_v20 Cert.ReferenceIdeal.Read.val_main_cst_4 Cert.ReferenceIdeal.Read.val_main_v19 Cert.ReferenceIdeal.Read.val_main_cst_3
  rfl
theorem deg_rev_again (x1 : IVec S2x100000 32) : Cert.ReferenceIdeal.Read.val_main_v78 (F := Ideal) x1 = Cert.ReferenceIdeal.Read.val_main_v60 (F := Ideal) x1 := by
  unfold Cert.ReferenceIdeal.Read.val_main_v78 Cert.ReferenceIdeal.Read.val_main_v77 Cert.ReferenceIdeal.Read.val_main_cst_23 Cert.ReferenceIdeal.Read.val_main_v76 Cert.ReferenceIdeal.Read.val_main_v75 Cert.ReferenceIdeal.Read.val_main_v74 Cert.ReferenceIdeal.Read.val_main_cst_22 Cert.ReferenceIdeal.Read.val_main_v73 Cert.ReferenceIdeal.Read.val_main_cst_21 Cert.ReferenceIdeal.Read.val_main_v60 Cert.ReferenceIdeal.Read.val_main_v59 Cert.ReferenceIdeal.Read.val_main_cst_17 Cert.ReferenceIdeal.Read.val_main_v58 Cert.ReferenceIdeal.Read.val_main_v57 Cert.ReferenceIdeal.Read.val_main_v56 Cert.ReferenceIdeal.Read.val_main_cst_16 Cert.ReferenceIdeal.Read.val_main_v55 Cert.ReferenceIdeal.Read.val_main_cst_15
  rfl

/-! ## Each piece, from any contents that hold what it reads -/

set_option maxRecDepth 8192 in
set_option maxHeartbeats 4000000 in
/-- The in-degree column: ones added up at every edge's target, at least one. -/
theorem degF_v14 (WA : Valuation τ sig (Elt Ideal)) (x1 : IVec S2x100000 32) (h3 : @Eq (IVec S100000 32) (WA (dr main_v3)) (Cert.ReferenceIdeal.Read.val_main_v3 (F := Ideal) x1)) :
    @Eq (FVec Ideal S50000x1 .f32) (StableHlo.after segDegF WA (dr main_v14)) (Cert.ReferenceIdeal.Read.val_main_v24 (F := Ideal) x1) := by
  simp only [segDegF, hostOps0_2, List.drop_succ_cons, List.drop_zero, List.take_succ_cons, List.take_zero]
  host_results
  rw [h3]
  unfold Cert.ReferenceIdeal.Read.val_main_v24 Cert.ReferenceIdeal.Read.val_main_v23 Cert.ReferenceIdeal.Read.val_main_cst_5 Cert.ReferenceIdeal.Read.val_main_v22 Cert.ReferenceIdeal.Read.val_main_v21 Cert.ReferenceIdeal.Read.val_main_v20 Cert.ReferenceIdeal.Read.val_main_cst_4 Cert.ReferenceIdeal.Read.val_main_v19 Cert.ReferenceIdeal.Read.val_main_cst_3
  rfl

set_option maxRecDepth 8192 in
set_option maxHeartbeats 4000000 in
/-- The column of ones it adds up, which the out-degree adds up again. -/
theorem degF_v9 (WA : Valuation τ sig (Elt Ideal)) :
    @Eq (FVec Ideal S100000x1 .f32) (StableHlo.after segDegF WA (dr main_v9)) (Cert.ReferenceIdeal.Read.val_main_v55 (F := Ideal)) := by
  simp only [segDegF, hostOps0_2, List.drop_succ_cons, List.drop_zero, List.take_succ_cons, List.take_zero]
  host_results
  unfold Cert.ReferenceIdeal.Read.val_main_v55 Cert.ReferenceIdeal.Read.val_main_cst_15
  rfl

set_option maxRecDepth 8192 in
set_option maxHeartbeats 4000000 in
/-- The out-degree column. -/
theorem degR_v19 (WA : Valuation τ sig (Elt Ideal)) (x1 : IVec S2x100000 32) (h1 : @Eq (IVec S100000 32) (WA (dr main_v1)) (Cert.ReferenceIdeal.Read.val_main_v1 (F := Ideal) x1))
    (h9 : @Eq (FVec Ideal S100000x1 .f32) (WA (dr main_v9)) (Cert.ReferenceIdeal.Read.val_main_v55 (F := Ideal))) :
    @Eq (FVec Ideal S50000x1 .f32) (StableHlo.after segDegR WA (dr main_v19)) (Cert.ReferenceIdeal.Read.val_main_v60 (F := Ideal) x1) := by
  simp only [segDegR, hostOps0_2, List.drop_succ_cons, List.drop_zero, List.take_succ_cons, List.take_zero]
  host_results
  rw [h1, h9]
  unfold Cert.ReferenceIdeal.Read.val_main_v60 Cert.ReferenceIdeal.Read.val_main_v59 Cert.ReferenceIdeal.Read.val_main_cst_17 Cert.ReferenceIdeal.Read.val_main_v58 Cert.ReferenceIdeal.Read.val_main_v57 Cert.ReferenceIdeal.Read.val_main_v56 Cert.ReferenceIdeal.Read.val_main_cst_16
  rfl

set_option maxRecDepth 8192 in
set_option maxHeartbeats 4000000 in
theorem r1_v31 (WA : Valuation τ sig (Elt Ideal)) (x1 : IVec S2x100000 32) (x3 : FVec Ideal S50000x2 .f32)
    (h1 : @Eq (IVec S100000 32) (WA (dr main_v1)) (Cert.ReferenceIdeal.Read.val_main_v1 (F := Ideal) x1))
    (h3 : @Eq (IVec S100000 32) (WA (dr main_v3)) (Cert.ReferenceIdeal.Read.val_main_v3 (F := Ideal) x1))
    (ha3 : @Eq (FVec Ideal S50000x2 .f32) (WA (dr main_arg3)) (x3))
    (h14 : @Eq (FVec Ideal S50000x1 .f32) (WA (dr main_v14)) (Cert.ReferenceIdeal.Read.val_main_v24 (F := Ideal) x1)) :
    @Eq (FVec Ideal S50000x2 .f32) (StableHlo.after segR1 WA (dr main_v31)) (Cert.ReferenceIdeal.Read.val_main_v26 (F := Ideal) x1 x3) := by
  simp only [segR1, hostOps0_2, List.drop_succ_cons, List.drop_zero, List.take_succ_cons, List.take_zero]
  host_results
  rw [h1, h3, ha3, h14]
  unfold Cert.ReferenceIdeal.Read.val_main_v26 Cert.ReferenceIdeal.Read.val_main_v25 Cert.ReferenceIdeal.Read.val_main_v18 Cert.ReferenceIdeal.Read.val_main_v17 Cert.ReferenceIdeal.Read.val_main_v16 Cert.ReferenceIdeal.Read.val_main_cst_2 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_c_1 Cert.ReferenceIdeal.Read.val_main_v10 Cert.ReferenceIdeal.Read.val_main_v9 Cert.ReferenceIdeal.Read.val_main_c_0
  rfl

set_option maxRecDepth 8192 in
set_option maxHeartbeats 4000000 in
theorem r2_v43 (WA : Valuation τ sig (Elt Ideal)) (x1 : IVec S2x100000 32) (x3 : FVec Ideal S50000x2 .f32)
    (h1 : @Eq (IVec S100000 32) (WA (dr main_v1)) (Cert.ReferenceIdeal.Read.val_main_v1 (F := Ideal) x1))
    (h3 : @Eq (IVec S100000 32) (WA (dr main_v3)) (Cert.ReferenceIdeal.Read.val_main_v3 (F := Ideal) x1))
    (h31 : @Eq (FVec Ideal S50000x2 .f32) (WA (dr main_v31)) (Cert.ReferenceIdeal.Read.val_main_v26 (F := Ideal) x1 x3))
    (h14 : @Eq (FVec Ideal S50000x1 .f32) (WA (dr main_v14)) (Cert.ReferenceIdeal.Read.val_main_v42 (F := Ideal) x1)) :
    @Eq (FVec Ideal S50000x2 .f32) (StableHlo.after segR2 WA (dr main_v43)) (Cert.ReferenceIdeal.Read.val_main_v44 (F := Ideal) x1 x3) := by
  simp only [segR2, hostOps0_2, List.drop_succ_cons, List.drop_zero, List.take_succ_cons, List.take_zero]
  host_results
  rw [h1, h3, h31, h14]
  unfold Cert.ReferenceIdeal.Read.val_main_v44 Cert.ReferenceIdeal.Read.val_main_v43 Cert.ReferenceIdeal.Read.val_main_v36 Cert.ReferenceIdeal.Read.val_main_v35 Cert.ReferenceIdeal.Read.val_main_v34 Cert.ReferenceIdeal.Read.val_main_cst_8 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_c_7 Cert.ReferenceIdeal.Read.val_main_v28 Cert.ReferenceIdeal.Read.val_main_v27 Cert.ReferenceIdeal.Read.val_main_c_6
  rfl

set_option maxRecDepth 8192 in
set_option maxHeartbeats 4000000 in
theorem r3_v55 (WA : Valuation τ sig (Elt Ideal)) (x1 : IVec S2x100000 32) (x3 : FVec Ideal S50000x2 .f32)
    (h1 : @Eq (IVec S100000 32) (WA (dr main_v1)) (Cert.ReferenceIdeal.Read.val_main_v1 (F := Ideal) x1))
    (h3 : @Eq (IVec S100000 32) (WA (dr main_v3)) (Cert.ReferenceIdeal.Read.val_main_v3 (F := Ideal) x1))
    (ha3 : @Eq (FVec Ideal S50000x2 .f32) (WA (dr main_arg3)) (x3))
    (h19 : @Eq (FVec Ideal S50000x1 .f32) (WA (dr main_v19)) (Cert.ReferenceIdeal.Read.val_main_v60 (F := Ideal) x1)) :
    @Eq (FVec Ideal S50000x2 .f32) (StableHlo.after segR3 WA (dr main_v55)) (Cert.ReferenceIdeal.Read.val_main_v62 (F := Ideal) x1 x3) := by
  simp only [segR3, hostOps0_2, List.drop_succ_cons, List.drop_zero, List.take_succ_cons, List.take_zero]
  host_results
  rw [h1, h3, ha3, h19]
  unfold Cert.ReferenceIdeal.Read.val_main_v62 Cert.ReferenceIdeal.Read.val_main_v61 Cert.ReferenceIdeal.Read.val_main_v54 Cert.ReferenceIdeal.Read.val_main_v53 Cert.ReferenceIdeal.Read.val_main_v52 Cert.ReferenceIdeal.Read.val_main_cst_14 Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_c_13 Cert.ReferenceIdeal.Read.val_main_v46 Cert.ReferenceIdeal.Read.val_main_v45 Cert.ReferenceIdeal.Read.val_main_c_12
  rfl

set_option maxRecDepth 8192 in
set_option maxHeartbeats 4000000 in
theorem r4_v67 (WA : Valuation τ sig (Elt Ideal)) (x1 : IVec S2x100000 32) (x3 : FVec Ideal S50000x2 .f32)
    (h1 : @Eq (IVec S100000 32) (WA (dr main_v1)) (Cert.ReferenceIdeal.Read.val_main_v1 (F := Ideal) x1))
    (h3 : @Eq (IVec S100000 32) (WA (dr main_v3)) (Cert.ReferenceIdeal.Read.val_main_v3 (F := Ideal) x1))
    (h55 : @Eq (FVec Ideal S50000x2 .f32) (WA (dr main_v55)) (Cert.ReferenceIdeal.Read.val_main_v62 (F := Ideal) x1 x3))
    (h19 : @Eq (FVec Ideal S50000x1 .f32) (WA (dr main_v19)) (Cert.ReferenceIdeal.Read.val_main_v78 (F := Ideal) x1)) :
    @Eq (FVec Ideal S50000x2 .f32) (StableHlo.after segR4 WA (dr main_v67)) (Cert.ReferenceIdeal.Read.val_main_v80 (F := Ideal) x1 x3) := by
  simp only [segR4, hostOps0_2, List.drop_succ_cons, List.drop_zero, List.take_succ_cons, List.take_zero]
  host_results
  rw [h1, h3, h55, h19]
  unfold Cert.ReferenceIdeal.Read.val_main_v80 Cert.ReferenceIdeal.Read.val_main_v79 Cert.ReferenceIdeal.Read.val_main_v72 Cert.ReferenceIdeal.Read.val_main_v71 Cert.ReferenceIdeal.Read.val_main_v70 Cert.ReferenceIdeal.Read.val_main_cst_20 Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_c_19 Cert.ReferenceIdeal.Read.val_main_v64 Cert.ReferenceIdeal.Read.val_main_v63 Cert.ReferenceIdeal.Read.val_main_c_18
  rfl

set_option maxRecDepth 8192 in
set_option maxHeartbeats 4000000 in
/-- The join, from any contents: the six operands' contents joined. -/
theorem join_v68 (WA : Valuation τ sig (Elt Ideal)) :
    @Eq (FVec Ideal S50000x522 .f32) (StableHlo.after segJoin WA (dr main_v68))
      (concatenate S50000x522 1 [⟨S50000x512, WA (dr main_v8)⟩, ⟨S50000x2, WA (dr main_arg3)⟩, ⟨S50000x2, WA (dr main_v31)⟩,
          ⟨S50000x2, WA (dr main_v43)⟩, ⟨S50000x2, WA (dr main_v55)⟩, ⟨S50000x2, WA (dr main_v67)⟩]
          concatenates_S50000x512_S50000x2_S50000x2_S50000x2_S50000x2_S50000x2_S50000x522_d1) := by
  simp only [segJoin, hostOps0_2, List.drop_succ_cons, List.drop_zero, List.take_succ_cons, List.take_zero]
  host_results

/-! ## The contents at the cuts, and what they hold -/

/-- Before the stretch: after the two opening stretches. -/
abbrev V0 (Wa : Valuation τ sig (Elt Ideal)) : Valuation τ sig (Elt Ideal) := StableHlo.after hostOps0_1 (StableHlo.after hostOps0 Wa)
abbrev V1 (Wa : Valuation τ sig (Elt Ideal)) : Valuation τ sig (Elt Ideal) := StableHlo.after segDegF (V0 Wa)
abbrev V2 (Wa : Valuation τ sig (Elt Ideal)) : Valuation τ sig (Elt Ideal) := StableHlo.after segDegR (V1 Wa)
abbrev V3 (Wa : Valuation τ sig (Elt Ideal)) : Valuation τ sig (Elt Ideal) := StableHlo.after segR1 (V2 Wa)
abbrev V4 (Wa : Valuation τ sig (Elt Ideal)) : Valuation τ sig (Elt Ideal) := StableHlo.after segR2 (V3 Wa)
abbrev V5 (Wa : Valuation τ sig (Elt Ideal)) : Valuation τ sig (Elt Ideal) := StableHlo.after segR3 (V4 Wa)
abbrev V6 (Wa : Valuation τ sig (Elt Ideal)) : Valuation τ sig (Elt Ideal) := StableHlo.after segR4 (V5 Wa)
abbrev V7 (Wa : Valuation τ sig (Elt Ideal)) : Valuation τ sig (Elt Ideal) := StableHlo.after segJoin (V6 Wa)

set_option maxRecDepth 8192 in
set_option maxHeartbeats 4000000 in
theorem pre_cut (Wa : Valuation τ sig (Elt Ideal)) : pre Wa = StableHlo.after segCuts (V7 Wa) := by
  show StableHlo.after hostOps0_2 (V0 Wa) = _
  rw [hostOps0_2_cut]
  simp only [after_append]

set_option maxRecDepth 8192 in
set_option maxHeartbeats 4000000 in
theorem f0_v1 (Wa : Valuation τ sig (Elt Ideal)) : @Eq (IVec S100000 32) (V0 Wa (dr main_v1)) (Cert.ReferenceIdeal.Read.val_main_v1 (F := Ideal) (Wa (dr main_arg1))) := by
  dsimp only [V0, hostOps0, hostOps0_1]
  host_results <;> rfl
set_option maxRecDepth 8192 in
set_option maxHeartbeats 4000000 in
theorem f0_v3 (Wa : Valuation τ sig (Elt Ideal)) : @Eq (IVec S100000 32) (V0 Wa (dr main_v3)) (Cert.ReferenceIdeal.Read.val_main_v3 (F := Ideal) (Wa (dr main_arg1))) := by
  dsimp only [V0, hostOps0, hostOps0_1]
  host_results <;> rfl
set_option maxRecDepth 8192 in
set_option maxHeartbeats 4000000 in
theorem f0_arg3 (Wa : Valuation τ sig (Elt Ideal)) : @Eq (FVec Ideal S50000x2 .f32) (V0 Wa (dr main_arg3)) (Wa (dr main_arg3)) := by
  dsimp only [V0, hostOps0, hostOps0_1]
  host_results <;> rfl
theorem f0_v8 (Wa : Valuation τ sig (Elt Ideal)) : @Eq (FVec Ideal S50000x512 .f32) (V0 Wa (dr main_v8)) (Cert.ReferenceIdeal.Read.val_main_v8 (F := Ideal) (Wa (dr main_arg0)) (Wa (dr main_arg5))) := pre2_v8 Wa

set_option maxRecDepth 8192 in
set_option maxHeartbeats 4000000 in
theorem f1_v14 (Wa : Valuation τ sig (Elt Ideal)) : @Eq (FVec Ideal S50000x1 .f32) (V1 Wa (dr main_v14)) (Cert.ReferenceIdeal.Read.val_main_v24 (F := Ideal) (Wa (dr main_arg1))) :=
  degF_v14 (V0 Wa) (Wa (dr main_arg1)) (f0_v3 Wa)

set_option maxRecDepth 8192 in
set_option maxHeartbeats 4000000 in
theorem f1_v9 (Wa : Valuation τ sig (Elt Ideal)) : @Eq (FVec Ideal S100000x1 .f32) (V1 Wa (dr main_v9)) (Cert.ReferenceIdeal.Read.val_main_v55 (F := Ideal)) :=
  degF_v9 (V0 Wa)

set_option maxRecDepth 8192 in
set_option maxHeartbeats 4000000 in
theorem f1_v1 (Wa : Valuation τ sig (Elt Ideal)) : @Eq (IVec S100000 32) (V1 Wa (dr main_v1)) (Cert.ReferenceIdeal.Read.val_main_v1 (F := Ideal) (Wa (dr main_arg1))) :=
  (StableHlo.after_of_forall_not_mem (b := dr main_v1) segDegF (V0 Wa) (List.forall_iff_forall_mem.mp (by
      simp only [segDegF, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f0_v1 Wa)

set_option maxRecDepth 8192 in
set_option maxHeartbeats 4000000 in
theorem f1_v3 (Wa : Valuation τ sig (Elt Ideal)) : @Eq (IVec S100000 32) (V1 Wa (dr main_v3)) (Cert.ReferenceIdeal.Read.val_main_v3 (F := Ideal) (Wa (dr main_arg1))) :=
  (StableHlo.after_of_forall_not_mem (b := dr main_v3) segDegF (V0 Wa) (List.forall_iff_forall_mem.mp (by
      simp only [segDegF, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f0_v3 Wa)

set_option maxRecDepth 8192 in
set_option maxHeartbeats 4000000 in
theorem f1_arg3 (Wa : Valuation τ sig (Elt Ideal)) : @Eq (FVec Ideal S50000x2 .f32) (V1 Wa (dr main_arg3)) (Wa (dr main_arg3)) :=
  (StableHlo.after_of_forall_not_mem (b := dr main_arg3) segDegF (V0 Wa) (List.forall_iff_forall_mem.mp (by
      simp only [segDegF, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f0_arg3 Wa)

set_option maxRecDepth 8192 in
set_option maxHeartbeats 4000000 in
theorem f1_v8 (Wa : Valuation τ sig (Elt Ideal)) : @Eq (FVec Ideal S50000x512 .f32) (V1 Wa (dr main_v8)) (Cert.ReferenceIdeal.Read.val_main_v8 (F := Ideal) (Wa (dr main_arg0)) (Wa (dr main_arg5))) :=
  (StableHlo.after_of_forall_not_mem (b := dr main_v8) segDegF (V0 Wa) (List.forall_iff_forall_mem.mp (by
      simp only [segDegF, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f0_v8 Wa)

set_option maxRecDepth 8192 in
set_option maxHeartbeats 4000000 in
theorem f2_v19 (Wa : Valuation τ sig (Elt Ideal)) : @Eq (FVec Ideal S50000x1 .f32) (V2 Wa (dr main_v19)) (Cert.ReferenceIdeal.Read.val_main_v60 (F := Ideal) (Wa (dr main_arg1))) :=
  degR_v19 (V1 Wa) (Wa (dr main_arg1)) (f1_v1 Wa) (f1_v9 Wa)

set_option maxRecDepth 8192 in
set_option maxHeartbeats 4000000 in
theorem f2_v1 (Wa : Valuation τ sig (Elt Ideal)) : @Eq (IVec S100000 32) (V2 Wa (dr main_v1)) (Cert.ReferenceIdeal.Read.val_main_v1 (F := Ideal) (Wa (dr main_arg1))) :=
  (StableHlo.after_of_forall_not_mem (b := dr main_v1) segDegR (V1 Wa) (List.forall_iff_forall_mem.mp (by
      simp only [segDegR, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f1_v1 Wa)

set_option maxRecDepth 8192 in
set_option maxHeartbeats 4000000 in
theorem f2_v3 (Wa : Valuation τ sig (Elt Ideal)) : @Eq (IVec S100000 32) (V2 Wa (dr main_v3)) (Cert.ReferenceIdeal.Read.val_main_v3 (F := Ideal) (Wa (dr main_arg1))) :=
  (StableHlo.after_of_forall_not_mem (b := dr main_v3) segDegR (V1 Wa) (List.forall_iff_forall_mem.mp (by
      simp only [segDegR, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f1_v3 Wa)

set_option maxRecDepth 8192 in
set_option maxHeartbeats 4000000 in
theorem f2_arg3 (Wa : Valuation τ sig (Elt Ideal)) : @Eq (FVec Ideal S50000x2 .f32) (V2 Wa (dr main_arg3)) (Wa (dr main_arg3)) :=
  (StableHlo.after_of_forall_not_mem (b := dr main_arg3) segDegR (V1 Wa) (List.forall_iff_forall_mem.mp (by
      simp only [segDegR, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f1_arg3 Wa)

set_option maxRecDepth 8192 in
set_option maxHeartbeats 4000000 in
theorem f2_v8 (Wa : Valuation τ sig (Elt Ideal)) : @Eq (FVec Ideal S50000x512 .f32) (V2 Wa (dr main_v8)) (Cert.ReferenceIdeal.Read.val_main_v8 (F := Ideal) (Wa (dr main_arg0)) (Wa (dr main_arg5))) :=
  (StableHlo.after_of_forall_not_mem (b := dr main_v8) segDegR (V1 Wa) (List.forall_iff_forall_mem.mp (by
      simp only [segDegR, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f1_v8 Wa)

set_option maxRecDepth 8192 in
set_option maxHeartbeats 4000000 in
theorem f2_v14 (Wa : Valuation τ sig (Elt Ideal)) : @Eq (FVec Ideal S50000x1 .f32) (V2 Wa (dr main_v14)) (Cert.ReferenceIdeal.Read.val_main_v24 (F := Ideal) (Wa (dr main_arg1))) :=
  (StableHlo.after_of_forall_not_mem (b := dr main_v14) segDegR (V1 Wa) (List.forall_iff_forall_mem.mp (by
      simp only [segDegR, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f1_v14 Wa)

set_option maxRecDepth 8192 in
set_option maxHeartbeats 4000000 in
theorem f3_v31 (Wa : Valuation τ sig (Elt Ideal)) : @Eq (FVec Ideal S50000x2 .f32) (V3 Wa (dr main_v31)) (Cert.ReferenceIdeal.Read.val_main_v26 (F := Ideal) (Wa (dr main_arg1)) (Wa (dr main_arg3))) :=
  r1_v31 (V2 Wa) (Wa (dr main_arg1)) (Wa (dr main_arg3)) (f2_v1 Wa) (f2_v3 Wa) (f2_arg3 Wa) (f2_v14 Wa)

set_option maxRecDepth 8192 in
set_option maxHeartbeats 4000000 in
theorem f3_v1 (Wa : Valuation τ sig (Elt Ideal)) : @Eq (IVec S100000 32) (V3 Wa (dr main_v1)) (Cert.ReferenceIdeal.Read.val_main_v1 (F := Ideal) (Wa (dr main_arg1))) :=
  (StableHlo.after_of_forall_not_mem (b := dr main_v1) segR1 (V2 Wa) (List.forall_iff_forall_mem.mp (by
      simp only [segR1, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f2_v1 Wa)

set_option maxRecDepth 8192 in
set_option maxHeartbeats 4000000 in
theorem f3_v3 (Wa : Valuation τ sig (Elt Ideal)) : @Eq (IVec S100000 32) (V3 Wa (dr main_v3)) (Cert.ReferenceIdeal.Read.val_main_v3 (F := Ideal) (Wa (dr main_arg1))) :=
  (StableHlo.after_of_forall_not_mem (b := dr main_v3) segR1 (V2 Wa) (List.forall_iff_forall_mem.mp (by
      simp only [segR1, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f2_v3 Wa)

set_option maxRecDepth 8192 in
set_option maxHeartbeats 4000000 in
theorem f3_arg3 (Wa : Valuation τ sig (Elt Ideal)) : @Eq (FVec Ideal S50000x2 .f32) (V3 Wa (dr main_arg3)) (Wa (dr main_arg3)) :=
  (StableHlo.after_of_forall_not_mem (b := dr main_arg3) segR1 (V2 Wa) (List.forall_iff_forall_mem.mp (by
      simp only [segR1, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f2_arg3 Wa)

set_option maxRecDepth 8192 in
set_option maxHeartbeats 4000000 in
theorem f3_v8 (Wa : Valuation τ sig (Elt Ideal)) : @Eq (FVec Ideal S50000x512 .f32) (V3 Wa (dr main_v8)) (Cert.ReferenceIdeal.Read.val_main_v8 (F := Ideal) (Wa (dr main_arg0)) (Wa (dr main_arg5))) :=
  (StableHlo.after_of_forall_not_mem (b := dr main_v8) segR1 (V2 Wa) (List.forall_iff_forall_mem.mp (by
      simp only [segR1, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f2_v8 Wa)

set_option maxRecDepth 8192 in
set_option maxHeartbeats 4000000 in
theorem f3_v14 (Wa : Valuation τ sig (Elt Ideal)) : @Eq (FVec Ideal S50000x1 .f32) (V3 Wa (dr main_v14)) (Cert.ReferenceIdeal.Read.val_main_v24 (F := Ideal) (Wa (dr main_arg1))) :=
  (StableHlo.after_of_forall_not_mem (b := dr main_v14) segR1 (V2 Wa) (List.forall_iff_forall_mem.mp (by
      simp only [segR1, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f2_v14 Wa)

set_option maxRecDepth 8192 in
set_option maxHeartbeats 4000000 in
theorem f3_v19 (Wa : Valuation τ sig (Elt Ideal)) : @Eq (FVec Ideal S50000x1 .f32) (V3 Wa (dr main_v19)) (Cert.ReferenceIdeal.Read.val_main_v60 (F := Ideal) (Wa (dr main_arg1))) :=
  (StableHlo.after_of_forall_not_mem (b := dr main_v19) segR1 (V2 Wa) (List.forall_iff_forall_mem.mp (by
      simp only [segR1, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f2_v19 Wa)

set_option maxRecDepth 8192 in
set_option maxHeartbeats 4000000 in
theorem f4_v43 (Wa : Valuation τ sig (Elt Ideal)) : @Eq (FVec Ideal S50000x2 .f32) (V4 Wa (dr main_v43)) (Cert.ReferenceIdeal.Read.val_main_v44 (F := Ideal) (Wa (dr main_arg1)) (Wa (dr main_arg3))) :=
  r2_v43 (V3 Wa) (Wa (dr main_arg1)) (Wa (dr main_arg3)) (f3_v1 Wa) (f3_v3 Wa) (f3_v31 Wa) ((f3_v14 Wa).trans (deg_fwd_again (Wa (dr main_arg1))).symm)

set_option maxRecDepth 8192 in
set_option maxHeartbeats 4000000 in
theorem f4_v1 (Wa : Valuation τ sig (Elt Ideal)) : @Eq (IVec S100000 32) (V4 Wa (dr main_v1)) (Cert.ReferenceIdeal.Read.val_main_v1 (F := Ideal) (Wa (dr main_arg1))) :=
  (StableHlo.after_of_forall_not_mem (b := dr main_v1) segR2 (V3 Wa) (List.forall_iff_forall_mem.mp (by
      simp only [segR2, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f3_v1 Wa)

set_option maxRecDepth 8192 in
set_option maxHeartbeats 4000000 in
theorem f4_v3 (Wa : Valuation τ sig (Elt Ideal)) : @Eq (IVec S100000 32) (V4 Wa (dr main_v3)) (Cert.ReferenceIdeal.Read.val_main_v3 (F := Ideal) (Wa (dr main_arg1))) :=
  (StableHlo.after_of_forall_not_mem (b := dr main_v3) segR2 (V3 Wa) (List.forall_iff_forall_mem.mp (by
      simp only [segR2, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f3_v3 Wa)

set_option maxRecDepth 8192 in
set_option maxHeartbeats 4000000 in
theorem f4_arg3 (Wa : Valuation τ sig (Elt Ideal)) : @Eq (FVec Ideal S50000x2 .f32) (V4 Wa (dr main_arg3)) (Wa (dr main_arg3)) :=
  (StableHlo.after_of_forall_not_mem (b := dr main_arg3) segR2 (V3 Wa) (List.forall_iff_forall_mem.mp (by
      simp only [segR2, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f3_arg3 Wa)

set_option maxRecDepth 8192 in
set_option maxHeartbeats 4000000 in
theorem f4_v8 (Wa : Valuation τ sig (Elt Ideal)) : @Eq (FVec Ideal S50000x512 .f32) (V4 Wa (dr main_v8)) (Cert.ReferenceIdeal.Read.val_main_v8 (F := Ideal) (Wa (dr main_arg0)) (Wa (dr main_arg5))) :=
  (StableHlo.after_of_forall_not_mem (b := dr main_v8) segR2 (V3 Wa) (List.forall_iff_forall_mem.mp (by
      simp only [segR2, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f3_v8 Wa)

set_option maxRecDepth 8192 in
set_option maxHeartbeats 4000000 in
theorem f4_v19 (Wa : Valuation τ sig (Elt Ideal)) : @Eq (FVec Ideal S50000x1 .f32) (V4 Wa (dr main_v19)) (Cert.ReferenceIdeal.Read.val_main_v60 (F := Ideal) (Wa (dr main_arg1))) :=
  (StableHlo.after_of_forall_not_mem (b := dr main_v19) segR2 (V3 Wa) (List.forall_iff_forall_mem.mp (by
      simp only [segR2, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f3_v19 Wa)

set_option maxRecDepth 8192 in
set_option maxHeartbeats 4000000 in
theorem f4_v31 (Wa : Valuation τ sig (Elt Ideal)) : @Eq (FVec Ideal S50000x2 .f32) (V4 Wa (dr main_v31)) (Cert.ReferenceIdeal.Read.val_main_v26 (F := Ideal) (Wa (dr main_arg1)) (Wa (dr main_arg3))) :=
  (StableHlo.after_of_forall_not_mem (b := dr main_v31) segR2 (V3 Wa) (List.forall_iff_forall_mem.mp (by
      simp only [segR2, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f3_v31 Wa)

set_option maxRecDepth 8192 in
set_option maxHeartbeats 4000000 in
theorem f5_v55 (Wa : Valuation τ sig (Elt Ideal)) : @Eq (FVec Ideal S50000x2 .f32) (V5 Wa (dr main_v55)) (Cert.ReferenceIdeal.Read.val_main_v62 (F := Ideal) (Wa (dr main_arg1)) (Wa (dr main_arg3))) :=
  r3_v55 (V4 Wa) (Wa (dr main_arg1)) (Wa (dr main_arg3)) (f4_v1 Wa) (f4_v3 Wa) (f4_arg3 Wa) (f4_v19 Wa)

set_option maxRecDepth 8192 in
set_option maxHeartbeats 4000000 in
theorem f5_v1 (Wa : Valuation τ sig (Elt Ideal)) : @Eq (IVec S100000 32) (V5 Wa (dr main_v1)) (Cert.ReferenceIdeal.Read.val_main_v1 (F := Ideal) (Wa (dr main_arg1))) :=
  (StableHlo.after_of_forall_not_mem (b := dr main_v1) segR3 (V4 Wa) (List.forall_iff_forall_mem.mp (by
      simp only [segR3, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f4_v1 Wa)

set_option maxRecDepth 8192 in
set_option maxHeartbeats 4000000 in
theorem f5_v3 (Wa : Valuation τ sig (Elt Ideal)) : @Eq (IVec S100000 32) (V5 Wa (dr main_v3)) (Cert.ReferenceIdeal.Read.val_main_v3 (F := Ideal) (Wa (dr main_arg1))) :=
  (StableHlo.after_of_forall_not_mem (b := dr main_v3) segR3 (V4 Wa) (List.forall_iff_forall_mem.mp (by
      simp only [segR3, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f4_v3 Wa)

set_option maxRecDepth 8192 in
set_option maxHeartbeats 4000000 in
theorem f5_arg3 (Wa : Valuation τ sig (Elt Ideal)) : @Eq (FVec Ideal S50000x2 .f32) (V5 Wa (dr main_arg3)) (Wa (dr main_arg3)) :=
  (StableHlo.after_of_forall_not_mem (b := dr main_arg3) segR3 (V4 Wa) (List.forall_iff_forall_mem.mp (by
      simp only [segR3, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f4_arg3 Wa)

set_option maxRecDepth 8192 in
set_option maxHeartbeats 4000000 in
theorem f5_v8 (Wa : Valuation τ sig (Elt Ideal)) : @Eq (FVec Ideal S50000x512 .f32) (V5 Wa (dr main_v8)) (Cert.ReferenceIdeal.Read.val_main_v8 (F := Ideal) (Wa (dr main_arg0)) (Wa (dr main_arg5))) :=
  (StableHlo.after_of_forall_not_mem (b := dr main_v8) segR3 (V4 Wa) (List.forall_iff_forall_mem.mp (by
      simp only [segR3, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f4_v8 Wa)

set_option maxRecDepth 8192 in
set_option maxHeartbeats 4000000 in
theorem f5_v19 (Wa : Valuation τ sig (Elt Ideal)) : @Eq (FVec Ideal S50000x1 .f32) (V5 Wa (dr main_v19)) (Cert.ReferenceIdeal.Read.val_main_v60 (F := Ideal) (Wa (dr main_arg1))) :=
  (StableHlo.after_of_forall_not_mem (b := dr main_v19) segR3 (V4 Wa) (List.forall_iff_forall_mem.mp (by
      simp only [segR3, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f4_v19 Wa)

set_option maxRecDepth 8192 in
set_option maxHeartbeats 4000000 in
theorem f5_v31 (Wa : Valuation τ sig (Elt Ideal)) : @Eq (FVec Ideal S50000x2 .f32) (V5 Wa (dr main_v31)) (Cert.ReferenceIdeal.Read.val_main_v26 (F := Ideal) (Wa (dr main_arg1)) (Wa (dr main_arg3))) :=
  (StableHlo.after_of_forall_not_mem (b := dr main_v31) segR3 (V4 Wa) (List.forall_iff_forall_mem.mp (by
      simp only [segR3, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f4_v31 Wa)

set_option maxRecDepth 8192 in
set_option maxHeartbeats 4000000 in
theorem f5_v43 (Wa : Valuation τ sig (Elt Ideal)) : @Eq (FVec Ideal S50000x2 .f32) (V5 Wa (dr main_v43)) (Cert.ReferenceIdeal.Read.val_main_v44 (F := Ideal) (Wa (dr main_arg1)) (Wa (dr main_arg3))) :=
  (StableHlo.after_of_forall_not_mem (b := dr main_v43) segR3 (V4 Wa) (List.forall_iff_forall_mem.mp (by
      simp only [segR3, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f4_v43 Wa)

set_option maxRecDepth 8192 in
set_option maxHeartbeats 4000000 in
theorem f6_v67 (Wa : Valuation τ sig (Elt Ideal)) : @Eq (FVec Ideal S50000x2 .f32) (V6 Wa (dr main_v67)) (Cert.ReferenceIdeal.Read.val_main_v80 (F := Ideal) (Wa (dr main_arg1)) (Wa (dr main_arg3))) :=
  r4_v67 (V5 Wa) (Wa (dr main_arg1)) (Wa (dr main_arg3)) (f5_v1 Wa) (f5_v3 Wa) (f5_v55 Wa) ((f5_v19 Wa).trans (deg_rev_again (Wa (dr main_arg1))).symm)

set_option maxRecDepth 8192 in
set_option maxHeartbeats 4000000 in
theorem f6_arg3 (Wa : Valuation τ sig (Elt Ideal)) : @Eq (FVec Ideal S50000x2 .f32) (V6 Wa (dr main_arg3)) (Wa (dr main_arg3)) :=
  (StableHlo.after_of_forall_not_mem (b := dr main_arg3) segR4 (V5 Wa) (List.forall_iff_forall_mem.mp (by
      simp only [segR4, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f5_arg3 Wa)

set_option maxRecDepth 8192 in
set_option maxHeartbeats 4000000 in
theorem f6_v8 (Wa : Valuation τ sig (Elt Ideal)) : @Eq (FVec Ideal S50000x512 .f32) (V6 Wa (dr main_v8)) (Cert.ReferenceIdeal.Read.val_main_v8 (F := Ideal) (Wa (dr main_arg0)) (Wa (dr main_arg5))) :=
  (StableHlo.after_of_forall_not_mem (b := dr main_v8) segR4 (V5 Wa) (List.forall_iff_forall_mem.mp (by
      simp only [segR4, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f5_v8 Wa)

set_option maxRecDepth 8192 in
set_option maxHeartbeats 4000000 in
theorem f6_v31 (Wa : Valuation τ sig (Elt Ideal)) : @Eq (FVec Ideal S50000x2 .f32) (V6 Wa (dr main_v31)) (Cert.ReferenceIdeal.Read.val_main_v26 (F := Ideal) (Wa (dr main_arg1)) (Wa (dr main_arg3))) :=
  (StableHlo.after_of_forall_not_mem (b := dr main_v31) segR4 (V5 Wa) (List.forall_iff_forall_mem.mp (by
      simp only [segR4, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f5_v31 Wa)

set_option maxRecDepth 8192 in
set_option maxHeartbeats 4000000 in
theorem f6_v43 (Wa : Valuation τ sig (Elt Ideal)) : @Eq (FVec Ideal S50000x2 .f32) (V6 Wa (dr main_v43)) (Cert.ReferenceIdeal.Read.val_main_v44 (F := Ideal) (Wa (dr main_arg1)) (Wa (dr main_arg3))) :=
  (StableHlo.after_of_forall_not_mem (b := dr main_v43) segR4 (V5 Wa) (List.forall_iff_forall_mem.mp (by
      simp only [segR4, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f5_v43 Wa)

set_option maxRecDepth 8192 in
set_option maxHeartbeats 4000000 in
theorem f6_v55 (Wa : Valuation τ sig (Elt Ideal)) : @Eq (FVec Ideal S50000x2 .f32) (V6 Wa (dr main_v55)) (Cert.ReferenceIdeal.Read.val_main_v62 (F := Ideal) (Wa (dr main_arg1)) (Wa (dr main_arg3))) :=
  (StableHlo.after_of_forall_not_mem (b := dr main_v55) segR4 (V5 Wa) (List.forall_iff_forall_mem.mp (by
      simp only [segR4, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))).trans (f5_v55 Wa)

/-! ## The table -/

set_option maxRecDepth 8192 in
set_option maxHeartbeats 4000000 in
/-- The node table the three opening stretches leave is the reference's stage of the same arguments. -/
theorem pre_v68 (Wa : Valuation τ sig (Elt Ideal)) :
    @Eq (FVec Ideal S50000x522 .f32) (pre Wa (dr main_v68))
      (Cert.ReferenceIdeal.Read.val_main_v81 (F := Ideal) (Wa (dr main_arg0)) (Wa (dr main_arg1)) (Wa (dr main_arg3)) (Wa (dr main_arg5))) := by
  rw [pre_cut]
  refine ((StableHlo.after_of_forall_not_mem (b := dr main_v68) segCuts (V7 Wa) (List.forall_iff_forall_mem.mp (by
      simp only [segCuts, hostOps0_2, List.drop_succ_cons, List.drop_zero, List.take_succ_cons, List.take_zero, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))))).trans ?_
  refine (join_v68 (V6 Wa)).trans ?_
  unfold Cert.ReferenceIdeal.Read.val_main_v81
  exact join6_congr (f6_v8 Wa) (f6_arg3 Wa) (f6_v31 Wa) (f6_v43 Wa) (f6_v55 Wa) (f6_v67 Wa) _ _

end Cert.KernelIdeal.HostVal

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.KiPay.lean ====
/-
  The two kernel bodies' arithmetic read at one index, over the extended reals.

  The first body multiplies a block of node rows by one band of the first layer's weights: at `(p, j)` it is entry
  `(p, j)` of the product (the two format changes are the identity on extended reals, the casts to the same shape
  change nothing, and the matrix unit accumulates onto zero).  The second body adds the two per-edge products, the two
  rows that arrive already multiplied and the bias, clamps at zero, weighs by the output layer's row, sums the lanes and
  adds the output bias: at `(p, 0)` it is the output layer on the split hidden layer.  Every step is a reading of one
  operation at an index; no law of arithmetic is used beyond `0 + x = x` inside the product onto zero.
-/
import proofs.«123470_j91130616087124_2_alg».proof.Proof.Gen.KernelIdeal.Skeleton
import proofs.«123470_j91130616087124_2_alg».proof.Proof.Spec
import proofs.«123470_j91130616087124_2_alg».proof.Proof.LibMatProd
import proofs.«123470_j91130616087124_2_alg».proof.Proof.LibDot2
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Score

/-! ## The operations that are not pointwise, each read at coordinates -/

/-- A matrix unit's product of rank-2 operands onto the zero accumulator, contracting the left operand's columns
    against the right operand's rows, reads at `(p, q)` the product's entry. -/
theorem matmul_zero_mm {n k m : ℕ} {φ₁ φ₂ : FTy}
    (d : DotDims (⟨2, ![n, k]⟩ : Shape) (⟨2, ![k, m]⟩ : Shape) (⟨2, ![n, m]⟩ : Shape)) (prec : Option ContractPrecision)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal (⟨2, ![n, k]⟩ : Shape) φ₁) (rhs : FVec Ideal (⟨2, ![k, m]⟩ : Shape) φ₂) (p : Fin n) (q : Fin m) :
    matmul d prec lhs rhs (constant (F := Ideal) (⟨2, ![n, m]⟩ : Shape) .f32 0x00000000#32) (ix2 p q)
      = Score.mm (rd2 lhs) (rd2 rhs) p q := by
  have hr : d.contr.rank = 1 := Dot2.rank_contr d h1
  have h0 : 0 < d.contr.rank := by rw [hr]; exact Nat.one_pos
  exact MatProd.matmul_zero_entry d prec hr (Dot2.size_contr d h1 h0) (Dot2.lhs0 d (h3 := h3) (h5 := h5))
    (Dot2.lhs1 d h1 h0) (Dot2.rhs0 d h2 h0) (Dot2.rhs1 d (h3 := h3) (h4 := h4) (h5 := h5) (h6 := h6)) lhs rhs p q

/-- A sum over the lanes of an `[a, b]` array, from zero, reads at row `p` the sum of that row. -/
theorem lane_sum {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] (⟨1, ![a]⟩ : Shape) src 0x00000000#32 h hφ hacc (ix1 p) = ∑ j : Fin b, src (ix2 p j) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The first body: one band's product -/

theorem pay2_apply (x0 : Vec Ideal S2000x522 .f32) (w : Vec Ideal S522x512 .bf16) (p : Fin 2000) (j : Fin 512) :
    k0_pay2 (F := Ideal) x0 w (ix2 p j) = Score.mm (rd2 x0) (rd2 w) p j := by
  unfold k0_pay2 k0_pay1
  rw [shapeCast_self, shapeCast_self]
  exact matmul_zero_mm (φ₁ := .bf16) (φ₂ := .bf16) dot_S2000x522_S522x512_S2000x512_1_0_0_1_n_n none rfl rfl rfl rfl rfl rfl _ w p j

theorem pay3_apply (x0 : Vec Ideal S2000x522 .f32) (w : Vec Ideal S522x512 .bf16) (p : Fin 2000) (j : Fin 512) :
    k0_pay3 (F := Ideal) x0 w (ix2 p j) = Score.mm (rd2 x0) (rd2 w) p j := by
  unfold k0_pay3 k0_pay1
  rw [shapeCast_self, shapeCast_self]
  exact matmul_zero_mm (φ₁ := .bf16) (φ₂ := .bf16) dot_S2000x522_S522x512_S2000x512_1_0_0_1_n_n none rfl rfl rfl rfl rfl rfl _ w p j

/-! ## The second body: the output layer on the split hidden layer -/

theorem pay1_apply (v0 v2 : Vec Ideal S2000x512 .f32) (v4 v7 : Vec Ideal S512x512 .bf16) (v11 v15 : Vec Ideal S2000x512 .bf16)
    (v19 : Vec Ideal S512 .f32) (v25 : Vec Ideal S1x512 .bf16) (v32 : Vec Ideal S1 .f32) (p : Fin 2000) :
    k1_pay1 (F := Ideal) v0 v2 v4 v7 v11 v15 v19 v25 v32 (ix2 p (0 : Fin 1))
      = Score.out (Score.hid (rd2 v0) (rd2 v2) (rd2 v11) (rd2 v15) (rd2 v4) (rd2 v7) (rd1 v19))
          (fun j => v25 (ix2 (0 : Fin 1) j)) (v32 (ix1 (0 : Fin 1))) p := by
  unfold k1_pay1
  rw [shapeCast_self, shapeCast_self, shapeCast_self, shapeCast_self, shapeCast_self]
  unfold Score.out
  refine congrArg₂ (· + ·) ?_ ?_
  · refine (shapeCast_a_a1_apply _ _ p (0 : Fin 1)).trans ?_
    refine (lane_sum _ _ _ _ p).trans ?_
    refine Finset.sum_congr rfl fun j _ => ?_
    refine congrArg₂ (· * ·) (congrArg₂ max ?_ Ideal.ofBits_zero_f32) ?_
    · unfold Score.hid
      refine congrArg₂ (· + ·) (congrArg₂ (· + ·) (congrArg₂ (· + ·) (congrArg₂ (· + ·) ?_ ?_) rfl) rfl) ?_
      · exact matmul_zero_mm (φ₁ := .bf16) (φ₂ := .bf16) dot_S2000x512_S512x512_S2000x512_1_0_0_1_n_n none rfl rfl rfl rfl rfl rfl _ v4 p j
      · exact matmul_zero_mm (φ₁ := .bf16) (φ₂ := .bf16) dot_S2000x512_S512x512_S2000x512_1_0_0_1_n_n none rfl rfl rfl rfl rfl rfl _ v7 p j
      · refine (broadcastTo_1b_ab_apply _ _ p j).trans ?_
        exact shapeCast_a_1a_apply v19 _ (0 : Fin 1) j
    · exact broadcastTo_1b_ab_apply _ _ p j
  · refine (broadcastTo_1b_ab_apply _ _ p (0 : Fin 1)).trans ?_
    exact shapeCast_a_1a_apply v32 _ (0 : Fin 1) (0 : Fin 1)

end Cert.KernelIdeal.Pay

end
-- ==== Proof.KiBlocks0.lean ====
/-
  Region 0's two output arrays after its 25 points, index by index: the products of the whole node table with the two
  bands of the first layer's weights.

  Point `t` reads rows `2000·t … 2000·t + 1999` of the node table and the whole band, and writes back the product of
  that block of rows: entry `(p, j)` of the block's product is entry `(2000·t + p, j)` of the whole table's product,
  because an entry of a product reads one row of its left factor.  The 25 blocks tile the 50000 rows (row `r` is in the
  block of point `r / 2000`), so the array ends holding the whole product.
-/
import proofs.«123470_j91130616087124_2_alg».proof.Proof.KiData
import proofs.«123470_j91130616087124_2_alg».proof.Proof.KiPay
import proofs.«123470_j91130616087124_2_alg».proof.Proof.Spec
import Idealize.ShloMosaic.Lib.Pipeline.Value

noncomputable section

open scoped BigOperators

namespace Cert.KernelIdeal.Blk

open Cert.KernelIdeal Cert.KernelIdeal.Gen Cert.KernelIdeal.Fr Cert.KernelIdeal.Pay Idealize.ShloMosaic Idealize.ShloMosaic.ValueIdx Score
open Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The product of the whole node table with a band, as an array. -/
def G0 (x : S50000x522.Idx → EReal) (w : S522x512.Idx → EReal) : S50000x512.Idx → EReal :=
  fun i => Score.mm (rd2 x) (rd2 w) ⟨(i 0).val, idx2_lt0 i⟩ ⟨(i 1).val, idx2_lt1 i⟩

/-- The printed index maps, decided over the 25 points: the row-tiled windows sit at block (t, 0), the whole ones at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Window 3: the product with the band that meets the source rows -/

/-- WHAT POINT `t` WRITES BACK to window 3 is block `t` of the whole table's product with the first band. -/
theorem flushed0_3_eq (c : Dev nD) (t : Fin cfg0.N) :
    (dat0 (F := Ideal) V c).flushed 3 t
      = ((cfg0.win 3).blk t).view.read (Elt Ideal) (G0 (V c main_v68) (V c main_v72)) := by
  show (cfg0.win 3).cut (grid0.coords t) ((dat0 V c).after 3 t) = _
  rw [after0_3]
  unfold out0_3
  rw [View.canon_unit_zero hz2]
  simp only [View.ld_unit_zero (S := S2000x522) hz2, View.ld_unit_zero (S := S522x512) hz2]
  obtain ⟨e00, e01, e10, e11, e20, e21, e30, e31, e40, e41⟩ := idx_facts0 t
  funext y
  obtain ⟨p, q, rfl⟩ : ∃ (p : Fin 2000) (q : Fin 512), y = ix2 p q := ⟨y 0, y 1, eq_ix2 y⟩
  show k0_pay2 (iblk0 V c 0 t) (iblk0 V c 1 t) (ix2 p q)
    = G0 (V c main_v68) (V c main_v72) (((cfg0.win 3).blk t).view.emb (ix2 p q))
  refine (pay2_apply _ _ p q).trans ?_
  unfold G0 Score.mm
  refine Finset.sum_congr rfl fun l _ => ?_
  refine congrArg₂ (· * ·) ?_ ?_
  · show V c main_v68 (((cfg0.win 0).blk t).view.emb (ix2 p l)) = V c main_v68 (ix2 _ l)
    refine congrArg (V c main_v68) (funext fun a => Fin.ext ?_)
    match a with
    | ⟨0, _⟩ =>
      show win0_0.index t (0 : Fin 2) * 2000 + 1 * p.val = win0_3.index t (0 : Fin 2) * 2000 + 1 * p.val
      omega
    | ⟨1, _⟩ =>
      show win0_0.index t (1 : Fin 2) * 522 + 1 * l.val = l.val
      omega
  · show V c main_v72 (((cfg0.win 1).blk t).view.emb (ix2 l q)) = V c main_v72 (ix2 l _)
    refine congrArg (V c main_v72) (funext fun a => Fin.ext ?_)
    match a with
    | ⟨0, _⟩ =>
      show win0_1.index t (0 : Fin 2) * 522 + 1 * l.val = l.val
      omega
    | ⟨1, _⟩ =>
      show win0_1.index t (1 : Fin 2) * 512 + 1 * q.val = win0_3.index t (1 : Fin 2) * 512 + 1 * q.val
      omega

/-- An index of the array is in point `t`'s block iff each coordinate is in the block's range on its axis. -/
theorem mem_blk0_3 (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v79_0).slice (win0_3.rect t)).set ↔ _
  rw [View.set_slice_whole, Rect.mem_set_unit]
  exact Iff.rfl

/-- Every index of the array is in the block of the point its row falls in. -/
theorem cover0_3 (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  obtain ⟨e00, e01, e10, e11, e20, e21, e30, e31, e40, e41⟩ := idx_facts0 t
  have ht : t.val = (i 0).val / 2000 := rfl
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 512 ≤ (i 1).val ∧ (i 1).val < win0_3.index t (1 : Fin 2) * 512 + 512; omega

/-- THE ARRAY of window 3 after the run, at row `n` and column `j`: entry `(n, j)` of the node table times the first band. -/
theorem arr0_3 (c : Dev nD) (n : Fin 50000) (j : Fin 512) :
    (dat0 (F := Ideal) V c).arrAt 3 cfg0.N (ix2 n j) = Score.mm (rd2 (V c main_v68)) (rd2 (V c main_v72)) n j := by
  rw [(dat0 (F := Ideal) V c).arrAt_eq_of_cover 3 (G0 (V c main_v68) (V c main_v72)) (fun t _ => flushed0_3_eq V c t) cover0_3]
  rfl

/-! ## Window 4: the product with the band that meets the target rows -/

/-- WHAT POINT `t` WRITES BACK to window 4 is block `t` of the whole table's product with the second band. -/
theorem flushed0_4_eq (c : Dev nD) (t : Fin cfg0.N) :
    (dat0 (F := Ideal) V c).flushed 4 t
      = ((cfg0.win 4).blk t).view.read (Elt Ideal) (G0 (V c main_v68) (V c main_v76)) := by
  show (cfg0.win 4).cut (grid0.coords t) ((dat0 V c).after 4 t) = _
  rw [after0_4]
  unfold out0_4
  rw [View.canon_unit_zero hz2]
  simp only [View.ld_unit_zero (S := S2000x522) hz2, View.ld_unit_zero (S := S522x512) hz2]
  obtain ⟨e00, e01, e10, e11, e20, e21, e30, e31, e40, e41⟩ := idx_facts0 t
  funext y
  obtain ⟨p, q, rfl⟩ : ∃ (p : Fin 2000) (q : Fin 512), y = ix2 p q := ⟨y 0, y 1, eq_ix2 y⟩
  show k0_pay3 (iblk0 V c 0 t) (iblk0 V c 2 t) (ix2 p q)
    = G0 (V c main_v68) (V c main_v76) (((cfg0.win 4).blk t).view.emb (ix2 p q))
  refine (pay3_apply _ _ p q).trans ?_
  unfold G0 Score.mm
  refine Finset.sum_congr rfl fun l _ => ?_
  refine congrArg₂ (· * ·) ?_ ?_
  · show V c main_v68 (((cfg0.win 0).blk t).view.emb (ix2 p l)) = V c main_v68 (ix2 _ l)
    refine congrArg (V c main_v68) (funext fun a => Fin.ext ?_)
    match a with
    | ⟨0, _⟩ =>
      show win0_0.index t (0 : Fin 2) * 2000 + 1 * p.val = win0_4.index t (0 : Fin 2) * 2000 + 1 * p.val
      omega
    | ⟨1, _⟩ =>
      show win0_0.index t (1 : Fin 2) * 522 + 1 * l.val = l.val
      omega
  · show V c main_v76 (((cfg0.win 2).blk t).view.emb (ix2 l q)) = V c main_v76 (ix2 l _)
    refine congrArg (V c main_v76) (funext fun a => Fin.ext ?_)
    match a with
    | ⟨0, _⟩ =>
      show win0_2.index t (0 : Fin 2) * 522 + 1 * l.val = l.val
      omega
    | ⟨1, _⟩ =>
      show win0_2.index t (1 : Fin 2) * 512 + 1 * q.val = win0_4.index t (1 : Fin 2) * 512 + 1 * q.val
      omega

/-- An index of the array is in point `t`'s block iff each coordinate is in the block's range on its axis. -/
theorem mem_blk0_4 (t : Fin cfg0.N) (i : S50000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v79_1).slice (win0_4.rect t)).set ↔ _
  rw [View.set_slice_whole, Rect.mem_set_unit]
  exact Iff.rfl

/-- Every index of the array is in the block of the point its row falls in. -/
theorem cover0_4 (i : S50000x512.Idx) :
    ∃ t : Fin cfg0.N, (cfg0.win 4).flush t = true ∧ i ∈ ((cfg0.win 4).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  obtain ⟨e00, e01, e10, e11, e20, e21, e30, e31, e40, e41⟩ := idx_facts0 t
  have ht : t.val = (i 0).val / 2000 := rfl
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 512 ≤ (i 1).val ∧ (i 1).val < win0_4.index t (1 : Fin 2) * 512 + 512; omega

/-- THE ARRAY of window 4 after the run, at row `n` and column `j`: entry `(n, j)` of the node table times the second band. -/
theorem arr0_4 (c : Dev nD) (n : Fin 50000) (j : Fin 512) :
    (dat0 (F := Ideal) V c).arrAt 4 cfg0.N (ix2 n j) = Score.mm (rd2 (V c main_v68)) (rd2 (V c main_v76)) n j := by
  rw [(dat0 (F := Ideal) V c).arrAt_eq_of_cover 4 (G0 (V c main_v68) (V c main_v76)) (fun t _ => flushed0_4_eq V c t) cover0_4]
  rfl

end Cert.KernelIdeal.Blk

end
-- ==== Proof.KiBlocks1.lean ====
/-
  Region 1's output array after its 50 points, index by index: the score of every edge.

  Point `t` reads rows `2000·t … 2000·t + 1999` of the four edge arrays and the whole of the two weight bands, the bias,
  the output row and the output bias, and writes back the 2000 scores of that block of edges.  The score of edge
  `2000·t + p` reads row `2000·t + p` of each edge array and nothing else of them, so score `p` of the block is score
  `2000·t + p` of the whole arrays.  The 50 blocks tile the 100000 rows (row `r` is in the block of point `r / 2000`),
  so the array ends holding every edge's score.
-/
import proofs.«123470_j91130616087124_2_alg».proof.Proof.KiData
import proofs.«123470_j91130616087124_2_alg».proof.Proof.KiPay
import proofs.«123470_j91130616087124_2_alg».proof.Proof.Spec
import Idealize.ShloMosaic.Lib.Pipeline.Value

noncomputable section

open scoped BigOperators

namespace Cert.KernelIdeal.Blk

open Cert.KernelIdeal Cert.KernelIdeal.Gen Cert.KernelIdeal.Fr Cert.KernelIdeal.Pay Idealize.ShloMosaic Idealize.ShloMosaic.ValueIdx Score
open Idealize.ShloMosaic.TcCoe Idealize.SL.Sem
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a <;> rfl

/-- The score of every edge, as an array: the output layer on the split hidden layer of the whole arrays. -/
def G1 (q ea ms md : S100000x512.Idx → EReal) (wq we : S512x512.Idx → EReal) (b1 : S512.Idx → EReal)
    (w2 : S1x512.Idx → EReal) (b2 : S1.Idx → EReal) : S100000x1.Idx → EReal :=
  fun i => Score.out (Score.hid (rd2 q) (rd2 ea) (rd2 ms) (rd2 md) (rd2 wq) (rd2 we) (rd1 b1))
    (fun j => w2 (ix2 (0 : Fin 1) j)) (b2 (ix1 (0 : Fin 1))) ⟨(i 0).val, idx2_lt0 i⟩

/-- The printed index maps, decided over the 50 points: the row-tiled windows sit at block (t, 0), the whole ones at zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- WHAT POINT `t` WRITES BACK to window 9 is block `t` of the whole arrays' scores. -/
theorem flushed1_9_eq (c : Dev nD) (t : Fin cfg1.N) :
    (dat1 (F := Ideal) V c).flushed 9 t
      = ((cfg1.win 9).blk t).view.read (Elt Ideal)
          (G1 (V c main_arg4) (V c main_arg2) (V c main_v86) (V c main_v93) (V c main_v70) (V c main_v74) (V c main_arg7) (V c main_v78) (V c main_arg9)) := by
  show (cfg1.win 9).cut (grid1.coords t) ((dat1 V c).after 9 t) = _
  rw [after1_9]
  unfold out1_9
  rw [View.canon_unit_zero hz2']
  simp only [View.ld_unit_zero (S := S2000x512) hz2', View.ld_unit_zero (S := S512x512) hz2', View.ld_unit_zero (S := S1x512) hz2',
    View.ld_unit_zero (S := S512) hz1', View.ld_unit_zero (S := S1) hz1']
  obtain ⟨e00, e01, e10, e11, e20, e21, e30, e31, e40, e41, e50, e51, e60, e70, e71, e80, e90, e91⟩ := idx_facts1 t
  funext y
  obtain ⟨p, u, rfl⟩ : ∃ (p : Fin 2000) (u : Fin 1), y = ix2 p u := ⟨y 0, y 1, eq_ix2 y⟩
  obtain rfl : u = 0 := Subsingleton.elim _ _
  show k1_pay1 (iblk1 V c 0 t) (iblk1 V c 1 t) (iblk1 V c 4 t) (iblk1 V c 5 t) (iblk1 V c 2 t) (iblk1 V c 3 t) (iblk1 V c 6 t) (iblk1 V c 7 t) (iblk1 V c 8 t) (ix2 p (0 : Fin 1))
    = G1 (V c main_arg4) (V c main_arg2) (V c main_v86) (V c main_v93) (V c main_v70) (V c main_v74) (V c main_arg7) (V c main_v78) (V c main_arg9)
        (((cfg1.win 9).blk t).view.emb (ix2 p (0 : Fin 1)))
  refine (pay1_apply _ _ _ _ _ _ _ _ _ p).trans ?_
  unfold G1 Score.out
  refine congrArg₂ (· + ·) (Finset.sum_congr rfl fun j _ => congrArg₂ (· * ·) (congrArg₂ max ?_ rfl) ?_) ?_
  · unfold Score.hid Score.mm
    refine congrArg₂ (· + ·) (congrArg₂ (· + ·) (congrArg₂ (· + ·) (congrArg₂ (· + ·)
      (Finset.sum_congr rfl fun l _ => congrArg₂ (· * ·) ?_ ?_) (Finset.sum_congr rfl fun l _ => congrArg₂ (· * ·) ?_ ?_)) ?_) ?_) ?_
    · show V c main_arg4 (((cfg1.win 0).blk t).view.emb (ix2 p l)) = V c main_arg4 (ix2 _ l)
      refine congrArg (V c main_arg4) (funext fun a => Fin.ext ?_)
      match a with
      | ⟨0, _⟩ =>
        show win1_0.index t (0 : Fin 2) * 2000 + 1 * p.val = win1_9.index t (0 : Fin 2) * 2000 + 1 * p.val
        omega
      | ⟨1, _⟩ =>
        show win1_0.index t (1 : Fin 2) * 512 + 1 * l.val = l.val
        omega
    · show V c main_v70 (((cfg1.win 4).blk t).view.emb (ix2 l j)) = V c main_v70 (ix2 l j)
      refine congrArg (V c main_v70) (funext fun a => Fin.ext ?_)
      match a with
      | ⟨0, _⟩ =>
        show win1_4.index t (0 : Fin 2) * 512 + 1 * l.val = l.val
        omega
      | ⟨1, _⟩ =>
        show win1_4.index t (1 : Fin 2) * 512 + 1 * j.val = j.val
        omega
    · show V c main_arg2 (((cfg1.win 1).blk t).view.emb (ix2 p l)) = V c main_arg2 (ix2 _ l)
      refine congrArg (V c main_arg2) (funext fun a => Fin.ext ?_)
      match a with
      | ⟨0, _⟩ =>
        show win1_1.index t (0 : Fin 2) * 2000 + 1 * p.val = win1_9.index t (0 : Fin 2) * 2000 + 1 * p.val
        omega
      | ⟨1, _⟩ =>
        show win1_1.index t (1 : Fin 2) * 512 + 1 * l.val = l.val
        omega
    · show V c main_v74 (((cfg1.win 5).blk t).view.emb (ix2 l j)) = V c main_v74 (ix2 l j)
      refine congrArg (V c main_v74) (funext fun a => Fin.ext ?_)
      match a with
      | ⟨0, _⟩ =>
        show win1_5.index t (0 : Fin 2) * 512 + 1 * l.val = l.val
        omega
      | ⟨1, _⟩ =>
        show win1_5.index t (1 : Fin 2) * 512 + 1 * j.val = j.val
        omega
    · show V c main_v86 (((cfg1.win 2).blk t).view.emb (ix2 p j)) = V c main_v86 (ix2 _ j)
      refine congrArg (V c main_v86) (funext fun a => Fin.ext ?_)
      match a with
      | ⟨0, _⟩ =>
        show win1_2.index t (0 : Fin 2) * 2000 + 1 * p.val = win1_9.index t (0 : Fin 2) * 2000 + 1 * p.val
        omega
      | ⟨1, _⟩ =>
        show win1_2.index t (1 : Fin 2) * 512 + 1 * j.val = j.val
        omega
    · show V c main_v93 (((cfg1.win 3).blk t).view.emb (ix2 p j)) = V c main_v93 (ix2 _ j)
      refine congrArg (V c main_v93) (funext fun a => Fin.ext ?_)
      match a with
      | ⟨0, _⟩ =>
        show win1_3.index t (0 : Fin 2) * 2000 + 1 * p.val = win1_9.index t (0 : Fin 2) * 2000 + 1 * p.val
        omega
      | ⟨1, _⟩ =>
        show win1_3.index t (1 : Fin 2) * 512 + 1 * j.val = j.val
        omega
    · show V c main_arg7 (((cfg1.win 6).blk t).view.emb (ix1 j)) = V c main_arg7 (ix1 j)
      refine congrArg (V c main_arg7) (funext fun a => Fin.ext ?_)
      match a with
      | ⟨0, _⟩ =>
        show win1_6.index t (0 : Fin 1) * 512 + 1 * j.val = j.val
        omega
  · show V c main_v78 (((cfg1.win 7).blk t).view.emb (ix2 (0 : Fin 1) j)) = V c main_v78 (ix2 (0 : Fin 1) j)
    refine congrArg (V c main_v78) (funext fun a => Fin.ext ?_)
    match a with
    | ⟨0, _⟩ =>
      show win1_7.index t (0 : Fin 2) * 1 + 1 * 0 = 0
      omega
    | ⟨1, _⟩ =>
      show win1_7.index t (1 : Fin 2) * 512 + 1 * j.val = j.val
      omega
  · show V c main_arg9 (((cfg1.win 8).blk t).view.emb (ix1 (0 : Fin 1))) = V c main_arg9 (ix1 (0 : Fin 1))
    refine congrArg (V c main_arg9) (funext fun a => Fin.ext ?_)
    match a with
    | ⟨0, _⟩ =>
      show win1_8.index t (0 : Fin 1) * 1 + 1 * 0 = 0
      omega

/-- An index of the array is in point `t`'s block iff each coordinate is in the block's range on its axis. -/
theorem mem_blk1_9 (t : Fin cfg1.N) (i : S100000x1.Idx) :
    i ∈ ((cfg1.win 9).blk t).view.set ↔ ∀ a : Fin 2, win1_9.index t a * S2000x1.size a ≤ (i a).val ∧ (i a).val < win1_9.index t a * S2000x1.size a + S2000x1.size a := by
  show i ∈ ((View.whole main_v94).slice (win1_9.rect t)).set ↔ _
  rw [View.set_slice_whole, Rect.mem_set_unit]
  exact Iff.rfl

/-- Every index of the array is in the block of the point its row falls in. -/
theorem cover1_9 (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  have hN : cfg1.N = 50 := N_1
  let t : Fin cfg1.N := ⟨(i 0).val / 2000, by rw [hN]; omega⟩
  obtain ⟨e00, e01, e10, e11, e20, e21, e30, e31, e40, e41, e50, e51, e60, e70, e71, e80, e90, e91⟩ := idx_facts1 t
  have ht : t.val = (i 0).val / 2000 := rfl
  refine ⟨t, flush1_9 t, ?_⟩
  rw [mem_blk1_9]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 1 ≤ (i 1).val ∧ (i 1).val < win1_9.index t (1 : Fin 2) * 1 + 1; omega

/-- THE ARRAY of window 9 after the run, at edge `e`: the output layer on the split hidden layer of the whole arrays. -/
theorem arr1_9 (c : Dev nD) (e : Fin 100000) :
    (dat1 (F := Ideal) V c).arrAt 9 cfg1.N (ix2 e (0 : Fin 1))
      = Score.out (Score.hid (rd2 (V c main_arg4)) (rd2 (V c main_arg2)) (rd2 (V c main_v86)) (rd2 (V c main_v93)) (rd2 (V c main_v70)) (rd2 (V c main_v74)) (rd1 (V c main_arg7)))
          (fun j => (V c main_v78) (ix2 (0 : Fin 1) j)) ((V c main_arg9) (ix1 (0 : Fin 1))) e := by
  rw [(dat1 (F := Ideal) V c).arrAt_eq_of_cover 9
    (G1 (V c main_arg4) (V c main_arg2) (V c main_v86) (V c main_v93) (V c main_v70) (V c main_v74) (V c main_arg7) (V c main_v78) (V c main_arg9))
    (fun t _ => flushed1_9_eq V c t) cover1_9]
  rfl

end Cert.KernelIdeal.Blk

end
-- ==== Proof.KiBlocks.lean ====
/-
  The three output arrays after their regions, index by index: the two products of the node table with its bands
  (region 0) and the score of every edge (region 1).  The statements are in the two modules imported here.
-/
import proofs.«123470_j91130616087124_2_alg».proof.Proof.KiBlocks0
import proofs.«123470_j91130616087124_2_alg».proof.Proof.KiBlocks1
-- ==== Proof.KiValue.lean ====
/-
  The kernel program's result, entry by entry, as the split-arrangement score of the launch memory.

  Entry `e` of the result is, through the closing reshape, row `e` of what region 1 leaves; that row is the output layer
  on the hidden layer of region 1's nine arrays at row `e`; two of those arrays are rows of region 0's two products
  gathered at the edge's end points, and a gathered row of a product is the product of the gathered row; the other
  arrays and both regions' operands are cuts of the arguments and the node table the opening stretches build.
-/
import proofs.«123470_j91130616087124_2_alg».proof.Proof.KiRun
import proofs.«123470_j91130616087124_2_alg».proof.Proof.KiHost
import proofs.«123470_j91130616087124_2_alg».proof.Proof.KiTable
import proofs.«123470_j91130616087124_2_alg».proof.Proof.KiBlocks
import proofs.«123470_j91130616087124_2_alg».proof.Proof.Spec

set_option maxRecDepth 16384

noncomputable section

namespace Cert.KernelIdeal.Val

open Cert.KernelIdeal Cert.KernelIdeal.Gen Cert.KernelIdeal.Fr Cert.KernelIdeal.HostVal Cert.KernelIdeal.Blk
open Idealize.ShloMosaic Idealize.ShloMosaic.TcCoe Idealize.ShloMosaic.ValueIdx Idealize.SL.Sem Score

variable (m : (ℓ : Loc nD τ sig) → Buf (Elt Ideal) ℓ) (ρ : Dev nD → PrngReg)

/-- THE CHAIN, with each array named by what it holds.  Given what the closing reshape reads (`t95`), what region 1's
    nine arrays hold when it is entered (`k4` … `k93`: four kept arguments, three cuts of the weights, and the two
    gathered arrays as rows of region 0's outputs) and what region 0's three arrays hold when it is entered (`k68`,
    `k72`, `k76`), entry `e` of the result is the output layer on the split hidden layer, the two gathered terms being
    rows of the node table's products with the two bands. -/
theorem result_of (c : Dev nD) (e : Fin 100000)
    (q ea : S100000x512.Idx → EReal) (HEf : S50000x522.Idx → EReal) (W1f : S2068x512.Idx → EReal)
    (b1 : S512.Idx → EReal) (w2c : S512x1.Idx → EReal) (b2 : S1.Idx → EReal)
    (srcI dstI : IVec ⟨2, ![100000, 1]⟩ 32)
    (t95 : (W7 (F := Ideal) m ρ c (Proc.devRef .tc main_v95) : S100000.Idx → EReal) (ix1 e)
      = (W6 (F := Ideal) m ρ c (Proc.devRef .tc main_v94) : S100000x1.Idx → EReal) (ix2 e (0 : Fin 1)))
    (k4 : (V5 (F := Ideal) m ρ c main_arg4 : S100000x512.Idx → EReal) = q)
    (k2 : (V5 (F := Ideal) m ρ c main_arg2 : S100000x512.Idx → EReal) = ea)
    (k7 : (V5 (F := Ideal) m ρ c main_arg7 : S512.Idx → EReal) = b1)
    (k9 : (V5 (F := Ideal) m ρ c main_arg9 : S1.Idx → EReal) = b2)
    (k70 : ∀ (k : Fin 512) (j : Fin 512), (V5 (F := Ideal) m ρ c main_v70 : S512x512.Idx → EReal) (ix2 k j)
      = Score.band (rd2 W1f) 0 512 (by omega) k j)
    (k74 : ∀ (k : Fin 512) (j : Fin 512), (V5 (F := Ideal) m ρ c main_v74 : S512x512.Idx → EReal) (ix2 k j)
      = Score.band (rd2 W1f) 1034 512 (by omega) k j)
    (k78 : ∀ j : Fin 512, (V5 (F := Ideal) m ρ c main_v78 : S1x512.Idx → EReal) (ix2 (0 : Fin 1) j) = w2c (ix2 j (0 : Fin 1)))
    (k86 : ∀ (e : Fin 100000) (j : Fin 512), (V5 (F := Ideal) m ρ c main_v86 : S100000x512.Idx → EReal) (ix2 e j)
      = (W4 (F := Ideal) m ρ c (Proc.devRef .tc main_v79_0) : S50000x512.Idx → EReal) (ix2 (Score.rowAt srcI e) j))
    (k93 : ∀ (e : Fin 100000) (j : Fin 512), (V5 (F := Ideal) m ρ c main_v93 : S100000x512.Idx → EReal) (ix2 e j)
      = (W4 (F := Ideal) m ρ c (Proc.devRef .tc main_v79_1) : S50000x512.Idx → EReal) (ix2 (Score.rowAt dstI e) j))
    (k68 : (V3 (F := Ideal) m ρ c main_v68 : S50000x522.Idx → EReal) = HEf)
    (k72 : ∀ (k : Fin 522) (j : Fin 512), (V3 (F := Ideal) m ρ c main_v72 : S522x512.Idx → EReal) (ix2 k j)
      = Score.band (rd2 W1f) 512 522 (by omega) k j)
    (k76 : ∀ (k : Fin 522) (j : Fin 512), (V3 (F := Ideal) m ρ c main_v76 : S522x512.Idx → EReal) (ix2 k j)
      = Score.band (rd2 W1f) 1546 522 (by omega) k j) :
    (W7 (F := Ideal) m ρ c (Proc.devRef .tc main_v95) : S100000.Idx → EReal) (ix1 e)
      = Score.out (Score.hid (rd2 q) (rd2 ea)
            (fun e j => Score.mm (rd2 HEf) (Score.band (rd2 W1f) 512 522 (by omega)) (Score.rowAt srcI e) j)
            (fun e j => Score.mm (rd2 HEf) (Score.band (rd2 W1f) 1546 522 (by omega)) (Score.rowAt dstI e) j)
            (Score.band (rd2 W1f) 0 512 (by omega)) (Score.band (rd2 W1f) 1034 512 (by omega)) (rd1 b1))
          (fun j => w2c (ix2 j (0 : Fin 1))) (b2 (ix1 (0 : Fin 1))) e := by
  have h9 : (W6 (F := Ideal) m ρ c (Proc.devRef .tc main_v94) : S100000x1.Idx → EReal) (ix2 e (0 : Fin 1))
      = Score.out (Score.hid (rd2 (V5 (F := Ideal) m ρ c main_arg4)) (rd2 (V5 (F := Ideal) m ρ c main_arg2))
            (rd2 (V5 (F := Ideal) m ρ c main_v86)) (rd2 (V5 (F := Ideal) m ρ c main_v93)) (rd2 (V5 (F := Ideal) m ρ c main_v70))
            (rd2 (V5 (F := Ideal) m ρ c main_v74)) (rd1 (V5 (F := Ideal) m ρ c main_arg7)))
          (fun j => (V5 (F := Ideal) m ρ c main_v78) (ix2 (0 : Fin 1) j)) ((V5 (F := Ideal) m ρ c main_arg9) (ix1 (0 : Fin 1))) e :=
    (congrFun (W6_arr (F := Ideal) m ρ c 9) (ix2 e (0 : Fin 1))).trans (arr1_9 (V5 (F := Ideal) m ρ) c e)
  refine t95.trans (h9.trans ?_)
  unfold Score.out Score.hid
  refine congrArg₂ (· + ·) (Finset.sum_congr rfl fun j _ => congrArg₂ (· * ·) (congrArg₂ max ?_ rfl) (k78 j)) (congrFun k9 _)
  refine congrArg₂ (· + ·) (congrArg₂ (· + ·) (congrArg₂ (· + ·) (congrArg₂ (· + ·) ?_ ?_) ?_) ?_) (congrFun k7 _)
  · unfold Score.mm
    exact Finset.sum_congr rfl fun l _ => congrArg₂ (· * ·) (congrFun k4 _) (k70 l j)
  · unfold Score.mm
    exact Finset.sum_congr rfl fun l _ => congrArg₂ (· * ·) (congrFun k2 _) (k74 l j)
  · have hA : (W4 (F := Ideal) m ρ c (Proc.devRef .tc main_v79_0) : S50000x512.Idx → EReal) (ix2 (Score.rowAt srcI e) j)
        = Score.mm (rd2 (V3 (F := Ideal) m ρ c main_v68)) (rd2 (V3 (F := Ideal) m ρ c main_v72)) (Score.rowAt srcI e) j :=
      (congrFun (W4_arr (F := Ideal) m ρ c 3) (ix2 (Score.rowAt srcI e) j)).trans
        (arr0_3 (V3 (F := Ideal) m ρ) c (Score.rowAt srcI e) j)
    have hC : Score.mm (rd2 (V3 (F := Ideal) m ρ c main_v68)) (rd2 (V3 (F := Ideal) m ρ c main_v72)) (Score.rowAt srcI e) j
        = Score.mm (rd2 HEf) (Score.band (rd2 W1f) 512 522 (by omega)) (Score.rowAt srcI e) j := by
      unfold Score.mm
      exact Finset.sum_congr rfl fun l _ => congrArg₂ (· * ·) (congrFun k68 _) (k72 l j)
    exact (k86 e j).trans (hA.trans hC)
  · have hB : (W4 (F := Ideal) m ρ c (Proc.devRef .tc main_v79_1) : S50000x512.Idx → EReal) (ix2 (Score.rowAt dstI e) j)
        = Score.mm (rd2 (V3 (F := Ideal) m ρ c main_v68)) (rd2 (V3 (F := Ideal) m ρ c main_v76)) (Score.rowAt dstI e) j :=
      (congrFun (W4_arr (F := Ideal) m ρ c 4) (ix2 (Score.rowAt dstI e) j)).trans
        (arr0_4 (V3 (F := Ideal) m ρ) c (Score.rowAt dstI e) j)
    have hD : Score.mm (rd2 (V3 (F := Ideal) m ρ c main_v68)) (rd2 (V3 (F := Ideal) m ρ c main_v76)) (Score.rowAt dstI e) j
        = Score.mm (rd2 HEf) (Score.band (rd2 W1f) 1546 522 (by omega)) (Score.rowAt dstI e) j := by
      unfold Score.mm
      exact Finset.sum_congr rfl fun l _ => congrArg₂ (· * ·) (congrFun k68 _) (k76 l j)
    exact (k93 e j).trans (hB.trans hD)

/-- The node table the opening stretches build, as the reference's own stage of the same arguments. -/
abbrev HE (c : Dev nD) := Cert.ReferenceIdeal.Read.val_main_v81 (F := Ideal) (m ((c : Thread nD τ).loc main_arg0))
  (m ((c : Thread nD τ).loc main_arg1)) (m ((c : Thread nD τ).loc main_arg3)) (m ((c : Thread nD τ).loc main_arg5))

/-- The result at entry `e`. -/
theorem result_apply (c : Dev nD) (e : Fin 100000) :
    (W7 (F := Ideal) m ρ c (Proc.devRef .tc main_v95) : S100000.Idx → EReal) (ix1 e)
      = Score.out (Score.hid (rd2 (m ((c : Thread nD τ).loc main_arg4))) (rd2 (m ((c : Thread nD τ).loc main_arg2)))
            (fun e j => Score.mm (rd2 (HE m c)) (Score.band (rd2 (m ((c : Thread nD τ).loc main_arg6))) 512 522 (by omega))
              (Score.rowAt (Cert.ReferenceIdeal.Read.val_main_v87 (F := Ideal) (m ((c : Thread nD τ).loc main_arg1))) e) j)
            (fun e j => Score.mm (rd2 (HE m c)) (Score.band (rd2 (m ((c : Thread nD τ).loc main_arg6))) 1546 522 (by omega))
              (Score.rowAt (Cert.ReferenceIdeal.Read.val_main_v94 (F := Ideal) (m ((c : Thread nD τ).loc main_arg1))) e) j)
            (Score.band (rd2 (m ((c : Thread nD τ).loc main_arg6))) 0 512 (by omega))
            (Score.band (rd2 (m ((c : Thread nD τ).loc main_arg6))) 1034 512 (by omega))
            (rd1 (m ((c : Thread nD τ).loc main_arg7))))
          (fun j => (m ((c : Thread nD τ).loc main_arg8)) (ix2 j (0 : Fin 1)))
          ((m ((c : Thread nD τ).loc main_arg9)) (ix1 (0 : Fin 1))) e := by
  have h1 : @Eq (IVec S100000 32) (W4 (F := Ideal) m ρ c (dr main_v1))
      (Cert.ReferenceIdeal.Read.val_main_v1 (F := Ideal) (m ((c : Thread nD τ).loc main_arg1))) :=
    (W4_of_ne (F := Ideal) m ρ c main_v1 (by decide)).trans (pre_v1 (W0 (F := Ideal) m ρ c))
  have h3 : @Eq (IVec S100000 32) (W4 (F := Ideal) m ρ c (dr main_v3))
      (Cert.ReferenceIdeal.Read.val_main_v3 (F := Ideal) (m ((c : Thread nD τ).loc main_arg1))) :=
    (W4_of_ne (F := Ideal) m ρ c main_v3 (by decide)).trans (pre_v3 (W0 (F := Ideal) m ρ c))
  refine result_of m ρ c e (m ((c : Thread nD τ).loc main_arg4)) (m ((c : Thread nD τ).loc main_arg2)) (HE m c)
    (m ((c : Thread nD τ).loc main_arg6)) (m ((c : Thread nD τ).loc main_arg7)) (m ((c : Thread nD τ).loc main_arg8))
    (m ((c : Thread nD τ).loc main_arg9))
    (Cert.ReferenceIdeal.Read.val_main_v87 (F := Ideal) (m ((c : Thread nD τ).loc main_arg1)))
    (Cert.ReferenceIdeal.Read.val_main_v94 (F := Ideal) (m ((c : Thread nD τ).loc main_arg1)))
    (tail_v95 (W6 (F := Ideal) m ρ c) e) ?_ ?_ ?_ ?_ ?_ ?_ ?_ ?_ ?_ ?_ ?_ ?_
  · exact (mid_keep_arg4 (W4 (F := Ideal) m ρ c)).trans ((W4_of_ne (F := Ideal) m ρ c main_arg4 (by decide)).trans (pre_keep_arg4 (W0 (F := Ideal) m ρ c)))
  · exact (mid_keep_arg2 (W4 (F := Ideal) m ρ c)).trans ((W4_of_ne (F := Ideal) m ρ c main_arg2 (by decide)).trans (pre_keep_arg2 (W0 (F := Ideal) m ρ c)))
  · exact (mid_keep_arg7 (W4 (F := Ideal) m ρ c)).trans ((W4_of_ne (F := Ideal) m ρ c main_arg7 (by decide)).trans (pre_keep_arg7 (W0 (F := Ideal) m ρ c)))
  · exact (mid_keep_arg9 (W4 (F := Ideal) m ρ c)).trans ((W4_of_ne (F := Ideal) m ρ c main_arg9 (by decide)).trans (pre_keep_arg9 (W0 (F := Ideal) m ρ c)))
  · intro k j
    exact (congrFun ((mid_keep_v70 (W4 (F := Ideal) m ρ c)).trans (W4_of_ne (F := Ideal) m ρ c main_v70 (by decide))) (ix2 k j)).trans
      (pre_v70 (W0 (F := Ideal) m ρ c) k j)
  · intro k j
    exact (congrFun ((mid_keep_v74 (W4 (F := Ideal) m ρ c)).trans (W4_of_ne (F := Ideal) m ρ c main_v74 (by decide))) (ix2 k j)).trans
      (pre_v74 (W0 (F := Ideal) m ρ c) k j)
  · intro j
    exact (congrFun ((mid_keep_v78 (W4 (F := Ideal) m ρ c)).trans (W4_of_ne (F := Ideal) m ρ c main_v78 (by decide))) (ix2 (0 : Fin 1) j)).trans
      (pre_v78 (W0 (F := Ideal) m ρ c) j)
  · intro e j
    exact mid_v86 (W4 (F := Ideal) m ρ c) (m ((c : Thread nD τ).loc main_arg1)) h1 e j
  · intro e j
    exact mid_v93 (W4 (F := Ideal) m ρ c) (m ((c : Thread nD τ).loc main_arg1)) h3 e j
  · exact pre_v68 (W0 (F := Ideal) m ρ c)
  · intro k j
    exact pre_v72 (W0 (F := Ideal) m ρ c) k j
  · intro k j
    exact pre_v76 (W0 (F := Ideal) m ρ c) k j

end Cert.KernelIdeal.Val

end
-- ==== Proof.RefCut.lean ====
/-
  The reference program's operations cut in two: the first 110 build the two index vectors and the node table, the
  last 31 gather the table's rows at the edges' end points, join the four pieces, and apply the two-layer scorer.
  The operations' fold through the whole list is the fold through the second part of the fold through the first.
-/
import proofs.«123470_j91130616087124_2_alg».proof.Proof.RefRun
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The fold through two lists laid end to end. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The operations up to and including the one that writes the node table. -/
abbrev opsA : List (HloOp τ sig (Elt F)) := (Cert.ReferenceIdeal.Value.ops (F := F)).take 110
/-- The operations after it. -/
abbrev opsB : List (HloOp τ sig (Elt F)) := (Cert.ReferenceIdeal.Value.ops (F := F)).drop 110

theorem after_ops (V : Valuation τ sig (Elt F)) :
    after (Cert.ReferenceIdeal.Value.ops (F := F)) V = after opsB (after opsA V) := by
  rw [← after_append, List.take_append_drop]

end Cert.ReferenceIdeal.RunH

end
-- ==== Proof.RefRunH.lean ====
/-
  The reference program's run, with every buffer at the fold of its 141 operations from the launch contents: every
  weakly fair execution terminates, nothing faults. No operation writes an argument, so each argument's buffer
  ends as launched.
-/
import proofs.«123470_j91130616087124_2_alg».proof.Proof.RefCut

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Every weakly fair execution of the program terminates with each buffer at the operations' fold. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (Cert.ReferenceIdeal.Value.ops (F := F)) (launchContents m d) (Proc.devRef .tc b) :=
  run_seq Cert.ReferenceIdeal.Value.scopedRefs_eq Cert.ReferenceIdeal.Value.scopedSems_eq defs main
    (fun _ => Cert.ReferenceIdeal.Value.ops) Cert.ReferenceIdeal.Value.main_eq (fun _ => Cert.ReferenceIdeal.Value.ops_sub) m ρ

/-! ## No operation writes an argument -/

set_option maxHeartbeats 4000000 in
theorem keep_arg0 (W : Valuation τ sig (Elt F)) :
    after (Cert.ReferenceIdeal.Value.ops (F := F)) W (Proc.devRef .tc main_arg0) = W (Proc.devRef .tc main_arg0) :=
  after_of_forall_not_mem (b := Proc.devRef .tc main_arg0) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg1 (W : Valuation τ sig (Elt F)) :
    after (Cert.ReferenceIdeal.Value.ops (F := F)) W (Proc.devRef .tc main_arg1) = W (Proc.devRef .tc main_arg1) :=
  after_of_forall_not_mem (b := Proc.devRef .tc main_arg1) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg2 (W : Valuation τ sig (Elt F)) :
    after (Cert.ReferenceIdeal.Value.ops (F := F)) W (Proc.devRef .tc main_arg2) = W (Proc.devRef .tc main_arg2) :=
  after_of_forall_not_mem (b := Proc.devRef .tc main_arg2) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg3 (W : Valuation τ sig (Elt F)) :
    after (Cert.ReferenceIdeal.Value.ops (F := F)) W (Proc.devRef .tc main_arg3) = W (Proc.devRef .tc main_arg3) :=
  after_of_forall_not_mem (b := Proc.devRef .tc main_arg3) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg4 (W : Valuation τ sig (Elt F)) :
    after (Cert.ReferenceIdeal.Value.ops (F := F)) W (Proc.devRef .tc main_arg4) = W (Proc.devRef .tc main_arg4) :=
  after_of_forall_not_mem (b := Proc.devRef .tc main_arg4) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg5 (W : Valuation τ sig (Elt F)) :
    after (Cert.ReferenceIdeal.Value.ops (F := F)) W (Proc.devRef .tc main_arg5) = W (Proc.devRef .tc main_arg5) :=
  after_of_forall_not_mem (b := Proc.devRef .tc main_arg5) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg6 (W : Valuation τ sig (Elt F)) :
    after (Cert.ReferenceIdeal.Value.ops (F := F)) W (Proc.devRef .tc main_arg6) = W (Proc.devRef .tc main_arg6) :=
  after_of_forall_not_mem (b := Proc.devRef .tc main_arg6) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg7 (W : Valuation τ sig (Elt F)) :
    after (Cert.ReferenceIdeal.Value.ops (F := F)) W (Proc.devRef .tc main_arg7) = W (Proc.devRef .tc main_arg7) :=
  after_of_forall_not_mem (b := Proc.devRef .tc main_arg7) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg8 (W : Valuation τ sig (Elt F)) :
    after (Cert.ReferenceIdeal.Value.ops (F := F)) W (Proc.devRef .tc main_arg8) = W (Proc.devRef .tc main_arg8) :=
  after_of_forall_not_mem (b := Proc.devRef .tc main_arg8) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

set_option maxHeartbeats 4000000 in
theorem keep_arg9 (W : Valuation τ sig (Elt F)) :
    after (Cert.ReferenceIdeal.Value.ops (F := F)) W (Proc.devRef .tc main_arg9) = W (Proc.devRef .tc main_arg9) :=
  after_of_forall_not_mem (b := Proc.devRef .tc main_arg9) _ _ (List.forall_iff_forall_mem.mp (by
    simp only [Cert.ReferenceIdeal.Value.ops, StableHlo.TRef.unary, StableHlo.TRef.binary, StableHlo.TRef.ternary, StableHlo.TRef.nullary, List.Forall,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

/-- The frame: the program runs, faults nowhere, and every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_arg0).trans (keep_arg0 _),
    (h c main_arg1).trans (keep_arg1 _),
    (h c main_arg2).trans (keep_arg2 _),
    (h c main_arg3).trans (keep_arg3 _),
    (h c main_arg4).trans (keep_arg4 _),
    (h c main_arg5).trans (keep_arg5 _),
    (h c main_arg6).trans (keep_arg6 _),
    (h c main_arg7).trans (keep_arg7 _),
    (h c main_arg8).trans (keep_arg8 _),
    (h c main_arg9).trans (keep_arg9 _)⟩)
    (run_fold m ρ)

end Cert.ReferenceIdeal.RunH

end
-- ==== Proof.RefPrefix.lean ====
/-
  The reference's first 110 operations, evaluated from any contents: they leave the two index vectors and the node
  table, as functions of the argument arrays, and do not touch the arguments.

  The operations are cut where the data flow is thin.  The first 10 cut the two index vectors out of the edge list and
  mark the all-zero rows of the feature table; the next 3 replace those rows by the fill row.  Then come four rounds of
  24 operations, each a neighbour averaging of a two-column table (gather a row at one end of every edge, add the rows
  up at the other end, divide by the number of edges arriving there, at least one): two forward, the second on the
  first's result, and two the other way.  A round reads only the index vectors and its one input table, and writes
  buffers of its own.  The last operation lays the filled feature table, the position table and the four rounds'
  results side by side.  Each piece is a fold of at most 24 operations over atoms, composed by what each piece reads and
  what it leaves alone.
-/
import proofs.«123470_j91130616087124_2_alg».proof.Proof.RefCut
import proofs.«123470_j91130616087124_2_alg».proof.Proof.RefStages

noncomputable section

namespace Cert.ReferenceIdeal.RunH

open Cert.ReferenceIdeal Cert.ReferenceIdeal.Gen Idealize.ShloMosaic Idealize.ShloMosaic.TcCoe Idealize.SL.Sem Idealize.ShloMosaic.StableHlo

/-- A fold cut after its first `n` operations. -/
theorem after_split (n : Nat) (l : List (HloOp τ sig (Elt Ideal))) (V : Valuation τ sig (Elt Ideal)) :
    after l V = after (l.drop n) (after (l.take n) V) := by
  rw [← after_append, List.take_append_drop]

/-- The first 10 operations: the two index vectors cut out of the edge list, and the mask of the feature table's all-zero rows. -/
abbrev opsHead : List (HloOp τ sig (Elt Ideal)) := (opsA (F := Ideal)).take 10
/-- Operations 10–12: the feature table with its all-zero rows replaced by the fill row. -/
abbrev opsWhere : List (HloOp τ sig (Elt Ideal)) := ((opsA (F := Ideal)).drop 10).take 3
/-- Operations 13–36, a round of neighbour averaging of the position table: gather a row at the source of every edge, add the rows up at the targets, divide by the number of edges arriving (at least one). -/
abbrev opsRoundA : List (HloOp τ sig (Elt Ideal)) := (((opsA (F := Ideal)).drop 10).drop 3).take 24
/-- Operations 37–60: the same round applied to the first round's result. -/
abbrev opsRoundB : List (HloOp τ sig (Elt Ideal)) := ((((opsA (F := Ideal)).drop 10).drop 3).drop 24).take 24
/-- Operations 61–84: a round the other way (gather at the targets, add up at the sources) on the position table. -/
abbrev opsRoundC : List (HloOp τ sig (Elt Ideal)) := (((((opsA (F := Ideal)).drop 10).drop 3).drop 24).drop 24).take 24
/-- Operations 85–108: the reverse round applied to the first reverse round's result. -/
abbrev opsRoundD : List (HloOp τ sig (Elt Ideal)) := ((((((opsA (F := Ideal)).drop 10).drop 3).drop 24).drop 24).drop 24).take 24
/-- Operation 109: the six-piece concatenation that writes the node table. -/
abbrev opsTable : List (HloOp τ sig (Elt Ideal)) := ((((((opsA (F := Ideal)).drop 10).drop 3).drop 24).drop 24).drop 24).drop 24

/-- The fold through the first part is the fold through its seven pieces, in order. -/
theorem after_opsA (W : Valuation τ sig (Elt Ideal)) :
    after (opsA (F := Ideal)) W
      = after opsTable (after opsRoundD (after opsRoundC (after opsRoundB (after opsRoundA (after opsWhere
          (after opsHead W)))))) :=
  (after_split 10 _ W).trans ((after_split 3 _ _).trans ((after_split 24 _ _).trans ((after_split 24 _ _).trans
    ((after_split 24 _ _).trans (after_split 24 _ _)))))

local macro "fold_opsHead" : tactic =>
  `(tactic| (simp only [opsHead, opsA, Cert.ReferenceIdeal.Value.ops, List.take_succ_cons, List.take_zero, List.drop_succ_cons,
      List.drop_zero]
             after_results_simp))
local macro "cons_opsHead" : tactic =>
  `(tactic| (simp only [opsHead, opsA, Cert.ReferenceIdeal.Value.ops, List.take_succ_cons, List.take_zero, List.drop_succ_cons,
      List.drop_zero]))
local macro "fold_opsWhere" : tactic =>
  `(tactic| (simp only [opsWhere, opsA, Cert.ReferenceIdeal.Value.ops, List.take_succ_cons, List.take_zero, List.drop_succ_cons,
      List.drop_zero]
             after_results_simp))
local macro "cons_opsWhere" : tactic =>
  `(tactic| (simp only [opsWhere, opsA, Cert.ReferenceIdeal.Value.ops, List.take_succ_cons, List.take_zero, List.drop_succ_cons,
      List.drop_zero]))
local macro "fold_opsRoundA" : tactic =>
  `(tactic| (simp only [opsRoundA, opsA, Cert.ReferenceIdeal.Value.ops, List.take_succ_cons, List.take_zero, List.drop_succ_cons,
      List.drop_zero]
             after_results_simp))
local macro "cons_opsRoundA" : tactic =>
  `(tactic| (simp only [opsRoundA, opsA, Cert.ReferenceIdeal.Value.ops, List.take_succ_cons, List.take_zero, List.drop_succ_cons,
      List.drop_zero]))
local macro "fold_opsRoundB" : tactic =>
  `(tactic| (simp only [opsRoundB, opsA, Cert.ReferenceIdeal.Value.ops, List.take_succ_cons, List.take_zero, List.drop_succ_cons,
      List.drop_zero]
             after_results_simp))
local macro "cons_opsRoundB" : tactic =>
  `(tactic| (simp only [opsRoundB, opsA, Cert.ReferenceIdeal.Value.ops, List.take_succ_cons, List.take_zero, List.drop_succ_cons,
      List.drop_zero]))
local macro "fold_opsRoundC" : tactic =>
  `(tactic| (simp only [opsRoundC, opsA, Cert.ReferenceIdeal.Value.ops, List.take_succ_cons, List.take_zero, List.drop_succ_cons,
      List.drop_zero]
             after_results_simp))
local macro "cons_opsRoundC" : tactic =>
  `(tactic| (simp only [opsRoundC, opsA, Cert.ReferenceIdeal.Value.ops, List.take_succ_cons, List.take_zero, List.drop_succ_cons,
      List.drop_zero]))
local macro "fold_opsRoundD" : tactic =>
  `(tactic| (simp only [opsRoundD, opsA, Cert.ReferenceIdeal.Value.ops, List.take_succ_cons, List.take_zero, List.drop_succ_cons,
      List.drop_zero]
             after_results_simp))
local macro "cons_opsRoundD" : tactic =>
  `(tactic| (simp only [opsRoundD, opsA, Cert.ReferenceIdeal.Value.ops, List.take_succ_cons, List.take_zero, List.drop_succ_cons,
      List.drop_zero]))
local macro "fold_opsTable" : tactic =>
  `(tactic| (simp only [opsTable, opsA, Cert.ReferenceIdeal.Value.ops, List.take_succ_cons, List.take_zero, List.drop_succ_cons,
      List.drop_zero]
             after_results_simp))
local macro "cons_opsTable" : tactic =>
  `(tactic| (simp only [opsTable, opsA, Cert.ReferenceIdeal.Value.ops, List.take_succ_cons, List.take_zero, List.drop_succ_cons,
      List.drop_zero]))

/-! ## What each piece leaves alone -/

/-- `opsHead` writes none of these buffers. -/
theorem opsHead_keep (V : Valuation τ sig (Elt Ideal)) (r : Ref sig .tc)
    (hr : r ∈ ([main_arg0, main_arg5, main_arg3, main_arg2, main_arg4, main_arg6, main_arg7, main_arg8, main_arg9] : List (Ref sig .tc))) :
    after opsHead V (Proc.devRef .tc r) = V (Proc.devRef .tc r) := by
  cons_opsHead
  simp only [List.mem_cons, List.not_mem_nil, or_false] at hr
  rcases hr with rfl | rfl | rfl | rfl | rfl | rfl | rfl | rfl | rfl
  all_goals after_results_simp

/-- `opsWhere` writes none of these buffers. -/
theorem opsWhere_keep (V : Valuation τ sig (Elt Ideal)) (r : Ref sig .tc)
    (hr : r ∈ ([main_v1, main_v3, main_arg3, main_arg2, main_arg4, main_arg6, main_arg7, main_arg8, main_arg9] : List (Ref sig .tc))) :
    after opsWhere V (Proc.devRef .tc r) = V (Proc.devRef .tc r) := by
  cons_opsWhere
  simp only [List.mem_cons, List.not_mem_nil, or_false] at hr
  rcases hr with rfl | rfl | rfl | rfl | rfl | rfl | rfl | rfl | rfl
  all_goals after_results_simp

/-- `opsRoundA` writes none of these buffers. -/
theorem opsRoundA_keep (V : Valuation τ sig (Elt Ideal)) (r : Ref sig .tc)
    (hr : r ∈ ([main_v1, main_v3, main_v8, main_arg3, main_arg2, main_arg4, main_arg6, main_arg7, main_arg8, main_arg9] : List (Ref sig .tc))) :
    after opsRoundA V (Proc.devRef .tc r) = V (Proc.devRef .tc r) := by
  cons_opsRoundA
  simp only [List.mem_cons, List.not_mem_nil, or_false] at hr
  rcases hr with rfl | rfl | rfl | rfl | rfl | rfl | rfl | rfl | rfl | rfl
  all_goals after_results_simp

/-- `opsRoundB` writes none of these buffers. -/
theorem opsRoundB_keep (V : Valuation τ sig (Elt Ideal)) (r : Ref sig .tc)
    (hr : r ∈ ([main_v1, main_v3, main_v8, main_v26, main_arg3, main_arg2, main_arg4, main_arg6, main_arg7, main_arg8, main_arg9] : List (Ref sig .tc))) :
    after opsRoundB V (Proc.devRef .tc r) = V (Proc.devRef .tc r) := by
  cons_opsRoundB
  simp only [List.mem_cons, List.not_mem_nil, or_false] at hr
  rcases hr with rfl | rfl | rfl | rfl | rfl | rfl | rfl | rfl | rfl | rfl | rfl
  all_goals after_results_simp

/-- `opsRoundC` writes none of these buffers. -/
theorem opsRoundC_keep (V : Valuation τ sig (Elt Ideal)) (r : Ref sig .tc)
    (hr : r ∈ ([main_v1, main_v3, main_v8, main_v26, main_v44, main_arg3, main_arg2, main_arg4, main_arg6, main_arg7, main_arg8, main_arg9] : List (Ref sig .tc))) :
    after opsRoundC V (Proc.devRef .tc r) = V (Proc.devRef .tc r) := by
  cons_opsRoundC
  simp only [List.mem_cons, List.not_mem_nil, or_false] at hr
  rcases hr with rfl | rfl | rfl | rfl | rfl | rfl | rfl | rfl | rfl | rfl | rfl | rfl
  all_goals after_results_simp

/-- `opsRoundD` writes none of these buffers. -/
theorem opsRoundD_keep (V : Valuation τ sig (Elt Ideal)) (r : Ref sig .tc)
    (hr : r ∈ ([main_v1, main_v3, main_v8, main_v26, main_v44, main_v62, main_arg3, main_arg2, main_arg4, main_arg6, main_arg7, main_arg8, main_arg9] : List (Ref sig .tc))) :
    after opsRoundD V (Proc.devRef .tc r) = V (Proc.devRef .tc r) := by
  cons_opsRoundD
  simp only [List.mem_cons, List.not_mem_nil, or_false] at hr
  rcases hr with rfl | rfl | rfl | rfl | rfl | rfl | rfl | rfl | rfl | rfl | rfl | rfl | rfl
  all_goals after_results_simp

/-- `opsTable` writes none of these buffers. -/
theorem opsTable_keep (V : Valuation τ sig (Elt Ideal)) (r : Ref sig .tc)
    (hr : r ∈ ([main_v1, main_v3, main_arg2, main_arg4, main_arg6, main_arg7, main_arg8, main_arg9] : List (Ref sig .tc))) :
    after opsTable V (Proc.devRef .tc r) = V (Proc.devRef .tc r) := by
  cons_opsTable
  simp only [List.mem_cons, List.not_mem_nil, or_false] at hr
  rcases hr with rfl | rfl | rfl | rfl | rfl | rfl | rfl | rfl
  all_goals after_results_simp

/-! ## What each piece computes -/

/-- The source index vector: row 0 of the edge list. -/
theorem opsHead_v1 (V : Valuation τ sig (Elt Ideal)) :
    after opsHead V (Proc.devRef .tc main_v1) = Read.val_main_v1 (F := Ideal) (V (Proc.devRef .tc main_arg1)) := by
  unfold Read.val_main_v1 Read.val_main_v0
  fold_opsHead <;> rfl

/-- The target index vector: row 1 of the edge list. -/
theorem opsHead_v3 (V : Valuation τ sig (Elt Ideal)) :
    after opsHead V (Proc.devRef .tc main_v3) = Read.val_main_v3 (F := Ideal) (V (Proc.devRef .tc main_arg1)) := by
  unfold Read.val_main_v3 Read.val_main_v2
  fold_opsHead <;> rfl

/-- The mask of the feature table's all-zero rows, as a column. -/
theorem opsHead_v7 (V : Valuation τ sig (Elt Ideal)) :
    after opsHead V (Proc.devRef .tc main_v7) = Read.val_main_v7 (F := Ideal) (V (Proc.devRef .tc main_arg0)) := by
  unfold Read.val_main_v7 Read.val_main_v6 Read.val_main_c Read.val_main_v5 Read.val_main_v4 Read.val_main_cst
  fold_opsHead <;> rfl

/-- The three operations of the row replacement, from any contents: where the mask column (spread along the rows)
    is set the fill row (spread down the rows), elsewhere the feature table. -/
theorem opsWhere_v8 (V : Valuation τ sig (Elt Ideal)) :
    after opsWhere V (Proc.devRef .tc main_v8)
      = select (broadcastInDim S50000x512 ![0, 1] bcast_S50000x1_S50000x512_0_1 (V (Proc.devRef .tc main_v7)))
          (broadcastInDim S50000x512 ![0, 1] bcast_S1x512_S50000x512_0_1 (V (Proc.devRef .tc main_arg5)))
          (V (Proc.devRef .tc main_arg0)) := by
  fold_opsWhere <;> rfl

/-- The first forward round, on the position table. -/
theorem opsRoundA_v26 (V : Valuation τ sig (Elt Ideal)) (x1 : (⟨S2x100000, .i32⟩ : BufTy).Contents (Elt Ideal)) (x3 : (⟨S50000x2, .f32⟩ : BufTy).Contents (Elt Ideal))
    (h1 : V (Proc.devRef .tc main_v1) = Read.val_main_v1 (F := Ideal) x1) (h3 : V (Proc.devRef .tc main_v3) = Read.val_main_v3 (F := Ideal) x1)
    (hp : V (Proc.devRef .tc main_arg3) = x3) :
    after opsRoundA V (Proc.devRef .tc main_v26) = Read.val_main_v26 (F := Ideal) x1 x3 := by
  unfold Read.val_main_v26 Read.val_main_v25 Read.val_main_v24 Read.val_main_v23 Read.val_main_cst_5
    Read.val_main_v22 Read.val_main_v21 Read.val_main_v20 Read.val_main_cst_4 Read.val_main_v19 Read.val_main_cst_3
    Read.val_main_v18 Read.val_main_v17 Read.val_main_v16 Read.val_main_cst_2 Read.val_main_v15 Read.val_main_v14
    Read.val_main_v13 Read.val_main_v12 Read.val_main_v11 Read.val_main_c_1 Read.val_main_v10 Read.val_main_v9
    Read.val_main_c_0
  rw [← h1, ← h3]
  subst hp
  fold_opsRoundA <;> rfl

/-- The second forward round, on the first one's result. -/
theorem opsRoundB_v44 (V : Valuation τ sig (Elt Ideal)) (x1 : (⟨S2x100000, .i32⟩ : BufTy).Contents (Elt Ideal)) (x3 : (⟨S50000x2, .f32⟩ : BufTy).Contents (Elt Ideal))
    (h1 : V (Proc.devRef .tc main_v1) = Read.val_main_v1 (F := Ideal) x1) (h3 : V (Proc.devRef .tc main_v3) = Read.val_main_v3 (F := Ideal) x1)
    (hp : V (Proc.devRef .tc main_v26) = Read.val_main_v26 (F := Ideal) x1 x3) :
    after opsRoundB V (Proc.devRef .tc main_v44) = Read.val_main_v44 (F := Ideal) x1 x3 := by
  unfold Read.val_main_v44 Read.val_main_v43 Read.val_main_v42 Read.val_main_v41 Read.val_main_cst_11
    Read.val_main_v40 Read.val_main_v39 Read.val_main_v38 Read.val_main_cst_10 Read.val_main_v37 Read.val_main_cst_9
    Read.val_main_v36 Read.val_main_v35 Read.val_main_v34 Read.val_main_cst_8 Read.val_main_v33 Read.val_main_v32
    Read.val_main_v31 Read.val_main_v30 Read.val_main_v29 Read.val_main_c_7 Read.val_main_v28 Read.val_main_v27
    Read.val_main_c_6
  rw [← h1, ← h3, ← hp]
  fold_opsRoundB <;> rfl

/-- The first reverse round, on the position table. -/
theorem opsRoundC_v62 (V : Valuation τ sig (Elt Ideal)) (x1 : (⟨S2x100000, .i32⟩ : BufTy).Contents (Elt Ideal)) (x3 : (⟨S50000x2, .f32⟩ : BufTy).Contents (Elt Ideal))
    (h1 : V (Proc.devRef .tc main_v1) = Read.val_main_v1 (F := Ideal) x1) (h3 : V (Proc.devRef .tc main_v3) = Read.val_main_v3 (F := Ideal) x1)
    (hp : V (Proc.devRef .tc main_arg3) = x3) :
    after opsRoundC V (Proc.devRef .tc main_v62) = Read.val_main_v62 (F := Ideal) x1 x3 := by
  unfold Read.val_main_v62 Read.val_main_v61 Read.val_main_v60 Read.val_main_v59 Read.val_main_cst_17
    Read.val_main_v58 Read.val_main_v57 Read.val_main_v56 Read.val_main_cst_16 Read.val_main_v55
    Read.val_main_cst_15 Read.val_main_v54 Read.val_main_v53 Read.val_main_v52 Read.val_main_cst_14
    Read.val_main_v51 Read.val_main_v50 Read.val_main_v49 Read.val_main_v48 Read.val_main_v47 Read.val_main_c_13
    Read.val_main_v46 Read.val_main_v45 Read.val_main_c_12
  rw [← h1, ← h3]
  subst hp
  fold_opsRoundC <;> rfl

/-- The second reverse round, on the first reverse round's result. -/
theorem opsRoundD_v80 (V : Valuation τ sig (Elt Ideal)) (x1 : (⟨S2x100000, .i32⟩ : BufTy).Contents (Elt Ideal)) (x3 : (⟨S50000x2, .f32⟩ : BufTy).Contents (Elt Ideal))
    (h1 : V (Proc.devRef .tc main_v1) = Read.val_main_v1 (F := Ideal) x1) (h3 : V (Proc.devRef .tc main_v3) = Read.val_main_v3 (F := Ideal) x1)
    (hp : V (Proc.devRef .tc main_v62) = Read.val_main_v62 (F := Ideal) x1 x3) :
    after opsRoundD V (Proc.devRef .tc main_v80) = Read.val_main_v80 (F := Ideal) x1 x3 := by
  unfold Read.val_main_v80 Read.val_main_v79 Read.val_main_v78 Read.val_main_v77 Read.val_main_cst_23
    Read.val_main_v76 Read.val_main_v75 Read.val_main_v74 Read.val_main_cst_22 Read.val_main_v73
    Read.val_main_cst_21 Read.val_main_v72 Read.val_main_v71 Read.val_main_v70 Read.val_main_cst_20
    Read.val_main_v69 Read.val_main_v68 Read.val_main_v67 Read.val_main_v66 Read.val_main_v65 Read.val_main_c_19
    Read.val_main_v64 Read.val_main_v63 Read.val_main_c_18
  rw [← h1, ← h3, ← hp]
  fold_opsRoundD <;> rfl

/-- The node table: the six pieces side by side. -/
theorem opsTable_v81 (V : Valuation τ sig (Elt Ideal)) (x0 : (⟨S50000x512, .f32⟩ : BufTy).Contents (Elt Ideal)) (x1 : (⟨S2x100000, .i32⟩ : BufTy).Contents (Elt Ideal))
    (x3 : (⟨S50000x2, .f32⟩ : BufTy).Contents (Elt Ideal)) (x5 : (⟨S1x512, .f32⟩ : BufTy).Contents (Elt Ideal))
    (h8 : V (Proc.devRef .tc main_v8) = Read.val_main_v8 (F := Ideal) x0 x5) (hx : V (Proc.devRef .tc main_arg3) = x3)
    (h26 : V (Proc.devRef .tc main_v26) = Read.val_main_v26 (F := Ideal) x1 x3)
    (h44 : V (Proc.devRef .tc main_v44) = Read.val_main_v44 (F := Ideal) x1 x3)
    (h62 : V (Proc.devRef .tc main_v62) = Read.val_main_v62 (F := Ideal) x1 x3)
    (h80 : V (Proc.devRef .tc main_v80) = Read.val_main_v80 (F := Ideal) x1 x3) :
    after opsTable V (Proc.devRef .tc main_v81) = Read.val_main_v81 (F := Ideal) x0 x1 x3 x5 := by
  unfold Read.val_main_v81
  generalize Read.val_main_v8 (F := Ideal) x0 x5 = A0 at h8 ⊢
  generalize Read.val_main_v26 (F := Ideal) x1 x3 = A2 at h26 ⊢
  generalize Read.val_main_v44 (F := Ideal) x1 x3 = A3 at h44 ⊢
  generalize Read.val_main_v62 (F := Ideal) x1 x3 = A4 at h62 ⊢
  generalize Read.val_main_v80 (F := Ideal) x1 x3 = A5 at h80 ⊢
  subst h8 h26 h44 h62 h80 hx
  fold_opsTable <;> rfl

/-! ## The contents after each piece, from any starting contents `W` -/

abbrev at0 (W : Valuation τ sig (Elt Ideal)) : Valuation τ sig (Elt Ideal) := after opsHead W
abbrev atW (W : Valuation τ sig (Elt Ideal)) : Valuation τ sig (Elt Ideal) := after opsWhere (at0 W)
abbrev at1 (W : Valuation τ sig (Elt Ideal)) : Valuation τ sig (Elt Ideal) := after opsRoundA (atW W)
abbrev at2 (W : Valuation τ sig (Elt Ideal)) : Valuation τ sig (Elt Ideal) := after opsRoundB (at1 W)
abbrev at3 (W : Valuation τ sig (Elt Ideal)) : Valuation τ sig (Elt Ideal) := after opsRoundC (at2 W)
abbrev at4 (W : Valuation τ sig (Elt Ideal)) : Valuation τ sig (Elt Ideal) := after opsRoundD (at3 W)

theorem at0_v1 (W : Valuation τ sig (Elt Ideal)) :
    at0 W (Proc.devRef .tc main_v1) = Read.val_main_v1 (F := Ideal) (W (Proc.devRef .tc main_arg1)) :=
  opsHead_v1 W
theorem at0_v3 (W : Valuation τ sig (Elt Ideal)) :
    at0 W (Proc.devRef .tc main_v3) = Read.val_main_v3 (F := Ideal) (W (Proc.devRef .tc main_arg1)) :=
  opsHead_v3 W
theorem at0_v7 (W : Valuation τ sig (Elt Ideal)) :
    at0 W (Proc.devRef .tc main_v7) = Read.val_main_v7 (F := Ideal) (W (Proc.devRef .tc main_arg0)) :=
  opsHead_v7 W
theorem at0_arg0 (W : Valuation τ sig (Elt Ideal)) :
    at0 W (Proc.devRef .tc main_arg0) = W (Proc.devRef .tc main_arg0) :=
  opsHead_keep W main_arg0 (by decide)
theorem at0_arg5 (W : Valuation τ sig (Elt Ideal)) :
    at0 W (Proc.devRef .tc main_arg5) = W (Proc.devRef .tc main_arg5) :=
  opsHead_keep W main_arg5 (by decide)
theorem at0_arg3 (W : Valuation τ sig (Elt Ideal)) :
    at0 W (Proc.devRef .tc main_arg3) = W (Proc.devRef .tc main_arg3) :=
  opsHead_keep W main_arg3 (by decide)
theorem at0_arg2 (W : Valuation τ sig (Elt Ideal)) :
    at0 W (Proc.devRef .tc main_arg2) = W (Proc.devRef .tc main_arg2) :=
  opsHead_keep W main_arg2 (by decide)
theorem at0_arg4 (W : Valuation τ sig (Elt Ideal)) :
    at0 W (Proc.devRef .tc main_arg4) = W (Proc.devRef .tc main_arg4) :=
  opsHead_keep W main_arg4 (by decide)
theorem at0_arg6 (W : Valuation τ sig (Elt Ideal)) :
    at0 W (Proc.devRef .tc main_arg6) = W (Proc.devRef .tc main_arg6) :=
  opsHead_keep W main_arg6 (by decide)
theorem at0_arg7 (W : Valuation τ sig (Elt Ideal)) :
    at0 W (Proc.devRef .tc main_arg7) = W (Proc.devRef .tc main_arg7) :=
  opsHead_keep W main_arg7 (by decide)
theorem at0_arg8 (W : Valuation τ sig (Elt Ideal)) :
    at0 W (Proc.devRef .tc main_arg8) = W (Proc.devRef .tc main_arg8) :=
  opsHead_keep W main_arg8 (by decide)
theorem at0_arg9 (W : Valuation τ sig (Elt Ideal)) :
    at0 W (Proc.devRef .tc main_arg9) = W (Proc.devRef .tc main_arg9) :=
  opsHead_keep W main_arg9 (by decide)

theorem atW_v8 (W : Valuation τ sig (Elt Ideal)) :
    atW W (Proc.devRef .tc main_v8) = Read.val_main_v8 (F := Ideal) (W (Proc.devRef .tc main_arg0)) (W (Proc.devRef .tc main_arg5)) := by
  have h := opsWhere_v8 (at0 W)
  rw [at0_v7 W, at0_arg5 W, at0_arg0 W] at h
  exact h
theorem atW_v1 (W : Valuation τ sig (Elt Ideal)) :
    atW W (Proc.devRef .tc main_v1) = Read.val_main_v1 (F := Ideal) (W (Proc.devRef .tc main_arg1)) :=
  (opsWhere_keep (at0 W) main_v1 (by decide)).trans (at0_v1 W)
theorem atW_v3 (W : Valuation τ sig (Elt Ideal)) :
    atW W (Proc.devRef .tc main_v3) = Read.val_main_v3 (F := Ideal) (W (Proc.devRef .tc main_arg1)) :=
  (opsWhere_keep (at0 W) main_v3 (by decide)).trans (at0_v3 W)
theorem atW_arg3 (W : Valuation τ sig (Elt Ideal)) :
    atW W (Proc.devRef .tc main_arg3) = W (Proc.devRef .tc main_arg3) :=
  (opsWhere_keep (at0 W) main_arg3 (by decide)).trans (at0_arg3 W)
theorem atW_arg2 (W : Valuation τ sig (Elt Ideal)) :
    atW W (Proc.devRef .tc main_arg2) = W (Proc.devRef .tc main_arg2) :=
  (opsWhere_keep (at0 W) main_arg2 (by decide)).trans (at0_arg2 W)
theorem atW_arg4 (W : Valuation τ sig (Elt Ideal)) :
    atW W (Proc.devRef .tc main_arg4) = W (Proc.devRef .tc main_arg4) :=
  (opsWhere_keep (at0 W) main_arg4 (by decide)).trans (at0_arg4 W)
theorem atW_arg6 (W : Valuation τ sig (Elt Ideal)) :
    atW W (Proc.devRef .tc main_arg6) = W (Proc.devRef .tc main_arg6) :=
  (opsWhere_keep (at0 W) main_arg6 (by decide)).trans (at0_arg6 W)
theorem atW_arg7 (W : Valuation τ sig (Elt Ideal)) :
    atW W (Proc.devRef .tc main_arg7) = W (Proc.devRef .tc main_arg7) :=
  (opsWhere_keep (at0 W) main_arg7 (by decide)).trans (at0_arg7 W)
theorem atW_arg8 (W : Valuation τ sig (Elt Ideal)) :
    atW W (Proc.devRef .tc main_arg8) = W (Proc.devRef .tc main_arg8) :=
  (opsWhere_keep (at0 W) main_arg8 (by decide)).trans (at0_arg8 W)
theorem atW_arg9 (W : Valuation τ sig (Elt Ideal)) :
    atW W (Proc.devRef .tc main_arg9) = W (Proc.devRef .tc main_arg9) :=
  (opsWhere_keep (at0 W) main_arg9 (by decide)).trans (at0_arg9 W)

theorem at1_v26 (W : Valuation τ sig (Elt Ideal)) :
    at1 W (Proc.devRef .tc main_v26) = Read.val_main_v26 (F := Ideal) (W (Proc.devRef .tc main_arg1)) (W (Proc.devRef .tc main_arg3)) :=
  opsRoundA_v26 (atW W) _ _ (atW_v1 W) (atW_v3 W) (atW_arg3 W)
theorem at1_v1 (W : Valuation τ sig (Elt Ideal)) :
    at1 W (Proc.devRef .tc main_v1) = Read.val_main_v1 (F := Ideal) (W (Proc.devRef .tc main_arg1)) :=
  (opsRoundA_keep (atW W) main_v1 (by decide)).trans (atW_v1 W)
theorem at1_v3 (W : Valuation τ sig (Elt Ideal)) :
    at1 W (Proc.devRef .tc main_v3) = Read.val_main_v3 (F := Ideal) (W (Proc.devRef .tc main_arg1)) :=
  (opsRoundA_keep (atW W) main_v3 (by decide)).trans (atW_v3 W)
theorem at1_v8 (W : Valuation τ sig (Elt Ideal)) :
    at1 W (Proc.devRef .tc main_v8) = Read.val_main_v8 (F := Ideal) (W (Proc.devRef .tc main_arg0)) (W (Proc.devRef .tc main_arg5)) :=
  (opsRoundA_keep (atW W) main_v8 (by decide)).trans (atW_v8 W)
theorem at1_arg3 (W : Valuation τ sig (Elt Ideal)) :
    at1 W (Proc.devRef .tc main_arg3) = W (Proc.devRef .tc main_arg3) :=
  (opsRoundA_keep (atW W) main_arg3 (by decide)).trans (atW_arg3 W)
theorem at1_arg2 (W : Valuation τ sig (Elt Ideal)) :
    at1 W (Proc.devRef .tc main_arg2) = W (Proc.devRef .tc main_arg2) :=
  (opsRoundA_keep (atW W) main_arg2 (by decide)).trans (atW_arg2 W)
theorem at1_arg4 (W : Valuation τ sig (Elt Ideal)) :
    at1 W (Proc.devRef .tc main_arg4) = W (Proc.devRef .tc main_arg4) :=
  (opsRoundA_keep (atW W) main_arg4 (by decide)).trans (atW_arg4 W)
theorem at1_arg6 (W : Valuation τ sig (Elt Ideal)) :
    at1 W (Proc.devRef .tc main_arg6) = W (Proc.devRef .tc main_arg6) :=
  (opsRoundA_keep (atW W) main_arg6 (by decide)).trans (atW_arg6 W)
theorem at1_arg7 (W : Valuation τ sig (Elt Ideal)) :
    at1 W (Proc.devRef .tc main_arg7) = W (Proc.devRef .tc main_arg7) :=
  (opsRoundA_keep (atW W) main_arg7 (by decide)).trans (atW_arg7 W)
theorem at1_arg8 (W : Valuation τ sig (Elt Ideal)) :
    at1 W (Proc.devRef .tc main_arg8) = W (Proc.devRef .tc main_arg8) :=
  (opsRoundA_keep (atW W) main_arg8 (by decide)).trans (atW_arg8 W)
theorem at1_arg9 (W : Valuation τ sig (Elt Ideal)) :
    at1 W (Proc.devRef .tc main_arg9) = W (Proc.devRef .tc main_arg9) :=
  (opsRoundA_keep (atW W) main_arg9 (by decide)).trans (atW_arg9 W)

theorem at2_v44 (W : Valuation τ sig (Elt Ideal)) :
    at2 W (Proc.devRef .tc main_v44) = Read.val_main_v44 (F := Ideal) (W (Proc.devRef .tc main_arg1)) (W (Proc.devRef .tc main_arg3)) :=
  opsRoundB_v44 (at1 W) _ _ (at1_v1 W) (at1_v3 W) (at1_v26 W)
theorem at2_v1 (W : Valuation τ sig (Elt Ideal)) :
    at2 W (Proc.devRef .tc main_v1) = Read.val_main_v1 (F := Ideal) (W (Proc.devRef .tc main_arg1)) :=
  (opsRoundB_keep (at1 W) main_v1 (by decide)).trans (at1_v1 W)
theorem at2_v3 (W : Valuation τ sig (Elt Ideal)) :
    at2 W (Proc.devRef .tc main_v3) = Read.val_main_v3 (F := Ideal) (W (Proc.devRef .tc main_arg1)) :=
  (opsRoundB_keep (at1 W) main_v3 (by decide)).trans (at1_v3 W)
theorem at2_v8 (W : Valuation τ sig (Elt Ideal)) :
    at2 W (Proc.devRef .tc main_v8) = Read.val_main_v8 (F := Ideal) (W (Proc.devRef .tc main_arg0)) (W (Proc.devRef .tc main_arg5)) :=
  (opsRoundB_keep (at1 W) main_v8 (by decide)).trans (at1_v8 W)
theorem at2_v26 (W : Valuation τ sig (Elt Ideal)) :
    at2 W (Proc.devRef .tc main_v26) = Read.val_main_v26 (F := Ideal) (W (Proc.devRef .tc main_arg1)) (W (Proc.devRef .tc main_arg3)) :=
  (opsRoundB_keep (at1 W) main_v26 (by decide)).trans (at1_v26 W)
theorem at2_arg3 (W : Valuation τ sig (Elt Ideal)) :
    at2 W (Proc.devRef .tc main_arg3) = W (Proc.devRef .tc main_arg3) :=
  (opsRoundB_keep (at1 W) main_arg3 (by decide)).trans (at1_arg3 W)
theorem at2_arg2 (W : Valuation τ sig (Elt Ideal)) :
    at2 W (Proc.devRef .tc main_arg2) = W (Proc.devRef .tc main_arg2) :=
  (opsRoundB_keep (at1 W) main_arg2 (by decide)).trans (at1_arg2 W)
theorem at2_arg4 (W : Valuation τ sig (Elt Ideal)) :
    at2 W (Proc.devRef .tc main_arg4) = W (Proc.devRef .tc main_arg4) :=
  (opsRoundB_keep (at1 W) main_arg4 (by decide)).trans (at1_arg4 W)
theorem at2_arg6 (W : Valuation τ sig (Elt Ideal)) :
    at2 W (Proc.devRef .tc main_arg6) = W (Proc.devRef .tc main_arg6) :=
  (opsRoundB_keep (at1 W) main_arg6 (by decide)).trans (at1_arg6 W)
theorem at2_arg7 (W : Valuation τ sig (Elt Ideal)) :
    at2 W (Proc.devRef .tc main_arg7) = W (Proc.devRef .tc main_arg7) :=
  (opsRoundB_keep (at1 W) main_arg7 (by decide)).trans (at1_arg7 W)
theorem at2_arg8 (W : Valuation τ sig (Elt Ideal)) :
    at2 W (Proc.devRef .tc main_arg8) = W (Proc.devRef .tc main_arg8) :=
  (opsRoundB_keep (at1 W) main_arg8 (by decide)).trans (at1_arg8 W)
theorem at2_arg9 (W : Valuation τ sig (Elt Ideal)) :
    at2 W (Proc.devRef .tc main_arg9) = W (Proc.devRef .tc main_arg9) :=
  (opsRoundB_keep (at1 W) main_arg9 (by decide)).trans (at1_arg9 W)

theorem at3_v62 (W : Valuation τ sig (Elt Ideal)) :
    at3 W (Proc.devRef .tc main_v62) = Read.val_main_v62 (F := Ideal) (W (Proc.devRef .tc main_arg1)) (W (Proc.devRef .tc main_arg3)) :=
  opsRoundC_v62 (at2 W) _ _ (at2_v1 W) (at2_v3 W) (at2_arg3 W)
theorem at3_v1 (W : Valuation τ sig (Elt Ideal)) :
    at3 W (Proc.devRef .tc main_v1) = Read.val_main_v1 (F := Ideal) (W (Proc.devRef .tc main_arg1)) :=
  (opsRoundC_keep (at2 W) main_v1 (by decide)).trans (at2_v1 W)
theorem at3_v3 (W : Valuation τ sig (Elt Ideal)) :
    at3 W (Proc.devRef .tc main_v3) = Read.val_main_v3 (F := Ideal) (W (Proc.devRef .tc main_arg1)) :=
  (opsRoundC_keep (at2 W) main_v3 (by decide)).trans (at2_v3 W)
theorem at3_v8 (W : Valuation τ sig (Elt Ideal)) :
    at3 W (Proc.devRef .tc main_v8) = Read.val_main_v8 (F := Ideal) (W (Proc.devRef .tc main_arg0)) (W (Proc.devRef .tc main_arg5)) :=
  (opsRoundC_keep (at2 W) main_v8 (by decide)).trans (at2_v8 W)
theorem at3_v26 (W : Valuation τ sig (Elt Ideal)) :
    at3 W (Proc.devRef .tc main_v26) = Read.val_main_v26 (F := Ideal) (W (Proc.devRef .tc main_arg1)) (W (Proc.devRef .tc main_arg3)) :=
  (opsRoundC_keep (at2 W) main_v26 (by decide)).trans (at2_v26 W)
theorem at3_v44 (W : Valuation τ sig (Elt Ideal)) :
    at3 W (Proc.devRef .tc main_v44) = Read.val_main_v44 (F := Ideal) (W (Proc.devRef .tc main_arg1)) (W (Proc.devRef .tc main_arg3)) :=
  (opsRoundC_keep (at2 W) main_v44 (by decide)).trans (at2_v44 W)
theorem at3_arg3 (W : Valuation τ sig (Elt Ideal)) :
    at3 W (Proc.devRef .tc main_arg3) = W (Proc.devRef .tc main_arg3) :=
  (opsRoundC_keep (at2 W) main_arg3 (by decide)).trans (at2_arg3 W)
theorem at3_arg2 (W : Valuation τ sig (Elt Ideal)) :
    at3 W (Proc.devRef .tc main_arg2) = W (Proc.devRef .tc main_arg2) :=
  (opsRoundC_keep (at2 W) main_arg2 (by decide)).trans (at2_arg2 W)
theorem at3_arg4 (W : Valuation τ sig (Elt Ideal)) :
    at3 W (Proc.devRef .tc main_arg4) = W (Proc.devRef .tc main_arg4) :=
  (opsRoundC_keep (at2 W) main_arg4 (by decide)).trans (at2_arg4 W)
theorem at3_arg6 (W : Valuation τ sig (Elt Ideal)) :
    at3 W (Proc.devRef .tc main_arg6) = W (Proc.devRef .tc main_arg6) :=
  (opsRoundC_keep (at2 W) main_arg6 (by decide)).trans (at2_arg6 W)
theorem at3_arg7 (W : Valuation τ sig (Elt Ideal)) :
    at3 W (Proc.devRef .tc main_arg7) = W (Proc.devRef .tc main_arg7) :=
  (opsRoundC_keep (at2 W) main_arg7 (by decide)).trans (at2_arg7 W)
theorem at3_arg8 (W : Valuation τ sig (Elt Ideal)) :
    at3 W (Proc.devRef .tc main_arg8) = W (Proc.devRef .tc main_arg8) :=
  (opsRoundC_keep (at2 W) main_arg8 (by decide)).trans (at2_arg8 W)
theorem at3_arg9 (W : Valuation τ sig (Elt Ideal)) :
    at3 W (Proc.devRef .tc main_arg9) = W (Proc.devRef .tc main_arg9) :=
  (opsRoundC_keep (at2 W) main_arg9 (by decide)).trans (at2_arg9 W)

theorem at4_v80 (W : Valuation τ sig (Elt Ideal)) :
    at4 W (Proc.devRef .tc main_v80) = Read.val_main_v80 (F := Ideal) (W (Proc.devRef .tc main_arg1)) (W (Proc.devRef .tc main_arg3)) :=
  opsRoundD_v80 (at3 W) _ _ (at3_v1 W) (at3_v3 W) (at3_v62 W)
theorem at4_v1 (W : Valuation τ sig (Elt Ideal)) :
    at4 W (Proc.devRef .tc main_v1) = Read.val_main_v1 (F := Ideal) (W (Proc.devRef .tc main_arg1)) :=
  (opsRoundD_keep (at3 W) main_v1 (by decide)).trans (at3_v1 W)
theorem at4_v3 (W : Valuation τ sig (Elt Ideal)) :
    at4 W (Proc.devRef .tc main_v3) = Read.val_main_v3 (F := Ideal) (W (Proc.devRef .tc main_arg1)) :=
  (opsRoundD_keep (at3 W) main_v3 (by decide)).trans (at3_v3 W)
theorem at4_v8 (W : Valuation τ sig (Elt Ideal)) :
    at4 W (Proc.devRef .tc main_v8) = Read.val_main_v8 (F := Ideal) (W (Proc.devRef .tc main_arg0)) (W (Proc.devRef .tc main_arg5)) :=
  (opsRoundD_keep (at3 W) main_v8 (by decide)).trans (at3_v8 W)
theorem at4_v26 (W : Valuation τ sig (Elt Ideal)) :
    at4 W (Proc.devRef .tc main_v26) = Read.val_main_v26 (F := Ideal) (W (Proc.devRef .tc main_arg1)) (W (Proc.devRef .tc main_arg3)) :=
  (opsRoundD_keep (at3 W) main_v26 (by decide)).trans (at3_v26 W)
theorem at4_v44 (W : Valuation τ sig (Elt Ideal)) :
    at4 W (Proc.devRef .tc main_v44) = Read.val_main_v44 (F := Ideal) (W (Proc.devRef .tc main_arg1)) (W (Proc.devRef .tc main_arg3)) :=
  (opsRoundD_keep (at3 W) main_v44 (by decide)).trans (at3_v44 W)
theorem at4_v62 (W : Valuation τ sig (Elt Ideal)) :
    at4 W (Proc.devRef .tc main_v62) = Read.val_main_v62 (F := Ideal) (W (Proc.devRef .tc main_arg1)) (W (Proc.devRef .tc main_arg3)) :=
  (opsRoundD_keep (at3 W) main_v62 (by decide)).trans (at3_v62 W)
theorem at4_arg3 (W : Valuation τ sig (Elt Ideal)) :
    at4 W (Proc.devRef .tc main_arg3) = W (Proc.devRef .tc main_arg3) :=
  (opsRoundD_keep (at3 W) main_arg3 (by decide)).trans (at3_arg3 W)
theorem at4_arg2 (W : Valuation τ sig (Elt Ideal)) :
    at4 W (Proc.devRef .tc main_arg2) = W (Proc.devRef .tc main_arg2) :=
  (opsRoundD_keep (at3 W) main_arg2 (by decide)).trans (at3_arg2 W)
theorem at4_arg4 (W : Valuation τ sig (Elt Ideal)) :
    at4 W (Proc.devRef .tc main_arg4) = W (Proc.devRef .tc main_arg4) :=
  (opsRoundD_keep (at3 W) main_arg4 (by decide)).trans (at3_arg4 W)
theorem at4_arg6 (W : Valuation τ sig (Elt Ideal)) :
    at4 W (Proc.devRef .tc main_arg6) = W (Proc.devRef .tc main_arg6) :=
  (opsRoundD_keep (at3 W) main_arg6 (by decide)).trans (at3_arg6 W)
theorem at4_arg7 (W : Valuation τ sig (Elt Ideal)) :
    at4 W (Proc.devRef .tc main_arg7) = W (Proc.devRef .tc main_arg7) :=
  (opsRoundD_keep (at3 W) main_arg7 (by decide)).trans (at3_arg7 W)
theorem at4_arg8 (W : Valuation τ sig (Elt Ideal)) :
    at4 W (Proc.devRef .tc main_arg8) = W (Proc.devRef .tc main_arg8) :=
  (opsRoundD_keep (at3 W) main_arg8 (by decide)).trans (at3_arg8 W)
theorem at4_arg9 (W : Valuation τ sig (Elt Ideal)) :
    at4 W (Proc.devRef .tc main_arg9) = W (Proc.devRef .tc main_arg9) :=
  (opsRoundD_keep (at3 W) main_arg9 (by decide)).trans (at3_arg9 W)

/-! ## The first part's results -/

/-- After the first 110 operations the node table's buffer holds the node table of the argument arrays. -/
theorem preA_v81 (W : Valuation τ sig (Elt Ideal)) :
    after (opsA (F := Ideal)) W (Proc.devRef .tc main_v81)
      = Read.val_main_v81 (F := Ideal) (W (Proc.devRef .tc main_arg0)) (W (Proc.devRef .tc main_arg1))
          (W (Proc.devRef .tc main_arg3)) (W (Proc.devRef .tc main_arg5)) := by
  rw [after_opsA]
  exact opsTable_v81 (at4 W) _ _ _ _ (at4_v8 W) (at4_arg3 W) (at4_v26 W) (at4_v44 W) (at4_v62 W) (at4_v80 W)

/-- After the first 110 operations the source index vector is in its buffer. -/
theorem preA_v1 (W : Valuation τ sig (Elt Ideal)) :
    after (opsA (F := Ideal)) W (Proc.devRef .tc main_v1) = Read.val_main_v1 (F := Ideal) (W (Proc.devRef .tc main_arg1)) := by
  rw [after_opsA]
  exact (opsTable_keep (at4 W) main_v1 (by decide)).trans (at4_v1 W)

/-- After the first 110 operations the target index vector is in its buffer. -/
theorem preA_v3 (W : Valuation τ sig (Elt Ideal)) :
    after (opsA (F := Ideal)) W (Proc.devRef .tc main_v3) = Read.val_main_v3 (F := Ideal) (W (Proc.devRef .tc main_arg1)) := by
  rw [after_opsA]
  exact (opsTable_keep (at4 W) main_v3 (by decide)).trans (at4_v3 W)

/-- The first 110 operations leave this argument as it was. -/
theorem preA_keep_arg2 (W : Valuation τ sig (Elt Ideal)) :
    after (opsA (F := Ideal)) W (Proc.devRef .tc main_arg2) = W (Proc.devRef .tc main_arg2) := by
  rw [after_opsA]
  exact (opsTable_keep (at4 W) main_arg2 (by decide)).trans (at4_arg2 W)

/-- The first 110 operations leave this argument as it was. -/
theorem preA_keep_arg4 (W : Valuation τ sig (Elt Ideal)) :
    after (opsA (F := Ideal)) W (Proc.devRef .tc main_arg4) = W (Proc.devRef .tc main_arg4) := by
  rw [after_opsA]
  exact (opsTable_keep (at4 W) main_arg4 (by decide)).trans (at4_arg4 W)

/-- The first 110 operations leave this argument as it was. -/
theorem preA_keep_arg6 (W : Valuation τ sig (Elt Ideal)) :
    after (opsA (F := Ideal)) W (Proc.devRef .tc main_arg6) = W (Proc.devRef .tc main_arg6) := by
  rw [after_opsA]
  exact (opsTable_keep (at4 W) main_arg6 (by decide)).trans (at4_arg6 W)

/-- The first 110 operations leave this argument as it was. -/
theorem preA_keep_arg7 (W : Valuation τ sig (Elt Ideal)) :
    after (opsA (F := Ideal)) W (Proc.devRef .tc main_arg7) = W (Proc.devRef .tc main_arg7) := by
  rw [after_opsA]
  exact (opsTable_keep (at4 W) main_arg7 (by decide)).trans (at4_arg7 W)

/-- The first 110 operations leave this argument as it was. -/
theorem preA_keep_arg8 (W : Valuation τ sig (Elt Ideal)) :
    after (opsA (F := Ideal)) W (Proc.devRef .tc main_arg8) = W (Proc.devRef .tc main_arg8) := by
  rw [after_opsA]
  exact (opsTable_keep (at4 W) main_arg8 (by decide)).trans (at4_arg8 W)

/-- The first 110 operations leave this argument as it was. -/
theorem preA_keep_arg9 (W : Valuation τ sig (Elt Ideal)) :
    after (opsA (F := Ideal)) W (Proc.devRef .tc main_arg9) = W (Proc.devRef .tc main_arg9) := by
  rw [after_opsA]
  exact (opsTable_keep (at4 W) main_arg9 (by decide)).trans (at4_arg9 W)

end Cert.ReferenceIdeal.RunH

end
-- ==== Proof.RefSuffix.lean ====
/-
  The reference's last 31 operations, evaluated from any contents that hold the node table and the two index vectors.

  The operations are cut once more, in front of the four-piece concatenation.  The 18 before it build the two index
  columns and gather the node table's rows; they leave the argument arrays as they were.  The 13 from the concatenation
  on read their operands either straight from the contents they start from or from one another, so their fold is the
  composed term of the scorer over those contents.  Each part is a fold of few operations over atoms: the node table
  and the index vectors are never opened.
-/
import proofs.«123470_j91130616087124_2_alg».proof.Proof.RefCut
import proofs.«123470_j91130616087124_2_alg».proof.Proof.RefStages

noncomputable section

namespace Cert.ReferenceIdeal.RunH

open Cert.ReferenceIdeal Cert.ReferenceIdeal.Gen Idealize.ShloMosaic Idealize.ShloMosaic.TcCoe Idealize.SL.Sem Idealize.ShloMosaic.StableHlo

/-- The second part's operations before the concatenation: the two index columns and the two row gathers (18). -/
abbrev opsB1 : List (HloOp τ sig (Elt Ideal)) := (opsB (F := Ideal)).take 18
/-- The concatenation and the scorer (13 operations). -/
abbrev opsB2 : List (HloOp τ sig (Elt Ideal)) := (opsB (F := Ideal)).drop 18

/-- The fold through the second part is the fold through its two pieces. -/
theorem after_opsB (V : Valuation τ sig (Elt Ideal)) : after (opsB (F := Ideal)) V = after opsB2 (after opsB1 V) := by
  rw [← after_append, List.take_append_drop]

/-- Brings a fold through `opsB1` to the composed term of its operations over the starting contents. -/
local macro "fold_opsB1" : tactic =>
  `(tactic| (simp only [opsB1, opsB, Cert.ReferenceIdeal.Value.ops, List.take_succ_cons, List.take_zero, List.drop_succ_cons,
      List.drop_zero]
             after_results_simp))

/-- Brings a fold through `opsB2` to the composed term of its operations over the starting contents. -/
local macro "fold_opsB2" : tactic =>
  `(tactic| (simp only [opsB2, opsB, Cert.ReferenceIdeal.Value.ops, List.take_succ_cons, List.take_zero, List.drop_succ_cons,
      List.drop_zero]
             after_results_simp))

/-- After the first 18 operations the source gather's buffer holds the gathered source rows. -/
theorem gathered_src (WA : Valuation τ sig (Elt Ideal)) (x0 : (⟨S50000x512, .f32⟩ : BufTy).Contents (Elt Ideal)) (x1 : (⟨S2x100000, .i32⟩ : BufTy).Contents (Elt Ideal)) (x3 : (⟨S50000x2, .f32⟩ : BufTy).Contents (Elt Ideal)) (x5 : (⟨S1x512, .f32⟩ : BufTy).Contents (Elt Ideal))
    (h81 : WA (Proc.devRef .tc main_v81) = Read.val_main_v81 (F := Ideal) x0 x1 x3 x5)
    (h1 : WA (Proc.devRef .tc main_v1) = Read.val_main_v1 (F := Ideal) x1) :
    after opsB1 WA (Proc.devRef .tc main_v88) = Read.val_main_v88 (F := Ideal) x0 x1 x3 x5 := by
  unfold Read.val_main_v88 Read.val_main_v87 Read.val_main_v86 Read.val_main_v85 Read.val_main_v84 Read.val_main_v83
    Read.val_main_v82 Read.val_main_c_25 Read.val_main_c_24
  rw [← h81, ← h1]
  fold_opsB1

/-- After the first 18 operations the target gather's buffer holds the gathered target rows. -/
theorem gathered_dst (WA : Valuation τ sig (Elt Ideal)) (x0 : (⟨S50000x512, .f32⟩ : BufTy).Contents (Elt Ideal)) (x1 : (⟨S2x100000, .i32⟩ : BufTy).Contents (Elt Ideal)) (x3 : (⟨S50000x2, .f32⟩ : BufTy).Contents (Elt Ideal)) (x5 : (⟨S1x512, .f32⟩ : BufTy).Contents (Elt Ideal))
    (h81 : WA (Proc.devRef .tc main_v81) = Read.val_main_v81 (F := Ideal) x0 x1 x3 x5)
    (h3 : WA (Proc.devRef .tc main_v3) = Read.val_main_v3 (F := Ideal) x1) :
    after opsB1 WA (Proc.devRef .tc main_v95) = Read.val_main_v95 (F := Ideal) x0 x1 x3 x5 := by
  unfold Read.val_main_v95 Read.val_main_v94 Read.val_main_v93 Read.val_main_v92 Read.val_main_v91 Read.val_main_v90
    Read.val_main_v89 Read.val_main_c_27 Read.val_main_c_26
  rw [← h81, ← h3]
  fold_opsB1

/-- The concatenation and the scorer, from contents that hold the gathered rows and the argument arrays. -/
theorem scorer_eq (V : Valuation τ sig (Elt Ideal)) (x0 : (⟨S50000x512, .f32⟩ : BufTy).Contents (Elt Ideal)) (x1 : (⟨S2x100000, .i32⟩ : BufTy).Contents (Elt Ideal)) (x2 : (⟨S100000x512, .f32⟩ : BufTy).Contents (Elt Ideal)) (x3 : (⟨S50000x2, .f32⟩ : BufTy).Contents (Elt Ideal)) (x4 : (⟨S100000x512, .f32⟩ : BufTy).Contents (Elt Ideal)) (x5 : (⟨S1x512, .f32⟩ : BufTy).Contents (Elt Ideal)) (x6 : (⟨S2068x512, .f32⟩ : BufTy).Contents (Elt Ideal)) (x7 : (⟨S512, .f32⟩ : BufTy).Contents (Elt Ideal)) (x8 : (⟨S512x1, .f32⟩ : BufTy).Contents (Elt Ideal)) (x9 : (⟨S1, .f32⟩ : BufTy).Contents (Elt Ideal))
    (h88 : V (Proc.devRef .tc main_v88) = Read.val_main_v88 (F := Ideal) x0 x1 x3 x5)
    (h95 : V (Proc.devRef .tc main_v95) = Read.val_main_v95 (F := Ideal) x0 x1 x3 x5)
    (h2 : V (Proc.devRef .tc main_arg2) = x2) (h4 : V (Proc.devRef .tc main_arg4) = x4) (h6 : V (Proc.devRef .tc main_arg6) = x6)
    (h7 : V (Proc.devRef .tc main_arg7) = x7) (h8 : V (Proc.devRef .tc main_arg8) = x8) (h9 : V (Proc.devRef .tc main_arg9) = x9) :
    after opsB2 V (Proc.devRef .tc main_v106) = Read.val_main_v106 (F := Ideal) x0 x1 x2 x3 x4 x5 x6 x7 x8 x9 := by
  unfold Read.val_main_v106 Read.val_main_v105 Read.val_main_v104 Read.val_main_v103 Read.val_main_v102 Read.val_main_v101
    Read.val_main_call1_v0 Read.val_main_call1_cst Read.val_main_v100 Read.val_main_v99 Read.val_main_v98 Read.val_main_v97
    Read.val_main_v96
  generalize Read.val_main_v88 (F := Ideal) x0 x1 x3 x5 = G1 at h88 ⊢
  generalize Read.val_main_v95 (F := Ideal) x0 x1 x3 x5 = G2 at h95 ⊢
  subst h88 h95 h2 h4 h6 h7 h8 h9
  fold_opsB2
  rfl

/-- The reference's last 31 operations, from contents that hold the node table, the two index vectors and the
    argument arrays, leave the reference's result in the result's buffer. -/
theorem suffix_eq (WA : Valuation τ sig (Elt Ideal)) (x0 : (⟨S50000x512, .f32⟩ : BufTy).Contents (Elt Ideal)) (x1 : (⟨S2x100000, .i32⟩ : BufTy).Contents (Elt Ideal)) (x2 : (⟨S100000x512, .f32⟩ : BufTy).Contents (Elt Ideal)) (x3 : (⟨S50000x2, .f32⟩ : BufTy).Contents (Elt Ideal)) (x4 : (⟨S100000x512, .f32⟩ : BufTy).Contents (Elt Ideal)) (x5 : (⟨S1x512, .f32⟩ : BufTy).Contents (Elt Ideal)) (x6 : (⟨S2068x512, .f32⟩ : BufTy).Contents (Elt Ideal)) (x7 : (⟨S512, .f32⟩ : BufTy).Contents (Elt Ideal)) (x8 : (⟨S512x1, .f32⟩ : BufTy).Contents (Elt Ideal)) (x9 : (⟨S1, .f32⟩ : BufTy).Contents (Elt Ideal))
    (h81 : WA (Proc.devRef .tc main_v81) = Read.val_main_v81 (F := Ideal) x0 x1 x3 x5)
    (h1 : WA (Proc.devRef .tc main_v1) = Read.val_main_v1 (F := Ideal) x1)
    (h3 : WA (Proc.devRef .tc main_v3) = Read.val_main_v3 (F := Ideal) x1)
    (h2 : WA (Proc.devRef .tc main_arg2) = x2) (h4 : WA (Proc.devRef .tc main_arg4) = x4) (h6 : WA (Proc.devRef .tc main_arg6) = x6)
    (h7 : WA (Proc.devRef .tc main_arg7) = x7) (h8 : WA (Proc.devRef .tc main_arg8) = x8) (h9 : WA (Proc.devRef .tc main_arg9) = x9) :
    after (opsB (F := Ideal)) WA (Proc.devRef .tc main_v106) = Read.val_main_v106 (F := Ideal) x0 x1 x2 x3 x4 x5 x6 x7 x8 x9 := by
  have k2 : after opsB1 WA (Proc.devRef .tc main_arg2) = x2 := by fold_opsB1; exact h2
  have k4 : after opsB1 WA (Proc.devRef .tc main_arg4) = x4 := by fold_opsB1; exact h4
  have k6 : after opsB1 WA (Proc.devRef .tc main_arg6) = x6 := by fold_opsB1; exact h6
  have k7 : after opsB1 WA (Proc.devRef .tc main_arg7) = x7 := by fold_opsB1; exact h7
  have k8 : after opsB1 WA (Proc.devRef .tc main_arg8) = x8 := by fold_opsB1; exact h8
  have k9 : after opsB1 WA (Proc.devRef .tc main_arg9) = x9 := by fold_opsB1; exact h9
  rw [after_opsB]
  exact scorer_eq (after opsB1 WA) x0 x1 x2 x3 x4 x5 x6 x7 x8 x9 (gathered_src WA x0 x1 x3 x5 h81 h1)
    (gathered_dst WA x0 x1 x3 x5 h81 h3) k2 k4 k6 k7 k8 k9

end Cert.ReferenceIdeal.RunH

end
-- ==== Proof.RefResult.lean ====
/-
  The reference program's result: the fold of its operations at the result's buffer is the last stage of the
  arguments. The fold is cut where the node table is written; the table, the two index vectors and the arguments are
  read off the first part, and the second part takes them as given.
-/
import proofs.«123470_j91130616087124_2_alg».proof.Proof.RefRunH
import proofs.«123470_j91130616087124_2_alg».proof.Proof.RefPrefix
import proofs.«123470_j91130616087124_2_alg».proof.Proof.RefSuffix

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

/-- The fold at the result's buffer is the last stage of the starting contents at the arguments. -/
theorem result_eq (W : Valuation τ sig (Elt Ideal)) :
    after (Cert.ReferenceIdeal.Value.ops (F := Ideal)) W (Proc.devRef .tc main_v106)
      = Cert.ReferenceIdeal.Read.val_main_v106 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [after_ops]
  exact suffix_eq _ _ _ _ _ _ _ _ _ _ _ (preA_v81 W) (preA_v1 W) (preA_v3 W) (preA_keep_arg2 W) (preA_keep_arg4 W) (preA_keep_arg6 W)
    (preA_keep_arg7 W) (preA_keep_arg8 W) (preA_keep_arg9 W)

/-- Every weakly fair execution of the reference terminates, nothing faulting, with its result at the last stage of
    the launch memory's arguments and every argument as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v106)
        = Cert.ReferenceIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_v106).trans (result_eq _),
    (h c main_arg0).trans (keep_arg0 _),
    (h c main_arg1).trans (keep_arg1 _),
    (h c main_arg2).trans (keep_arg2 _),
    (h c main_arg3).trans (keep_arg3 _),
    (h c main_arg4).trans (keep_arg4 _),
    (h c main_arg5).trans (keep_arg5 _),
    (h c main_arg6).trans (keep_arg6 _),
    (h c main_arg7).trans (keep_arg7 _),
    (h c main_arg8).trans (keep_arg8 _),
    (h c main_arg9).trans (keep_arg9 _)⟩)
    (run_fold m ρ)

end Cert.ReferenceIdeal.RunH

end
-- ==== Proof.Bridge.lean ====
/-
  The law that joins the two arrangements of the hidden layer.

  A sum over the 2068 columns of the joined row is the sum over its four consecutive ranges of columns, 0..512,
  512..1034, 1034..1546 and 1546..2068.  On each range the joined row is one of its four pieces and the rows of `W1`
  met there are one band of `W1`, so each range's sum is the product of that piece with that band.  What remains is to
  re-order four summands.  Only the commutative-monoid structure of addition on the extended reals is used: no product
  is distributed, nothing is cancelled, nothing has to be finite.
-/
import proofs.«123470_j91130616087124_2_alg».proof.Proof.Spec
import Mathlib

noncomputable section

open scoped BigOperators

namespace Score

/-- A sum over `a + b` positions: the first `a`, then the last `b`. -/
theorem sum_split {M : Type*} [AddCommMonoid M] {a b c : ℕ} (h : c = a + b) (f : Fin c → M) :
    ∑ l : Fin c, f l
      = ∑ k : Fin a, f ⟨k.val, by have := k.isLt; omega⟩ + ∑ k : Fin b, f ⟨a + k.val, by have := k.isLt; omega⟩ := by
  subst h
  rw [Fin.sum_univ_add]
  rfl

section pieces

variable {n : Nat} (q : Fin n → Fin 512 → EReal) (hs : Fin n → Fin 522 → EReal) (ea : Fin n → Fin 512 → EReal)
  (hd : Fin n → Fin 522 → EReal) (e : Fin n)

/-- Columns 0..512 of the joined row are the first piece. -/
theorem cat_first (k : Fin 512) (h : k.val < 2068) : cat q hs ea hd e ⟨k.val, h⟩ = q e k := by
  unfold cat
  rw [dif_pos (show (⟨k.val, h⟩ : Fin 2068).val < 512 from k.isLt)]

/-- Columns 512..1034 of the joined row are the second piece. -/
theorem cat_second (k : Fin 522) (h : 512 + k.val < 2068) : cat q hs ea hd e ⟨512 + k.val, h⟩ = hs e k := by
  have hk := k.isLt
  unfold cat
  rw [dif_neg (show ¬ (⟨512 + k.val, h⟩ : Fin 2068).val < 512 from by show ¬ 512 + k.val < 512; omega),
    dif_pos (show (⟨512 + k.val, h⟩ : Fin 2068).val < 1034 from by show 512 + k.val < 1034; omega)]
  exact congrArg (hs e) (Fin.ext (by show 512 + k.val - 512 = k.val; omega))

/-- Columns 1034..1546 of the joined row are the third piece. -/
theorem cat_third (k : Fin 512) (h : 1034 + k.val < 2068) : cat q hs ea hd e ⟨1034 + k.val, h⟩ = ea e k := by
  have hk := k.isLt
  unfold cat
  rw [dif_neg (show ¬ (⟨1034 + k.val, h⟩ : Fin 2068).val < 512 from by show ¬ 1034 + k.val < 512; omega),
    dif_neg (show ¬ (⟨1034 + k.val, h⟩ : Fin 2068).val < 1034 from by show ¬ 1034 + k.val < 1034; omega),
    dif_pos (show (⟨1034 + k.val, h⟩ : Fin 2068).val < 1546 from by show 1034 + k.val < 1546; omega)]
  exact congrArg (ea e) (Fin.ext (by show 1034 + k.val - 1034 = k.val; omega))

/-- Columns 1546..2068 of the joined row are the fourth piece. -/
theorem cat_fourth (k : Fin 522) (h : 1546 + k.val < 2068) : cat q hs ea hd e ⟨1546 + k.val, h⟩ = hd e k := by
  have hk := k.isLt
  unfold cat
  rw [dif_neg (show ¬ (⟨1546 + k.val, h⟩ : Fin 2068).val < 512 from by show ¬ 1546 + k.val < 512; omega),
    dif_neg (show ¬ (⟨1546 + k.val, h⟩ : Fin 2068).val < 1034 from by show ¬ 1546 + k.val < 1034; omega),
    dif_neg (show ¬ (⟨1546 + k.val, h⟩ : Fin 2068).val < 1546 from by show ¬ 1546 + k.val < 1546; omega)]
  exact congrArg (hd e) (Fin.ext (by show 1546 + k.val - 1546 = k.val; omega))

end pieces

/-- A row of `W1` named by its number, however the number is spelt. -/
theorem W1_row (W1 : Fin 2068 → Fin 512 → EReal) (j : Fin 512) (a b : Fin 2068) (h : a.val = b.val) : W1 a j = W1 b j := by
  rw [Fin.ext h]

/-- The joined product is the four band products, added: a sum over 2068 columns cut at 512, 1034 and 1546. -/
theorem mm_cat {n : Nat} (q : Fin n → Fin 512 → EReal) (hs : Fin n → Fin 522 → EReal) (ea : Fin n → Fin 512 → EReal)
    (hd : Fin n → Fin 522 → EReal) (W1 : Fin 2068 → Fin 512 → EReal) (e : Fin n) (j : Fin 512) :
    mm (cat q hs ea hd) W1 e j
      = mm q (band W1 0 512 (by omega)) e j
        + (mm hs (band W1 512 522 (by omega)) e j
          + (mm ea (band W1 1034 512 (by omega)) e j + mm hd (band W1 1546 522 (by omega)) e j)) := by
  unfold mm
  rw [sum_split (show 2068 = 512 + 1556 from rfl), sum_split (show 1556 = 522 + 1034 from rfl),
    sum_split (show 1034 = 512 + 522 from rfl)]
  refine congrArg₂ (· + ·) (Finset.sum_congr rfl fun k _ => ?_)
    (congrArg₂ (· + ·) (Finset.sum_congr rfl fun k _ => ?_)
      (congrArg₂ (· + ·) (Finset.sum_congr rfl fun k _ => ?_) (Finset.sum_congr rfl fun k _ => ?_)))
  · have hk := k.isLt
    rw [cat_first q hs ea hd e k (by omega)]
    exact congrArg (q e k * ·) (W1_row W1 j _ _ (by show k.val = 0 + k.val; omega))
  · have hk := k.isLt
    rw [cat_second q hs ea hd e k (by omega)]
    exact congrArg (hs e k * ·) (W1_row W1 j _ _ rfl)
  · have hk := k.isLt
    rw [show (⟨512 + (⟨522 + k.val, by omega⟩ : Fin 1556).val, by show 512 + (522 + k.val) < 2068; omega⟩ : Fin 2068)
        = ⟨1034 + k.val, by omega⟩ from Fin.ext (by show 512 + (522 + k.val) = 1034 + k.val; omega),
      cat_third q hs ea hd e k (by omega)]
    exact congrArg (ea e k * ·) (W1_row W1 j _ _ rfl)
  · have hk := k.isLt
    rw [show (⟨512 + (⟨522 + (⟨512 + k.val, by omega⟩ : Fin 1034).val, by show 522 + (512 + k.val) < 1556; omega⟩ : Fin 1556).val,
          by show 512 + (522 + (512 + k.val)) < 2068; omega⟩ : Fin 2068)
        = ⟨1546 + k.val, by omega⟩ from Fin.ext (by show 512 + (522 + (512 + k.val)) = 1546 + k.val; omega),
      cat_fourth q hs ea hd e k (by omega)]
    exact congrArg (hd e k * ·) (W1_row W1 j _ _ rfl)

/-- The joined arrangement of the hidden layer is the split one: the four band products re-ordered. -/
theorem hidJoined_cat {n : Nat} (q : Fin n → Fin 512 → EReal) (hs : Fin n → Fin 522 → EReal) (ea : Fin n → Fin 512 → EReal)
    (hd : Fin n → Fin 522 → EReal) (W1 : Fin 2068 → Fin 512 → EReal) (b1 : Fin 512 → EReal) (e : Fin n) (j : Fin 512) :
    hidJoined (cat q hs ea hd) W1 b1 e j
      = hid q ea (mm hs (band W1 512 522 (by omega))) (mm hd (band W1 1546 522 (by omega)))
          (band W1 0 512 (by omega)) (band W1 1034 512 (by omega)) b1 e j := by
  unfold hidJoined hid
  rw [mm_cat]
  ac_rfl

end Score

end
-- ==== Proof.CatRead.lean ====
/-
  The joined feature array, read at coordinates.

  Four rank-2 arrays of 100000 rows with 512, 522, 512 and 522 columns are laid side by side along axis 1.  The result
  at row `e` and column `k` is the piece whose span of columns holds `k`, read at row `e` and at `k` less the columns
  of the pieces before it: that is the joined row `Score.cat` of the four pieces' rows, column by column.
-/
import proofs.«123470_j91130616087124_2_alg».proof.Proof.Spec
import Idealize.ShloMosaic.Lib.Pipeline.Value

noncomputable section

namespace Score

open Idealize.ShloMosaic Idealize.ShloMosaic.ValueIdx

/-- A four-piece concatenation along the columns, read at `(e, k)`, is the joined row of the pieces' rows at `k`. -/
theorem concat4_read
    (xa : (⟨2, ![100000, 512]⟩ : Shape).Idx → EReal) (xb : (⟨2, ![100000, 522]⟩ : Shape).Idx → EReal)
    (xc : (⟨2, ![100000, 512]⟩ : Shape).Idx → EReal) (xd : (⟨2, ![100000, 522]⟩ : Shape).Idx → EReal)
    (h : Shape.Concatenates [(⟨2, ![100000, 512]⟩ : Shape), ⟨2, ![100000, 522]⟩, ⟨2, ![100000, 512]⟩, ⟨2, ![100000, 522]⟩]
      ⟨2, ![100000, 2068]⟩ 1)
    (e : Fin 100000) (k : Fin 2068) :
    concatenate (⟨2, ![100000, 2068]⟩ : Shape) 1 [⟨⟨2, ![100000, 512]⟩, xa⟩, ⟨⟨2, ![100000, 522]⟩, xb⟩,
        ⟨⟨2, ![100000, 512]⟩, xc⟩, ⟨⟨2, ![100000, 522]⟩, xd⟩] h (ix2 e k)
      = cat (rd2 xa) (rd2 xb) (rd2 xc) (rd2 xd) e k := by
  unfold cat
  split
  · next h0 =>
    refine concatenate_apply_piece _ _ _ (ix2 e k) 0 ?_ _ xa rfl rfl 0 rfl (ix2 e ⟨k.val, h0⟩) ?_ ?_
    · show 0 < 4; omega
    · intro b hb
      match b with
      | ⟨0, _⟩ => rfl
      | ⟨1, _⟩ => exact absurd rfl hb
    · show 0 + k.val = k.val; omega
  · next h0 =>
    split
    · next h1 =>
      refine concatenate_apply_piece _ _ _ (ix2 e k) 1 ?_ _ xb rfl rfl 512 rfl (ix2 e ⟨k.val - 512, by omega⟩) ?_ ?_
      · show 1 < 4; omega
      · intro b hb
        match b with
        | ⟨0, _⟩ => rfl
        | ⟨1, _⟩ => exact absurd rfl hb
      · show 512 + (k.val - 512) = k.val; omega
    · next h1 =>
      split
      · next h2 =>
        refine concatenate_apply_piece _ _ _ (ix2 e k) 2 ?_ _ xc rfl rfl 1034 rfl (ix2 e ⟨k.val - 1034, by omega⟩) ?_ ?_
        · show 2 < 4; omega
        · intro b hb
          match b with
          | ⟨0, _⟩ => rfl
          | ⟨1, _⟩ => exact absurd rfl hb
        · show 1034 + (k.val - 1034) = k.val; omega
      · next h2 =>
        refine concatenate_apply_piece _ _ _ (ix2 e k) 3 ?_ _ xd rfl rfl 1546 rfl (ix2 e ⟨k.val - 1546, by omega⟩) ?_ ?_
        · show 3 < 4; omega
        · intro b hb
          match b with
          | ⟨0, _⟩ => rfl
          | ⟨1, _⟩ => exact absurd rfl hb
        · show 1546 + (k.val - 1546) = k.val; omega

end Score

end
-- ==== Proof.RefPieces.lean ====
/-
  The two layout operations of the reference that choose what they read, at coordinates.

  A gather of whole rows of the node table by a column of row numbers reads, at `(e, c)`, the table at the row the
  `e`-th number names (read as a signed integer and clamped into the table) and column `c`.  The concatenation of the
  query rows, the gathered source rows, the attribute rows and the gathered target rows reads, at `(e, k)`, the joined
  row of the four at column `k`.
-/
import proofs.«123470_j91130616087124_2_alg».proof.Proof.Gen.ReferenceIdeal
import proofs.«123470_j91130616087124_2_alg».proof.Proof.Spec
import proofs.«123470_j91130616087124_2_alg».proof.Proof.CatRead
import proofs.«123470_j91130616087124_2_alg».proof.Proof.LibGatherRows

noncomputable section

namespace Cert.ReferenceIdeal.RefValue

open Cert.ReferenceIdeal Cert.ReferenceIdeal.Gen Idealize.ShloMosaic Idealize.ShloMosaic.ValueIdx

/-- The reference's row gather read at `(e, c)`: the table at the row the index column names for `e`, column `c`. -/
theorem gather_at (T : (⟨S50000x522, .f32⟩ : BufTy).Contents (Elt Ideal)) (idx : (⟨S100000x1, .i32⟩ : BufTy).Contents (Elt Ideal))
    (e : Fin 100000) (c : Fin 522) :
    Host.gather gather_S50000x522_S100000x1_S100000x522_1_0_n_n_0_1_1522 T idx (ix2 e c)
      = T (ix2 (Score.rowAt idx e) c) :=
  GatherRows.gather_rows_apply (by decide) _ T idx e c

/-- The reference's four-piece concatenation read at `(e, k)`: the joined row of the four pieces' rows at `k`. -/
theorem concat_at (h : Shape.Concatenates [S100000x512, S100000x522, S100000x512, S100000x522] S100000x2068 1)
    (xa : (⟨S100000x512, .f32⟩ : BufTy).Contents (Elt Ideal)) (xb : (⟨S100000x522, .f32⟩ : BufTy).Contents (Elt Ideal))
    (xc : (⟨S100000x512, .f32⟩ : BufTy).Contents (Elt Ideal)) (xd : (⟨S100000x522, .f32⟩ : BufTy).Contents (Elt Ideal))
    (e : Fin 100000) (k : Fin 2068) :
    concatenate S100000x2068 1 [⟨S100000x512, xa⟩, ⟨S100000x522, xb⟩, ⟨S100000x512, xc⟩, ⟨S100000x522, xd⟩] h (ix2 e k)
      = Score.cat (Score.rd2 xa) (Score.rd2 xb) (Score.rd2 xc) (Score.rd2 xd) e k :=
  Score.concat4_read xa xb xc xd h e k

end Cert.ReferenceIdeal.RefValue

end
-- ==== Proof.RefRead.lean ====
/-
  The reference's score of an edge, as the split arrangement's formula.

  Read one operation at a time from the outside in, the reference's result at edge `e` is: the sum over the 512 hidden
  lanes of the clamped hidden value times the output weight, plus the output bias; the hidden value at lane `j` is the
  sum over the 2068 columns of the joined feature row times `W1`, plus the hidden bias.  The joined row is the query
  row, the node table's row of the source, the attribute row and the node table's row of the target, laid end to end.
  Cutting the sum at the three seams and re-ordering the four band products gives the split arrangement; a band product
  against a gathered row of the node table is the band product against the table, read at the gathered row.  The node
  table itself is never opened: it is one array, whatever computed it.
-/
import proofs.«123470_j91130616087124_2_alg».proof.Proof.RefStages
import proofs.«123470_j91130616087124_2_alg».proof.Proof.Spec
import proofs.«123470_j91130616087124_2_alg».proof.Proof.Bridge
import proofs.«123470_j91130616087124_2_alg».proof.Proof.RefPieces

noncomputable section

namespace Cert.ReferenceIdeal.RefValue

open Cert.ReferenceIdeal Cert.ReferenceIdeal.Gen Idealize.ShloMosaic Idealize.ShloMosaic.ValueIdx

/-- The gathered source rows: row `e` is the node table's row that the source column names for `e`. -/
theorem src_rows (x0 : (⟨S50000x512, .f32⟩ : BufTy).Contents (Elt Ideal)) (x1 : (⟨S2x100000, .i32⟩ : BufTy).Contents (Elt Ideal))
    (x3 : (⟨S50000x2, .f32⟩ : BufTy).Contents (Elt Ideal)) (x5 : (⟨S1x512, .f32⟩ : BufTy).Contents (Elt Ideal))
    (e : Fin 100000) (c : Fin 522) :
    Read.val_main_v88 (F := Ideal) x0 x1 x3 x5 (ix2 e c)
      = Read.val_main_v81 (F := Ideal) x0 x1 x3 x5 (ix2 (Score.rowAt (Read.val_main_v87 (F := Ideal) x1) e) c) := by
  unfold Read.val_main_v88
  generalize Read.val_main_v81 (F := Ideal) x0 x1 x3 x5 = T
  generalize Read.val_main_v87 (F := Ideal) x1 = idx
  exact gather_at T idx e c

/-- The gathered target rows: row `e` is the node table's row that the target column names for `e`. -/
theorem dst_rows (x0 : (⟨S50000x512, .f32⟩ : BufTy).Contents (Elt Ideal)) (x1 : (⟨S2x100000, .i32⟩ : BufTy).Contents (Elt Ideal))
    (x3 : (⟨S50000x2, .f32⟩ : BufTy).Contents (Elt Ideal)) (x5 : (⟨S1x512, .f32⟩ : BufTy).Contents (Elt Ideal))
    (e : Fin 100000) (c : Fin 522) :
    Read.val_main_v95 (F := Ideal) x0 x1 x3 x5 (ix2 e c)
      = Read.val_main_v81 (F := Ideal) x0 x1 x3 x5 (ix2 (Score.rowAt (Read.val_main_v94 (F := Ideal) x1) e) c) := by
  unfold Read.val_main_v95
  generalize Read.val_main_v81 (F := Ideal) x0 x1 x3 x5 = T
  generalize Read.val_main_v94 (F := Ideal) x1 = idx
  exact gather_at T idx e c

/-- The joined feature array at `(e, k)`: the joined row of the query, source, attribute and target rows. -/
theorem joined_row (x0 : (⟨S50000x512, .f32⟩ : BufTy).Contents (Elt Ideal)) (x1 : (⟨S2x100000, .i32⟩ : BufTy).Contents (Elt Ideal))
    (x2 : (⟨S100000x512, .f32⟩ : BufTy).Contents (Elt Ideal)) (x3 : (⟨S50000x2, .f32⟩ : BufTy).Contents (Elt Ideal))
    (x4 : (⟨S100000x512, .f32⟩ : BufTy).Contents (Elt Ideal)) (x5 : (⟨S1x512, .f32⟩ : BufTy).Contents (Elt Ideal))
    (e : Fin 100000) (k : Fin 2068) :
    Read.val_main_v96 (F := Ideal) x0 x1 x2 x3 x4 x5 (ix2 e k)
      = Score.cat (Score.rd2 x4) (Score.rd2 (Read.val_main_v88 (F := Ideal) x0 x1 x3 x5)) (Score.rd2 x2)
          (Score.rd2 (Read.val_main_v95 (F := Ideal) x0 x1 x3 x5)) e k := by
  unfold Read.val_main_v96
  generalize Read.val_main_v88 (F := Ideal) x0 x1 x3 x5 = G1
  generalize Read.val_main_v95 (F := Ideal) x0 x1 x3 x5 = G2
  exact concat_at _ x4 G1 x2 G2 e k

/-- The hidden layer before its clamp, at edge `e` and lane `j`, in the split arrangement. -/
theorem hidden_at (x0 : (⟨S50000x512, .f32⟩ : BufTy).Contents (Elt Ideal)) (x1 : (⟨S2x100000, .i32⟩ : BufTy).Contents (Elt Ideal))
    (x2 : (⟨S100000x512, .f32⟩ : BufTy).Contents (Elt Ideal)) (x3 : (⟨S50000x2, .f32⟩ : BufTy).Contents (Elt Ideal))
    (x4 : (⟨S100000x512, .f32⟩ : BufTy).Contents (Elt Ideal)) (x5 : (⟨S1x512, .f32⟩ : BufTy).Contents (Elt Ideal))
    (x6 : (⟨S2068x512, .f32⟩ : BufTy).Contents (Elt Ideal)) (x7 : (⟨S512, .f32⟩ : BufTy).Contents (Elt Ideal))
    (e : Fin 100000) (j : Fin 512) :
    Read.val_main_v100 (F := Ideal) x0 x1 x2 x3 x4 x5 x6 x7 (ix2 e j)
      = (Score.hid (Score.rd2 x4) (Score.rd2 x2)
          (fun e j => Score.mm (Score.rd2 (Read.val_main_v81 (F := Ideal) x0 x1 x3 x5)) (Score.band (Score.rd2 x6) 512 522 (by omega)) (Score.rowAt (Read.val_main_v87 (F := Ideal) x1) e) j)
          (fun e j => Score.mm (Score.rd2 (Read.val_main_v81 (F := Ideal) x0 x1 x3 x5)) (Score.band (Score.rd2 x6) 1546 522 (by omega)) (Score.rowAt (Read.val_main_v94 (F := Ideal) x1) e) j)
          (Score.band (Score.rd2 x6) 0 512 (by omega)) (Score.band (Score.rd2 x6) 1034 512 (by omega)) (Score.rd1 x7)) e j := by
  have il : ∀ k : Fin 2068, Read.lidx_main_v97 (ix2 e j) k = ix2 e k := fun k => funext fun a => Fin.ext (by
    match a with
    | ⟨0, _⟩ => rfl
    | ⟨1, _⟩ => rfl)
  have ir : ∀ k : Fin 2068, Read.ridx_main_v97 (ix2 e j) k = ix2 k j := fun k => funext fun a => Fin.ext (by
    match a with
    | ⟨0, _⟩ => rfl
    | ⟨1, _⟩ => rfl)
  have ib : Read.idx_main_v98 (Read.idx_main_v99 (ix2 e j)) = ix1 j := funext fun a => Fin.ext (by
    match a with
    | ⟨0, _⟩ => rfl)
  -- the 2068-wide product is the product of the joined row with all of W1
  have hsum : ∑ k : Fin 2068, Read.val_main_v96 (F := Ideal) x0 x1 x2 x3 x4 x5 (Read.lidx_main_v97 (ix2 e j) k)
        * x6 (Read.ridx_main_v97 (ix2 e j) k)
      = Score.mm (Score.cat (Score.rd2 x4) (Score.rd2 (Read.val_main_v88 (F := Ideal) x0 x1 x3 x5)) (Score.rd2 x2)
          (Score.rd2 (Read.val_main_v95 (F := Ideal) x0 x1 x3 x5))) (Score.rd2 x6) e j := by
    unfold Score.mm
    refine Finset.sum_congr rfl fun k _ => ?_
    rw [il k, ir k, joined_row]
  -- a band product against gathered rows is the band product against the table, at the gathered row
  have hs : Score.mm (Score.rd2 (Read.val_main_v88 (F := Ideal) x0 x1 x3 x5)) (Score.band (Score.rd2 x6) 512 522 (by omega)) e j
      = Score.mm (Score.rd2 (Read.val_main_v81 (F := Ideal) x0 x1 x3 x5)) (Score.band (Score.rd2 x6) 512 522 (by omega)) (Score.rowAt (Read.val_main_v87 (F := Ideal) x1) e) j := by
    unfold Score.mm
    refine Finset.sum_congr rfl fun t _ => ?_
    exact congrArg (fun z => z * (Score.band (Score.rd2 x6) 512 522 (by omega)) t j) (src_rows x0 x1 x3 x5 e t)
  have hd : Score.mm (Score.rd2 (Read.val_main_v95 (F := Ideal) x0 x1 x3 x5)) (Score.band (Score.rd2 x6) 1546 522 (by omega)) e j
      = Score.mm (Score.rd2 (Read.val_main_v81 (F := Ideal) x0 x1 x3 x5)) (Score.band (Score.rd2 x6) 1546 522 (by omega)) (Score.rowAt (Read.val_main_v94 (F := Ideal) x1) e) j := by
    unfold Score.mm
    refine Finset.sum_congr rfl fun t _ => ?_
    exact congrArg (fun z => z * (Score.band (Score.rd2 x6) 1546 522 (by omega)) t j) (dst_rows x0 x1 x3 x5 e t)
  have hj := Score.hidJoined_cat (Score.rd2 x4) (Score.rd2 (Read.val_main_v88 (F := Ideal) x0 x1 x3 x5)) (Score.rd2 x2)
    (Score.rd2 (Read.val_main_v95 (F := Ideal) x0 x1 x3 x5)) (Score.rd2 x6) (Score.rd1 x7) e j
  unfold Score.hidJoined at hj
  rw [Read.val_main_v100_apply, Read.val_main_v97_apply, Read.val_main_v99_apply, Read.val_main_v98_apply, ib,
    Ideal.addf_def, hsum]
  refine hj.trans ?_
  unfold Score.hid
  rw [hs, hd]

/-- The reference's result at edge `e`: the output layer on the split arrangement's hidden layer. -/
theorem ref_value (x0 : (⟨S50000x512, .f32⟩ : BufTy).Contents (Elt Ideal)) (x1 : (⟨S2x100000, .i32⟩ : BufTy).Contents (Elt Ideal))
    (x2 : (⟨S100000x512, .f32⟩ : BufTy).Contents (Elt Ideal)) (x3 : (⟨S50000x2, .f32⟩ : BufTy).Contents (Elt Ideal))
    (x4 : (⟨S100000x512, .f32⟩ : BufTy).Contents (Elt Ideal)) (x5 : (⟨S1x512, .f32⟩ : BufTy).Contents (Elt Ideal))
    (x6 : (⟨S2068x512, .f32⟩ : BufTy).Contents (Elt Ideal)) (x7 : (⟨S512, .f32⟩ : BufTy).Contents (Elt Ideal))
    (x8 : (⟨S512x1, .f32⟩ : BufTy).Contents (Elt Ideal)) (x9 : (⟨S1, .f32⟩ : BufTy).Contents (Elt Ideal))
    (e : Fin 100000) :
    Read.val_main_v106 (F := Ideal) x0 x1 x2 x3 x4 x5 x6 x7 x8 x9 (ix1 e)
      = Score.out (Score.hid (Score.rd2 x4) (Score.rd2 x2)
          (fun e j => Score.mm (Score.rd2 (Read.val_main_v81 (F := Ideal) x0 x1 x3 x5)) (Score.band (Score.rd2 x6) 512 522 (by omega)) (Score.rowAt (Read.val_main_v87 (F := Ideal) x1) e) j)
          (fun e j => Score.mm (Score.rd2 (Read.val_main_v81 (F := Ideal) x0 x1 x3 x5)) (Score.band (Score.rd2 x6) 1546 522 (by omega)) (Score.rowAt (Read.val_main_v94 (F := Ideal) x1) e) j)
          (Score.band (Score.rd2 x6) 0 512 (by omega)) (Score.band (Score.rd2 x6) 1034 512 (by omega)) (Score.rd1 x7))
          (fun j => x8 (ix2 j (0 : Fin 1))) (x9 (ix1 (0 : Fin 1))) e := by
  have i106 : Read.idx_main_v106 (ix1 e) = ix2 e (0 : Fin 1) := funext fun a => Fin.ext (by
    match a with
    | ⟨0, _⟩ => exact Nat.div_one _
    | ⟨1, _⟩ => rfl)
  have i104 : Read.idx_main_v103 (Read.idx_main_v104 (ix2 e (0 : Fin 1))) = ix1 (0 : Fin 1) := funext fun a => Fin.ext (by
    match a with
    | ⟨0, _⟩ => rfl)
  rw [Read.val_main_v106_apply, i106, Read.val_main_v105_apply, Read.val_main_v104_apply, Read.val_main_v103_apply, i104,
    Read.val_main_v102_apply, Ideal.addf_def]
  unfold Score.out
  refine congrArg (fun z => z + x9 (ix1 (0 : Fin 1))) (Finset.sum_congr rfl fun j _ => ?_)
  have il : Read.lidx_main_v102 (ix2 e (0 : Fin 1)) j = ix2 e j := funext fun a => Fin.ext (by
    match a with
    | ⟨0, _⟩ => rfl
    | ⟨1, _⟩ => rfl)
  have ir : Read.ridx_main_v102 (ix2 e (0 : Fin 1)) j = ix2 j (0 : Fin 1) := funext fun a => Fin.ext (by
    match a with
    | ⟨0, _⟩ => rfl
    | ⟨1, _⟩ => rfl)
  rw [il, ir, Read.val_main_v101_apply, Read.val_main_call1_v0_apply, Read.val_main_call1_cst_apply, Ideal.maximumf_def,
    Ideal.ofBits_def, Ideal.ofBits_zero_f32, hidden_at]

end Cert.ReferenceIdeal.RefValue

end
-- ==== Proof.lean ====
/-
  The certificate of the triple scorer against its reference.

  Both programs score edge `e` of a graph from its query row, its attribute row and the node-table rows of its two end
  points by a two-layer perceptron. The reference lays the four rows end to end and multiplies once by the whole first
  weight matrix; the kernel program cuts that matrix into the four bands of rows that meet the four pieces, multiplies
  the node table by its two bands once per NODE in a first region, gathers those products' rows at the end points,
  and in a second region adds them to the two per-edge products, adds the bias, clamps at zero, weighs by the second
  layer and sums the lanes. At the ideal instance every float is an extended real and a change of float format is the
  identity, so the two results are the same finite sums differently grouped: a sum over consecutive index ranges is
  the sum of the ranges' sums, a row of a product is the product of the row, and addition on the extended reals is
  commutative and associative. No finiteness of the inputs is used; the precondition is never opened.
  The node table itself (the learned row written over all-zero rows, the topic columns, four rounds of mean
  aggregation) is computed by the same host operations in both programs and is carried as one array, never opened.

  The three frames: each kernel program's run is seven segments — three host stretches, region 0, the gather stretch,
  region 1, the closing reshape — whose bodies run on whole staging buffers; the reference is one line of host
  operations. No segment writes an argument.
-/
import proofs.«123470_j91130616087124_2_alg».proof.Defs
import proofs.«123470_j91130616087124_2_alg».proof.Proof.Gen.Kernel
import proofs.«123470_j91130616087124_2_alg».proof.Proof.Gen.KernelIdeal
import proofs.«123470_j91130616087124_2_alg».proof.Proof.Gen.ReferenceIdeal
import proofs.«123470_j91130616087124_2_alg».proof.Proof.Gen.Pre_finite_inputs
import proofs.«123470_j91130616087124_2_alg».proof.Proof.KbRun
import proofs.«123470_j91130616087124_2_alg».proof.Proof.KiRun
import proofs.«123470_j91130616087124_2_alg».proof.Proof.KiValue
import proofs.«123470_j91130616087124_2_alg».proof.Proof.RefResult
import proofs.«123470_j91130616087124_2_alg».proof.Proof.RefRead
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ => Cert.ReferenceIdeal.RunH.frame (F := Ideal) m ρ

/-- The ideal pass rewrote no operation: the idealization is the program's own text read at the ideal instance. -/
theorem preserves : Cert.preserves_Kernel_KernelIdeal := trivial

/-- From memories agreeing on the arguments both idealized programs run, the kernel program's result array is the
    split-arrangement score of its arguments and the reference's the same expression of its own: one function. -/
theorem algebraic : Cert.algebraic_KernelIdeal_ReferenceIdeal := by
  intro m ρ m' ρ' _ hagree
  refine ⟨fun c => Cert.KernelIdeal.Fr.W7 (F := Ideal) m ρ c (Proc.devRef .tc Cert.KernelIdeal.main_v95), ?_, ?_⟩
  · exact (θ_run Cert.KernelIdeal.defs _ _).mono (fun r h c =>
      ⟨h c _ (Cert.KernelIdeal.Fr.mem_uc Cert.KernelIdeal.main_v95 (by decide)),
       (h c _ (Cert.KernelIdeal.Fr.mem_uc Cert.KernelIdeal.main_arg0 (by decide))).trans (Cert.KernelIdeal.Fr.W7_main_arg0 m ρ c),
       (h c _ (Cert.KernelIdeal.Fr.mem_uc Cert.KernelIdeal.main_arg1 (by decide))).trans (Cert.KernelIdeal.Fr.W7_main_arg1 m ρ c),
       (h c _ (Cert.KernelIdeal.Fr.mem_uc Cert.KernelIdeal.main_arg2 (by decide))).trans (Cert.KernelIdeal.Fr.W7_main_arg2 m ρ c),
       (h c _ (Cert.KernelIdeal.Fr.mem_uc Cert.KernelIdeal.main_arg3 (by decide))).trans (Cert.KernelIdeal.Fr.W7_main_arg3 m ρ c),
       (h c _ (Cert.KernelIdeal.Fr.mem_uc Cert.KernelIdeal.main_arg4 (by decide))).trans (Cert.KernelIdeal.Fr.W7_main_arg4 m ρ c),
       (h c _ (Cert.KernelIdeal.Fr.mem_uc Cert.KernelIdeal.main_arg5 (by decide))).trans (Cert.KernelIdeal.Fr.W7_main_arg5 m ρ c),
       (h c _ (Cert.KernelIdeal.Fr.mem_uc Cert.KernelIdeal.main_arg6 (by decide))).trans (Cert.KernelIdeal.Fr.W7_main_arg6 m ρ c),
       (h c _ (Cert.KernelIdeal.Fr.mem_uc Cert.KernelIdeal.main_arg7 (by decide))).trans (Cert.KernelIdeal.Fr.W7_main_arg7 m ρ c),
       (h c _ (Cert.KernelIdeal.Fr.mem_uc Cert.KernelIdeal.main_arg8 (by decide))).trans (Cert.KernelIdeal.Fr.W7_main_arg8 m ρ c),
       (h c _ (Cert.KernelIdeal.Fr.mem_uc Cert.KernelIdeal.main_arg9 (by decide))).trans (Cert.KernelIdeal.Fr.W7_main_arg9 m ρ c)⟩)
      (Cert.KernelIdeal.Fr.run_all (F := Ideal) m ρ)
  · refine (θ_run Cert.ReferenceIdeal.defs _ _).mono (fun r h c => ⟨(h c).1.trans ?_, (h c).2⟩)
      (Cert.ReferenceIdeal.RunH.run_value m' ρ')
    funext i
    obtain ⟨e, rfl⟩ : ∃ e : Fin 100000, i = ix1 e := ⟨i 0, eq_ix1 i⟩
    rw [Cert.ReferenceIdeal.RefValue.ref_value]
    refine Eq.trans ?_ (Cert.KernelIdeal.Val.result_apply m ρ c e).symm
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
